-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32 : Shape := ⟨2, ![40000, 32]⟩
abbrev S2x640000 : Shape := ⟨2, ![2, 640000]⟩
abbrev S640000x16 : Shape := ⟨2, ![640000, 16]⟩
abbrev S40000 : Shape := ⟨1, ![40000]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S512x256 : Shape := ⟨2, ![512, 256]⟩
abbrev S256 : Shape := ⟨1, ![256]⟩
abbrev S_ : Shape := ⟨0, ![]⟩

class Facts : Prop where
  bcast_S_S40000x32 : S_.BroadcastsInDim S40000x32 (![] : Fin 0 → Fin S40000x32.rank)
  reducesTo_S40000x32_S_d0_1 : S40000x32.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S128x128 : S_.BroadcastsInDim S128x128 (![] : Fin 0 → Fin S128x128.rank)
  reducesTo_S128x128_S_d0_1 : S128x128.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg13 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S512x256 .f32) (main_arg13 : FVec F S256 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S512x256 .f32 := Host.absf main_arg12
  let main_cst_18 : FVec F S_ .f32 := constant S_ .f32 0x7F800000#32
  let main_v50 : FVec F S512x256 .f32 := broadcastInDim S512x256 ![] bcast_S_S512x256 main_cst_18
  fn_part3 (F := F) main_arg13 main_v48 main_v49 main_v50

def fn_part1 {F : FTy → Type} [FloatOps F] (main_arg6 : FVec F S16x128 .f32) (main_arg7 : FVec F S128 .f32) (main_arg8 : FVec F S128x128 .f32) (main_arg9 : FVec F S128 .f32) (main_arg10 : FVec F S128x128 .f32) (main_arg11 : FVec F S128 .f32) (main_arg12 : FVec F S512x256 .f32) (main_arg13 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg6
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S40000x32 .f32) (main_arg1 : IVec S2x640000 32) (main_arg2 : FVec F S640000x16 .f32) (main_arg3 : IVec S40000 32) (main_arg4 : FVec F S32x128 .f32) (main_arg5 : FVec F S128 .f32) (main_arg6 : FVec F S16x128 .f32) (main_arg7 : FVec F S128 .f32) (main_arg8 : FVec F S128x128 .f32) (main_arg9 : FVec F S128 .f32) (main_arg10 : FVec F S128x128 .f32) (main_arg11 : FVec F S128 .f32) (main_arg12 : FVec F S512x256 .f32) (main_arg13 : FVec F S256 .f32) : IVec S_ 1 :=
  let main_v0 : FVec F S40000x32 .f32 := Host.absf main_arg0
  let main_cst : FVec F S_ .f32 := constant S_ .f32 0x7F800000#32
  let main_v1 : FVec F S40000x32 .f32 := broadcastInDim S40000x32 ![] bcast_S_S40000x32 main_cst
  let main_v2 : IVec S40000x32 1 := cmpf .olt main_v0 main_v1
  let main_c : IVec S_ 1 := constantI S_ 1 1#1
  let main_v3 : IVec S_ 1 := (fun x v => Host.reduce IntOp.andi x v reducesTo_S40000x32_S_d0_1 h_S_) main_v2 main_c
  let main_v4 : FVec F S640000x16 .f32 := Host.absf main_arg2
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S40000x32 : Shape := ⟨2, ![40000, 32]⟩
abbrev S2x640000 : Shape := ⟨2, ![2, 640000]⟩
abbrev S640000x16 : Shape := ⟨2, ![640000, 16]⟩
abbrev S40000 : Shape := ⟨1, ![40000]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S512x256 : Shape := ⟨2, ![512, 256]⟩
abbrev S256 : Shape := ⟨1, ![256]⟩
abbrev S1x640000 : Shape := ⟨2, ![1, 640000]⟩
abbrev S640000 : Shape := ⟨1, ![640000]⟩
abbrev S40000x128 : Shape := ⟨2, ![40000, 128]⟩
abbrev S5000x32 : Shape := ⟨2, ![5000, 32]⟩
abbrev S5000x128 : Shape := ⟨2, ![5000, 128]⟩
abbrev S1x128 : Shape := ⟨2, ![1, 128]⟩
abbrev S640000x128 : Shape := ⟨2, ![640000, 128]⟩
abbrev S8000x16 : Shape := ⟨2, ![8000, 16]⟩
abbrev S8000x128 : Shape := ⟨2, ![8000, 128]⟩
abbrev S_ : Shape := ⟨0, ![]⟩
abbrev S640000x1 : Shape := ⟨2, ![640000, 1]⟩
abbrev S64x128 : Shape := ⟨2, ![64, 128]⟩
abbrev S40000x1 : Shape := ⟨2, ![40000, 1]⟩
abbrev S64x512 : Shape := ⟨2, ![64, 512]⟩
abbrev S64x256 : Shape := ⟨2, ![64, 256]⟩
abbrev S1x256 : Shape := ⟨2, ![1, 256]⟩

abbrev nBuf : Space → Nat
  | .hbm => 114
  | .vmem => 56
  | .smem => 0
  | _ => 0

abbrev bufTy : (tb : Table) → Fin (tcTables nBuf tb) → BufTy
  | .hbm, ⟨0, _⟩ => ⟨S40000x32, .f32⟩
  | .hbm, ⟨1, _⟩ => ⟨S2x640000, .i32⟩
  | .hbm, ⟨2, _⟩ => ⟨S640000x16, .f32⟩
  | .hbm, ⟨3, _⟩ => ⟨S40000, .i32⟩
  | .hbm, ⟨4, _⟩ => ⟨S32x128, .f32⟩
  | .hbm, ⟨5, _⟩ => ⟨S128, .f32⟩
  | .hbm, ⟨6, _⟩ => ⟨S16x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S512x256, .f32⟩
  | .hbm, ⟨13, _⟩ => ⟨S256, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S40000x128, .f32⟩
  | .hbm, ⟨19, _⟩ => ⟨S640000x128, .bf16⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S40000x128, .f32⟩
  | .hbm, ⟨39, _⟩ => ⟨S_, .f32⟩
  | .hbm, ⟨40, _⟩ => ⟨S64x128, .f32⟩
  | .hbm, ⟨41, _⟩ => ⟨S40000x1, .i32⟩
  | .hbm, ⟨42, _⟩ => ⟨S64x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S640000x128, .f32⟩
  | .hbm, ⟨53, _⟩ => ⟨S640000x128, .f32⟩
  | .hbm, ⟨54, _⟩ => ⟨S_, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S40000x128, .f32⟩
  | .hbm, ⟨62, _⟩ => ⟨S_, .f32⟩
  | .hbm, ⟨63, _⟩ => ⟨S64x128, .f32⟩
  | .hbm, ⟨64, _⟩ => ⟨S40000x1, .i32⟩
  | .hbm, ⟨65, _⟩ => ⟨S64x128, .f32⟩
  | .hbm, ⟨66, _⟩ => ⟨S_, .i32⟩
  | .hbm, ⟨67, _⟩ => ⟨S640000, .i32⟩
  | .hbm, ⟨68, _⟩ => ⟨S640000, .i1⟩
  | .hbm, ⟨69, _⟩ => ⟨S_, .i32⟩
  | .hbm, ⟨70, _⟩ => ⟨S640000, .i32⟩
  | .hbm, ⟨71, _⟩ => ⟨S640000, .i32⟩
  | .hbm, ⟨72, _⟩ => ⟨S640000, .i32⟩
  | .hbm, ⟨73, _⟩ => ⟨S640000x1, .i32⟩
  | .hbm, ⟨74, _⟩ => ⟨S640000x128, .f32⟩
  | .hbm, ⟨75, _⟩ => ⟨S640000x128, .f32⟩
  | .hbm, ⟨76, _⟩ => ⟨S640000x128, .f32⟩
  | .hbm, ⟨77, _⟩ => ⟨S_, .f32⟩
  | .hbm, ⟨78, _⟩ => ⟨S640000x128, .f32⟩
  | .hbm, ⟨79, _⟩ => ⟨S640000x128, .f32⟩
  | .hbm, ⟨80, _⟩ => ⟨S_, .f32⟩
  | .hbm, ⟨81, _⟩ => ⟨S40000x128, .f32⟩
  | .hbm, ⟨82, _⟩ => ⟨S640000x1, .i32⟩
  | .hbm, ⟨83, _⟩ => ⟨S40000x128, .f32⟩
  | .hbm, ⟨84, _⟩ => ⟨S40000x128, .f32⟩
  | .hbm, ⟨85, _⟩ => ⟨S_, .f32⟩
  | .hbm, ⟨86, _⟩ => ⟨S64x128, .f32⟩
  | .hbm, ⟨87, _⟩ => ⟨S40000x1, .i32⟩
  | .hbm, ⟨88, _⟩ => ⟨S64x128, .f32⟩
  | .hbm, ⟨89, _⟩ => ⟨S_, .i32⟩
  | .hbm, ⟨90, _⟩ => ⟨S640000, .i32⟩
  | .hbm, ⟨91, _⟩ => ⟨S640000, .i1⟩
  | .hbm, ⟨92, _⟩ => ⟨S_, .i32⟩
  | .hbm, ⟨93, _⟩ => ⟨S640000, .i32⟩
  | .hbm, ⟨94, _⟩ => ⟨S640000, .i32⟩
  | .hbm, ⟨95, _⟩ => ⟨S640000, .i32⟩
  | .hbm, ⟨96, _⟩ => ⟨S640000x1, .i32⟩
  | .hbm, ⟨97, _⟩ => ⟨S640000x128, .f32⟩
  | .hbm, ⟨98, _⟩ => ⟨S640000x128, .f32⟩
  | .hbm, ⟨99, _⟩ => ⟨S640000x128, .f32⟩
  | .hbm, ⟨100, _⟩ => ⟨S_, .f32⟩
  | .hbm, ⟨101, _⟩ => ⟨S640000x128, .f32⟩
  | .hbm, ⟨102, _⟩ => ⟨S640000x128, .f32⟩
  | .hbm, ⟨103, _⟩ => ⟨S_, .f32⟩
  | .hbm, ⟨104, _⟩ => ⟨S40000x128, .f32⟩
  | .hbm, ⟨105, _⟩ => ⟨S640000x1, .i32⟩
  | .hbm, ⟨106, _⟩ => ⟨S40000x128, .f32⟩
  | .hbm, ⟨107, _⟩ => ⟨S40000x128, .f32⟩
  | .hbm, ⟨108, _⟩ => ⟨S_, .f32⟩
  | .hbm, ⟨109, _⟩ => ⟨S64x128, .f32⟩
  | .hbm, ⟨110, _⟩ => ⟨S40000x1, .i32⟩
  | .hbm, ⟨111, _⟩ => ⟨S64x128, .f32⟩
  | .hbm, ⟨112, _⟩ => ⟨S64x512, .f32⟩
  | .hbm, ⟨113, _⟩ => ⟨S64x256, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S8000x16, .f32⟩
  | .local _ .vmem, ⟨7, _⟩ => ⟨S8000x16, .f32⟩
  | .local _ .vmem, ⟨8, _⟩ => ⟨S16x128, .f32⟩
  | .local _ .vmem, ⟨9, _⟩ => ⟨S128, .f32⟩
  | .local _ .vmem, ⟨10, _⟩ => ⟨S8000x128, .bf16⟩
  | .local _ .vmem, ⟨11, _⟩ => ⟨S8000x128, .bf16⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S128, .f32⟩
  | .local _ .vmem, ⟨48, _⟩ => ⟨S128x128, .f32⟩
  | .local _ .vmem, ⟨49, _⟩ => ⟨S128, .f32⟩
  | .local _ .vmem, ⟨50, _⟩ => ⟨S5000x128, .f32⟩
  | .local _ .vmem, ⟨51, _⟩ => ⟨S5000x128, .f32⟩
  | .local _ .vmem, ⟨52, _⟩ => ⟨S64x512, .f32⟩
  | .local _ .vmem, ⟨53, _⟩ => ⟨S512x256, .f32⟩
  | .local _ .vmem, ⟨54, _⟩ => ⟨S256, .f32⟩
  | .local _ .vmem, ⟨55, _⟩ => ⟨S64x256, .f32⟩
  | _, _ => ⟨S40000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_cst : Ref sig .tc := ⟨.hbm, 31, rfl⟩
abbrev main_call0_v0 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_c_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call2_cst : Ref sig .tc := ⟨.hbm, 77, rfl⟩
abbrev main_call2_v0 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call3_cst : Ref sig .tc := ⟨.hbm, 100, rfl⟩
abbrev main_call3_v0 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem6_1 : DmaSem sig := 51
abbrev cc6_sem0_0 : DmaSem sig := 52
abbrev cc6_sem1_0 : DmaSem sig := 53
abbrev cc6_sem2_0 : DmaSem sig := 54
abbrev cc6_sem3_0 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S64x512 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S512x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S40000_S40000x1_0 : S40000.BroadcastsInDim S40000x1 (![0] : Fin 1 → Fin S40000x1.rank)
  concatenates_S64x128_S64x128_S64x128_S64x128_S64x512_d1 : Shape.Concatenates [S64x128, S64x128, S64x128, S64x128] S64x512 1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S5000x32_S32x128_S5000x128_1_0_0_1_n_n_wf : DotDims.WF S5000x32 S32x128 S5000x128 [1] [0] [0] [1] [] []
  dot_S8000x16_S16x128_S8000x128_1_0_0_1_n_n_wf : DotDims.WF S8000x16 S16x128 S8000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  scatter_S64x128_S40000x1_S40000x128_1_0_0_1_wf : ScatterDims.WF S64x128 S40000x1 S40000x128 [1] [0] [0] 1
  dot_S64x512_S512x256_S64x256_1_0_0_1_n_n_wf : DotDims.WF S64x512 S512x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S40000x32.size a
  hwx0_0 : ∀ i : grid0.Coords, EltTy.bits .f32 = 32 ∨ (Rect.block (s := S40000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S640000x16.size a
  hwx1_0 : ∀ i : grid1.Coords, EltTy.bits .f32 = 32 ∨ (Rect.block (s := S640000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S640000x128.size a
  hwx1_3 : ∀ i : grid1.Coords, EltTy.bits .bf16 = 32 ∨ (Rect.block (s := S640000x128) S8000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S40000x128.size a
  hwx2_6 : ∀ i : grid2.Coords, EltTy.bits .f32 = 32 ∨ (Rect.block (s := S40000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S40000x128.size a
  hwx3_1 : ∀ i : grid3.Coords, EltTy.bits .f32 = 32 ∨ (Rect.block (s := S40000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S40000x128.size a
  hwx3_6 : ∀ i : grid3.Coords, EltTy.bits .f32 = 32 ∨ (Rect.block (s := S40000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S40000x128.size a
  hwx4_1 : ∀ i : grid4.Coords, EltTy.bits .f32 = 32 ∨ (Rect.block (s := S40000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S40000x128.size a
  hwx4_6 : ∀ i : grid4.Coords, EltTy.bits .f32 = 32 ∨ (Rect.block (s := S40000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S40000x128.size a
  hwx5_0 : ∀ i : grid5.Coords, EltTy.bits .f32 = 32 ∨ (Rect.block (s := S40000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S40000x128.size a
  hwx5_1 : ∀ i : grid5.Coords, EltTy.bits .f32 = 32 ∨ (Rect.block (s := S40000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S40000x128.size a
  hwx5_6 : ∀ i : grid5.Coords, EltTy.bits .f32 = 32 ∨ (Rect.block (s := S40000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S64x512.size a ≤ S64x512.size a
  hwx6_0 : ∀ i : grid6.Coords, EltTy.bits .f32 = 32 ∨ (Rect.block (s := S64x512) S64x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .f32 = 32 ∨ (Rect.block (s := S512x256) S512x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256.size a ≤ S256.size a
  hwx6_2 : ∀ i : grid6.Coords, EltTy.bits .f32 = 32 ∨ (Rect.block (s := S256) S256.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S64x256.size a ≤ S64x256.size a
  hwx6_3 : ∀ i : grid6.Coords, EltTy.bits .f32 = 32 ∨ (Rect.block (s := S64x256) S64x256.size (cc6_transform_3 i) (hinb6_3 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v19) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v36) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v53) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v53) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg10) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg11) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v74) S64x512.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S512x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg13) S256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v75) S64x256.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S40000x32 : Shape := ⟨2, ![40000, 32]⟩
abbrev S2x640000 : Shape := ⟨2, ![2, 640000]⟩
abbrev S640000x16 : Shape := ⟨2, ![640000, 16]⟩
abbrev S40000 : Shape := ⟨1, ![40000]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S512x256 : Shape := ⟨2, ![512, 256]⟩
abbrev S256 : Shape := ⟨1, ![256]⟩
abbrev S40000x128 : Shape := ⟨2, ![40000, 128]⟩
abbrev S1x128 : Shape := ⟨2, ![1, 128]⟩
abbrev S640000x128 : Shape := ⟨2, ![640000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x512 : Shape := ⟨2, ![40000, 512]⟩
abbrev S64x512 : Shape := ⟨2, ![64, 512]⟩
abbrev S40000x1 : Shape := ⟨2, ![40000, 1]⟩
abbrev S64x256 : Shape := ⟨2, ![64, 256]⟩
abbrev S1x256 : Shape := ⟨2, ![1, 256]⟩

abbrev nBuf : Space → Nat
  | .hbm => 151
  | .vmem => 0
  | .smem => 0
  | _ => 0

abbrev hbmTy0_0 (i : Nat) : BufTy := match i % 128 with
  | 0 => ⟨S40000x32, .f32⟩
  | 1 => ⟨S2x640000, .i32⟩
  | 2 => ⟨S640000x16, .f32⟩
  | 3 => ⟨S40000, .i32⟩
  | 4 => ⟨S32x128, .f32⟩
  | 5 => ⟨S128, .f32⟩
  | 6 => ⟨S16x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S512x256, .f32⟩
  | 13 => ⟨S256, .f32⟩
  | 14 => ⟨S40000x128, .f32⟩
  | 15 => ⟨S1x128, .f32⟩
  | 16 => ⟨S40000x128, .f32⟩
  | 17 => ⟨S40000x128, .f32⟩
  | 18 => ⟨S640000x128, .f32⟩
  | 19 => ⟨S1x128, .f32⟩
  | 20 => ⟨S640000x128, .f32⟩
  | 21 => ⟨S640000x128, .f32⟩
  | 22 => ⟨S1x640000, .i32⟩
  | 23 => ⟨S640000, .i32⟩
  | 24 => ⟨S1x640000, .i32⟩
  | 25 => ⟨S640000, .i32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000x128, .f32⟩
  | 35 => ⟨S640000x128, .f32⟩
  | 36 => ⟨S_, .f32⟩
  | 37 => ⟨S640000x128, .f32⟩
  | 38 => ⟨S640000x128, .f32⟩
  | 39 => ⟨S_, .f32⟩
  | 40 => ⟨S40000x128, .f32⟩
  | 41 => ⟨S640000x1, .i32⟩
  | 42 => ⟨S40000x128, .f32⟩
  | 43 => ⟨S40000x128, .f32⟩
  | 44 => ⟨S40000x128, .f32⟩
  | 45 => ⟨S1x128, .f32⟩
  | 46 => ⟨S40000x128, .f32⟩
  | 47 => ⟨S40000x128, .f32⟩
  | 48 => ⟨S_, .f32⟩
  | 49 => ⟨S40000x128, .f32⟩
  | 50 => ⟨S40000x128, .f32⟩
  | 51 => ⟨S40000x128, .f32⟩
  | 52 => ⟨S1x128, .f32⟩
  | 53 => ⟨S40000x128, .f32⟩
  | 54 => ⟨S40000x128, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x128, .f32⟩
  | 64 => ⟨S640000x128, .f32⟩
  | 65 => ⟨S_, .f32⟩
  | 66 => ⟨S640000x128, .f32⟩
  | 67 => ⟨S640000x128, .f32⟩
  | 68 => ⟨S_, .f32⟩
  | 69 => ⟨S40000x128, .f32⟩
  | 70 => ⟨S640000x1, .i32⟩
  | 71 => ⟨S40000x128, .f32⟩
  | 72 => ⟨S40000x128, .f32⟩
  | 73 => ⟨S40000x128, .f32⟩
  | 74 => ⟨S1x128, .f32⟩
  | 75 => ⟨S40000x128, .f32⟩
  | 76 => ⟨S40000x128, .f32⟩
  | 77 => ⟨S_, .f32⟩
  | 78 => ⟨S40000x128, .f32⟩
  | 79 => ⟨S40000x128, .f32⟩
  | 80 => ⟨S40000x128, .f32⟩
  | 81 => ⟨S1x128, .f32⟩
  | 82 => ⟨S40000x128, .f32⟩
  | 83 => ⟨S40000x128, .f32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S640000x128, .f32⟩
  | 93 => ⟨S640000x128, .f32⟩
  | 94 => ⟨S_, .f32⟩
  | 95 => ⟨S640000x128, .f32⟩
  | 96 => ⟨S640000x128, .f32⟩
  | 97 => ⟨S_, .f32⟩
  | 98 => ⟨S40000x128, .f32⟩
  | 99 => ⟨S640000x1, .i32⟩
  | 100 => ⟨S40000x128, .f32⟩
  | 101 => ⟨S40000x128, .f32⟩
  | 102 => ⟨S40000x128, .f32⟩
  | 103 => ⟨S1x128, .f32⟩
  | 104 => ⟨S40000x128, .f32⟩
  | 105 => ⟨S40000x128, .f32⟩
  | 106 => ⟨S_, .f32⟩
  | 107 => ⟨S40000x128, .f32⟩
  | 108 => ⟨S40000x128, .f32⟩
  | 109 => ⟨S40000x128, .f32⟩
  | 110 => ⟨S1x128, .f32⟩
  | 111 => ⟨S40000x128, .f32⟩
  | 112 => ⟨S40000x128, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x128, .f32⟩
  | 122 => ⟨S640000x128, .f32⟩
  | 123 => ⟨S_, .f32⟩
  | 124 => ⟨S640000x128, .f32⟩
  | 125 => ⟨S640000x128, .f32⟩
  | 126 => ⟨S_, .f32⟩
  | 127 => ⟨S40000x128, .f32⟩
  | _ => ⟨S40000x32, .f32⟩

abbrev hbmTy0_1 (i : Nat) : BufTy := match i % 128 with
  | 0 => ⟨S640000x1, .i32⟩
  | 1 => ⟨S40000x128, .f32⟩
  | 2 => ⟨S40000x128, .f32⟩
  | 3 => ⟨S40000x128, .f32⟩
  | 4 => ⟨S1x128, .f32⟩
  | 5 => ⟨S40000x128, .f32⟩
  | 6 => ⟨S40000x128, .f32⟩
  | 7 => ⟨S_, .f32⟩
  | 8 => ⟨S40000x128, .f32⟩
  | 9 => ⟨S40000x128, .f32⟩
  | 10 => ⟨S40000x128, .f32⟩
  | 11 => ⟨S1x128, .f32⟩
  | 12 => ⟨S40000x128, .f32⟩
  | 13 => ⟨S40000x128, .f32⟩
  | 14 => ⟨S40000x512, .f32⟩
  | 15 => ⟨S_, .f32⟩
  | 16 => ⟨S64x512, .f32⟩
  | 17 => ⟨S40000x1, .i32⟩
  | 18 => ⟨S64x512, .f32⟩
  | 19 => ⟨S64x256, .f32⟩
  | 20 => ⟨S1x256, .f32⟩
  | 21 => ⟨S64x256, .f32⟩
  | 22 => ⟨S64x256, .f32⟩
  | _ => ⟨S40000x32, .f32⟩

abbrev hbmTy (i : Nat) : BufTy := match i / 128 with
  | 0 => hbmTy0_0 i
  | 1 => hbmTy0_1 i
  | _ => ⟨S40000x32, .f32⟩

abbrev bufTy : (tb : Table) → Fin (tcTables nBuf tb) → BufTy
  | .hbm, ⟨i, _⟩ => hbmTy i
  | _, _ => ⟨S40000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_1 : Ref sig .tc := ⟨.hbm, 55, rfl⟩
abbrev main_v34 : Ref sig .tc := ⟨.hbm, 56, rfl⟩
abbrev main_v35 : Ref sig .tc := ⟨.hbm, 57, rfl⟩
abbrev main_c_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call2_cst : Ref sig .tc := ⟨.hbm, 65, rfl⟩
abbrev main_call2_v0 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call3_cst : Ref sig .tc := ⟨.hbm, 77, rfl⟩
abbrev main_call3_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_4 : Ref sig .tc := ⟨.hbm, 84, rfl⟩
abbrev main_v56 : Ref sig .tc := ⟨.hbm, 85, rfl⟩
abbrev main_v57 : Ref sig .tc := ⟨.hbm, 86, rfl⟩
abbrev main_c_5 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call4_cst : Ref sig .tc := ⟨.hbm, 94, rfl⟩
abbrev main_call4_v0 : Ref sig .tc := ⟨.hbm, 95, rfl⟩
abbrev main_v64 : Ref sig .tc := ⟨.hbm, 96, rfl⟩
abbrev main_cst_6 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call5_cst : Ref sig .tc := ⟨.hbm, 106, rfl⟩
abbrev main_call5_v0 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_7 : Ref sig .tc := ⟨.hbm, 113, rfl⟩
abbrev main_v78 : Ref sig .tc := ⟨.hbm, 114, rfl⟩
abbrev main_v79 : Ref sig .tc := ⟨.hbm, 115, rfl⟩
abbrev main_c_8 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_call6_cst : Ref sig .tc := ⟨.hbm, 123, rfl⟩
abbrev main_call6_v0 : Ref sig .tc := ⟨.hbm, 124, rfl⟩
abbrev main_v86 : Ref sig .tc := ⟨.hbm, 125, rfl⟩
abbrev main_cst_9 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call7_cst : Ref sig .tc := ⟨.hbm, 135, rfl⟩
abbrev main_call7_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_10 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S1x128_S640000x128_0_1 : S1x128.BroadcastsInDim S640000x128 (![0, 1] : Fin 2 → Fin S640000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  concatenates_S40000x128_S40000x128_S40000x128_S40000x128_S40000x512_d1 : Shape.Concatenates [S40000x128, S40000x128, S40000x128, S40000x128] S40000x512 1
  bcast_S_S64x512 : S_.BroadcastsInDim S64x512 (![] : Fin 0 → Fin S64x512.rank)
  bcast_S40000_S40000x1_0 : S40000.BroadcastsInDim S40000x1 (![0] : Fin 1 → Fin S40000x1.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  dot_S40000x32_S32x128_S40000x128_1_0_0_1_n_n_wf : DotDims.WF S40000x32 S32x128 S40000x128 [1] [0] [0] [1] [] []
  dot_S640000x16_S16x128_S640000x128_1_0_0_1_n_n_wf : DotDims.WF S640000x16 S16x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  scatter_S64x512_S40000x1_S40000x512_1_0_0_1_wf : ScatterDims.WF S64x512 S40000x1 S40000x512 [1] [0] [0] 1
  dot_S64x512_S512x256_S64x256_1_0_0_1_n_n_wf : DotDims.WF S64x512 S512x256 S64x256 [1] [0] [0] [1] [] []

variable [Facts₀]

def dot_S40000x32_S32x128_S40000x128_1_0_0_1_n_n : DotDims S40000x32 S32x128 S40000x128 where
  lhsContracting := [1]
  rhsContracting := [0]
  lhsNonContracting := [0]
  rhsNonContracting := [1]
  lhsBatch := []
  rhsBatch := []
  wf := dot_S40000x32_S32x128_S40000x128_1_0_0_1_n_n_wf
def dot_S640000x16_S16x128_S640000x128_1_0_0_1_n_n : DotDims S640000x16 S16x128 S640000x128 where
  lhsContracting := [1]
  rhsContracting := [0]
  lhsNonContracting := [0]
  rhsNonContracting := [1]
  lhsBatch := []
  rhsBatch := []
  wf := dot_S640000x16_S16x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64x512_S40000x1_S40000x512_1_0_0_1 : ScatterDims S64x512 S40000x1 S40000x512 where
  updateWindowDims := [1]
  insertedWindowDims := [0]
  scatterDimsToOperandDims := [0]
  indexVectorDim := 1
  wf := scatter_S64x512_S40000x1_S40000x512_1_0_0_1_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf

class Facts : Prop extends Facts₀ where

variable [Facts]
-- ==== Proof.Body0B.lean ====
/-
  Region 0: the node input transform h = x·Wn + bn, eight blocks of 5000 rows. The body loads a block of x, the whole
  of Wn and bn, and stores the block's rows of the product plus the bias.
-/
import proofs.«102879_j77541339562639_2_alg».proof.Proof.Gen.Kernel.Launch
import proofs.«102879_j77541339562639_2_alg».proof.Proof.Gen.Kernel.Skeleton
import proofs.«102879_j77541339562639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not the point fetched it: a window
    that is not fetched has not moved, so the block it holds is still the point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not the point fetched it: a window
    that is not fetched has not moved, so the block it holds is still the point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not the point fetched it: a window
    that is not fetched has not moved, so the block it holds is still the point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole block -/
abbrev r0_0 : Rect S5000x32 := Rect.unit (s := S5000x32) ![0, 0] S5000x32.size inb_S5000x32_S5000x32_0_0
abbrev r0_1 : Rect S32x128 := Rect.unit (s := S32x128) ![0, 0] S32x128.size inb_S32x128_S32x128_0_0
abbrev r0_2 : Rect S128 := Rect.unit (s := S128) ![0] S128.size inb_S128_S128_0
abbrev r0_3 : Rect S5000x128 := Rect.unit (s := S5000x128) ![0, 0] S5000x128.size inb_S5000x128_S5000x128_0_0

/-- What the body leaves in the output block, from the input blocks: its one store, of the body's arithmetic on
    the whole input blocks. -/
def out0_3 (x0 : Vec F S5000x32 .f32) (x1 : Vec F S32x128 .f32) (x2 : Vec F S128 .f32) : Vec F S5000x128 .f32 :=
  View.canon [⟨r0_3, k0_pay1 (View.ld x0 r0_0) (View.ld x1 r0_1) (View.ld x2 r0_2)⟩]

/-- The one store covers the output block. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The body run on whole staging buffers -/
set_option maxHeartbeats 2000000 in
/-- With every input buffer held whole at contents `x_w` and the output buffer held at anything, the body runs to its
    end, hands the inputs back as they were and leaves the output buffer at `out0_3` of the inputs. -/
theorem sound_kernel0 (c : Dev nD) (E : Set ℕ) (i : grid0.Coords) (arg0 : Memref sig .tc .vmem S5000x32 .f32) (harg0 : arg0.IsWhole) (arg1 : Memref sig .tc .vmem S32x128 .f32) (harg1 : arg1.IsWhole) (arg2 : Memref sig .tc .vmem S128 .f32) (harg2 : arg2.IsWhole) (arg3 : Memref sig .tc .vmem S5000x128 .f32) (harg3 : arg3.IsWhole)
    (x0 : Vec F S5000x32 .f32) (x1 : Vec F S32x128 .f32) (x2 : Vec F S128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The region's proof data on core `c`: its arrays as it finds them; after the body at point `t` every input's
    buffer still at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Body1B.lean ====
/-
  Region 1: the edge input transform e = edge_attr·We + be, eighty blocks of 8000 rows, stored in the half-width format.
  The body loads a block of edge_attr, the whole of We and be, and stores the block's rows of the product plus the bias.
-/
import proofs.«102879_j77541339562639_2_alg».proof.Proof.Gen.Kernel.Launch
import proofs.«102879_j77541339562639_2_alg».proof.Proof.Gen.Kernel.Skeleton
import proofs.«102879_j77541339562639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not the point fetched it: a window
    that is not fetched has not moved, so the block it holds is still the point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not the point fetched it: a window
    that is not fetched has not moved, so the block it holds is still the point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not the point fetched it: a window
    that is not fetched has not moved, so the block it holds is still the point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole block -/
abbrev r1_0 : Rect S8000x16 := Rect.unit (s := S8000x16) ![0, 0] S8000x16.size inb_S8000x16_S8000x16_0_0
abbrev r1_1 : Rect S16x128 := Rect.unit (s := S16x128) ![0, 0] S16x128.size inb_S16x128_S16x128_0_0
abbrev r1_2 : Rect S128 := Rect.unit (s := S128) ![0] S128.size inb_S128_S128_0
abbrev r1_3 : Rect S8000x128 := Rect.unit (s := S8000x128) ![0, 0] S8000x128.size inb_S8000x128_S8000x128_0_0

/-- What the body leaves in the output block, from the input blocks: its one store, of the body's arithmetic on
    the whole input blocks. -/
def out1_3 (x0 : Vec F S8000x16 .f32) (x1 : Vec F S16x128 .f32) (x2 : Vec F S128 .f32) : Vec F S8000x128 .bf16 :=
  View.canon [⟨r1_3, k1_pay1 (View.ld x0 r1_0) (View.ld x1 r1_1) (View.ld x2 r1_2)⟩]

/-- The one store covers the output block. -/
theorem cover1_3 (p0 : Vec F S8000x128 .bf16) (y : S8000x128.Idx) :
    ∃ pc ∈ ([⟨r1_3, p0⟩] : List (View.Piece (Elt F) S8000x128 .bf16)), y ∈ pc.1.set :=
  View.cover_of_tiled [⟨r1_3, p0⟩] S8000x128.size (by rfl) y

/-! ## The body run on whole staging buffers -/
set_option maxHeartbeats 2000000 in
/-- With every input buffer held whole at contents `x_w` and the output buffer held at anything, the body runs to its
    end, hands the inputs back as they were and leaves the output buffer at `out1_3` of the inputs. -/
theorem sound_kernel1 (c : Dev nD) (E : Set ℕ) (i : grid1.Coords) (arg0 : Memref sig .tc .vmem S8000x16 .f32) (harg0 : arg0.IsWhole) (arg1 : Memref sig .tc .vmem S16x128 .f32) (harg1 : arg1.IsWhole) (arg2 : Memref sig .tc .vmem S128 .f32) (harg2 : arg2.IsWhole) (arg3 : Memref sig .tc .vmem S8000x128 .bf16) (harg3 : arg3.IsWhole)
    (x0 : Vec F S8000x16 .f32) (x1 : Vec F S16x128 .f32) (x2 : Vec F S128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The region's proof data on core `c`: its arrays as it finds them; after the body at point `t` every input's
    buffer still at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Body2B.lean ====
/-
  Region 2: one round's node update h' = relu((h + agg)·W1 + b1)·W2 + b2, eight blocks of 5000 rows. The body loads a
  block of h and of agg, the whole of W1, b1, W2, b2, and stores the block's rows of the update.
-/
import proofs.«102879_j77541339562639_2_alg».proof.Proof.Gen.Kernel.Launch
import proofs.«102879_j77541339562639_2_alg».proof.Proof.Gen.Kernel.Skeleton
import proofs.«102879_j77541339562639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not the point fetched it: a window
    that is not fetched has not moved, so the block it holds is still the point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether or not the point fetched it: a window
    that is not fetched has not moved, so the block it holds is still the point's block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether or not the point fetched it: a window
    that is not fetched has not moved, so the block it holds is still the point's block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether or not the point fetched it: a window
    that is not fetched has not moved, so the block it holds is still the point's block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether or not the point fetched it: a window
    that is not fetched has not moved, so the block it holds is still the point's block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether or not the point fetched it: a window
    that is not fetched has not moved, so the block it holds is still the point's block. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole block -/
abbrev r2_0 : Rect S5000x128 := Rect.unit (s := S5000x128) ![0, 0] S5000x128.size inb_S5000x128_S5000x128_0_0
abbrev r2_1 : Rect S5000x128 := Rect.unit (s := S5000x128) ![0, 0] S5000x128.size inb_S5000x128_S5000x128_0_0
abbrev r2_2 : Rect S128x128 := Rect.unit (s := S128x128) ![0, 0] S128x128.size inb_S128x128_S128x128_0_0
abbrev r2_3 : Rect S128 := Rect.unit (s := S128) ![0] S128.size inb_S128_S128_0
abbrev r2_4 : Rect S128x128 := Rect.unit (s := S128x128) ![0, 0] S128x128.size inb_S128x128_S128x128_0_0
abbrev r2_5 : Rect S128 := Rect.unit (s := S128) ![0] S128.size inb_S128_S128_0
abbrev r2_6 : Rect S5000x128 := Rect.unit (s := S5000x128) ![0, 0] S5000x128.size inb_S5000x128_S5000x128_0_0

/-- What the body leaves in the output block, from the input blocks: its one store, of the body's arithmetic on
    the whole input blocks. -/
def out2_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨r2_6, k2_pay1 (View.ld x0 r2_0) (View.ld x1 r2_1) (View.ld x2 r2_2) (View.ld x3 r2_3) (View.ld x4 r2_4) (View.ld x5 r2_5)⟩]

/-- The one store covers the output block. -/
theorem cover2_6 (p0 : Vec F S5000x128 .f32) (y : S5000x128.Idx) :
    ∃ pc ∈ ([⟨r2_6, p0⟩] : List (View.Piece (Elt F) S5000x128 .f32)), y ∈ pc.1.set :=
  View.cover_of_tiled [⟨r2_6, p0⟩] S5000x128.size (by rfl) y

/-! ## The body run on whole staging buffers -/
set_option maxHeartbeats 2000000 in
/-- With every input buffer held whole at contents `x_w` and the output buffer held at anything, the body runs to its
    end, hands the inputs back as they were and leaves the output buffer at `out2_6` of the inputs. -/
theorem sound_kernel2 (c : Dev nD) (E : Set ℕ) (i : grid2.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2 x3 x4 x5)) -∗ K ⟨⟩))
      ⊢ wp frame (wpE (defs₀ (F := F)) Variants.none c none) E (cc2__mlp_kernel i arg0 harg0 arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The region's proof data on core `c`: its arrays as it finds them; after the body at point `t` every input's
    buffer still at its block and the output's at `out2_6` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Body3B.lean ====
/-
  Region 3: one round's node update h' = relu((h + agg)·W1 + b1)·W2 + b2, eight blocks of 5000 rows. The body loads a
  block of h and of agg, the whole of W1, b1, W2, b2, and stores the block's rows of the update.
-/
import proofs.«102879_j77541339562639_2_alg».proof.Proof.Gen.Kernel.Launch
import proofs.«102879_j77541339562639_2_alg».proof.Proof.Gen.Kernel.Skeleton
import proofs.«102879_j77541339562639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether or not the point fetched it: a window
    that is not fetched has not moved, so the block it holds is still the point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether or not the point fetched it: a window
    that is not fetched has not moved, so the block it holds is still the point's block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether or not the point fetched it: a window
    that is not fetched has not moved, so the block it holds is still the point's block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether or not the point fetched it: a window
    that is not fetched has not moved, so the block it holds is still the point's block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether or not the point fetched it: a window
    that is not fetched has not moved, so the block it holds is still the point's block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether or not the point fetched it: a window
    that is not fetched has not moved, so the block it holds is still the point's block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole block -/
abbrev r3_0 : Rect S5000x128 := Rect.unit (s := S5000x128) ![0, 0] S5000x128.size inb_S5000x128_S5000x128_0_0
abbrev r3_1 : Rect S5000x128 := Rect.unit (s := S5000x128) ![0, 0] S5000x128.size inb_S5000x128_S5000x128_0_0
abbrev r3_2 : Rect S128x128 := Rect.unit (s := S128x128) ![0, 0] S128x128.size inb_S128x128_S128x128_0_0
abbrev r3_3 : Rect S128 := Rect.unit (s := S128) ![0] S128.size inb_S128_S128_0
abbrev r3_4 : Rect S128x128 := Rect.unit (s := S128x128) ![0, 0] S128x128.size inb_S128x128_S128x128_0_0
abbrev r3_5 : Rect S128 := Rect.unit (s := S128) ![0] S128.size inb_S128_S128_0
abbrev r3_6 : Rect S5000x128 := Rect.unit (s := S5000x128) ![0, 0] S5000x128.size inb_S5000x128_S5000x128_0_0

/-- What the body leaves in the output block, from the input blocks: its one store, of the body's arithmetic on
    the whole input blocks. -/
def out3_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨r3_6, k3_pay1 (View.ld x0 r3_0) (View.ld x1 r3_1) (View.ld x2 r3_2) (View.ld x3 r3_3) (View.ld x4 r3_4) (View.ld x5 r3_5)⟩]

/-- The one store covers the output block. -/
theorem cover3_6 (p0 : Vec F S5000x128 .f32) (y : S5000x128.Idx) :
    ∃ pc ∈ ([⟨r3_6, p0⟩] : List (View.Piece (Elt F) S5000x128 .f32)), y ∈ pc.1.set :=
  View.cover_of_tiled [⟨r3_6, p0⟩] S5000x128.size (by rfl) y

/-! ## The body run on whole staging buffers -/
set_option maxHeartbeats 2000000 in
/-- With every input buffer held whole at contents `x_w` and the output buffer held at anything, the body runs to its
    end, hands the inputs back as they were and leaves the output buffer at `out3_6` of the inputs. -/
theorem sound_kernel3 (c : Dev nD) (E : Set ℕ) (i : grid3.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3_6 x0 x1 x2 x3 x4 x5)) -∗ K ⟨⟩))
      ⊢ wp frame (wpE (defs₀ (F := F)) Variants.none c none) E (cc3__mlp_kernel i arg0 harg0 arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The region's proof data on core `c`: its arrays as it finds them; after the body at point `t` every input's
    buffer still at its block and the output's at `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so `sound_kernel3` applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Body4B.lean ====
/-
  Region 4: one round's node update h' = relu((h + agg)·W1 + b1)·W2 + b2, eight blocks of 5000 rows. The body loads a
  block of h and of agg, the whole of W1, b1, W2, b2, and stores the block's rows of the update.
-/
import proofs.«102879_j77541339562639_2_alg».proof.Proof.Gen.Kernel.Launch
import proofs.«102879_j77541339562639_2_alg».proof.Proof.Gen.Kernel.Skeleton
import proofs.«102879_j77541339562639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether or not the point fetched it: a window
    that is not fetched has not moved, so the block it holds is still the point's block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether or not the point fetched it: a window
    that is not fetched has not moved, so the block it holds is still the point's block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether or not the point fetched it: a window
    that is not fetched has not moved, so the block it holds is still the point's block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether or not the point fetched it: a window
    that is not fetched has not moved, so the block it holds is still the point's block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, whether or not the point fetched it: a window
    that is not fetched has not moved, so the block it holds is still the point's block. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, whether or not the point fetched it: a window
    that is not fetched has not moved, so the block it holds is still the point's block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole block -/
abbrev r4_0 : Rect S5000x128 := Rect.unit (s := S5000x128) ![0, 0] S5000x128.size inb_S5000x128_S5000x128_0_0
abbrev r4_1 : Rect S5000x128 := Rect.unit (s := S5000x128) ![0, 0] S5000x128.size inb_S5000x128_S5000x128_0_0
abbrev r4_2 : Rect S128x128 := Rect.unit (s := S128x128) ![0, 0] S128x128.size inb_S128x128_S128x128_0_0
abbrev r4_3 : Rect S128 := Rect.unit (s := S128) ![0] S128.size inb_S128_S128_0
abbrev r4_4 : Rect S128x128 := Rect.unit (s := S128x128) ![0, 0] S128x128.size inb_S128x128_S128x128_0_0
abbrev r4_5 : Rect S128 := Rect.unit (s := S128) ![0] S128.size inb_S128_S128_0
abbrev r4_6 : Rect S5000x128 := Rect.unit (s := S5000x128) ![0, 0] S5000x128.size inb_S5000x128_S5000x128_0_0

/-- What the body leaves in the output block, from the input blocks: its one store, of the body's arithmetic on
    the whole input blocks. -/
def out4_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨r4_6, k4_pay1 (View.ld x0 r4_0) (View.ld x1 r4_1) (View.ld x2 r4_2) (View.ld x3 r4_3) (View.ld x4 r4_4) (View.ld x5 r4_5)⟩]

/-- The one store covers the output block. -/
theorem cover4_6 (p0 : Vec F S5000x128 .f32) (y : S5000x128.Idx) :
    ∃ pc ∈ ([⟨r4_6, p0⟩] : List (View.Piece (Elt F) S5000x128 .f32)), y ∈ pc.1.set :=
  View.cover_of_tiled [⟨r4_6, p0⟩] S5000x128.size (by rfl) y

/-! ## The body run on whole staging buffers -/
set_option maxHeartbeats 2000000 in
/-- With every input buffer held whole at contents `x_w` and the output buffer held at anything, the body runs to its
    end, hands the inputs back as they were and leaves the output buffer at `out4_6` of the inputs. -/
theorem sound_kernel4 (c : Dev nD) (E : Set ℕ) (i : grid4.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out4_6 x0 x1 x2 x3 x4 x5)) -∗ K ⟨⟩))
      ⊢ wp frame (wpE (defs₀ (F := F)) Variants.none c none) E (cc4__mlp_kernel i arg0 harg0 arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The region's proof data on core `c`: its arrays as it finds them; after the body at point `t` every input's
    buffer still at its block and the output's at `out4_6` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' buffers hold their blocks, so `sound_kernel4` applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Body5B.lean ====
/-
  Region 5: one round's node update h' = relu((h + agg)·W1 + b1)·W2 + b2, eight blocks of 5000 rows. The body loads a
  block of h and of agg, the whole of W1, b1, W2, b2, and stores the block's rows of the update.
-/
import proofs.«102879_j77541339562639_2_alg».proof.Proof.Gen.Kernel.Launch
import proofs.«102879_j77541339562639_2_alg».proof.Proof.Gen.Kernel.Skeleton
import proofs.«102879_j77541339562639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether or not the point fetched it: a window
    that is not fetched has not moved, so the block it holds is still the point's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether or not the point fetched it: a window
    that is not fetched has not moved, so the block it holds is still the point's block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether or not the point fetched it: a window
    that is not fetched has not moved, so the block it holds is still the point's block. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether or not the point fetched it: a window
    that is not fetched has not moved, so the block it holds is still the point's block. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether or not the point fetched it: a window
    that is not fetched has not moved, so the block it holds is still the point's block. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, whether or not the point fetched it: a window
    that is not fetched has not moved, so the block it holds is still the point's block. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole block -/
abbrev r5_0 : Rect S5000x128 := Rect.unit (s := S5000x128) ![0, 0] S5000x128.size inb_S5000x128_S5000x128_0_0
abbrev r5_1 : Rect S5000x128 := Rect.unit (s := S5000x128) ![0, 0] S5000x128.size inb_S5000x128_S5000x128_0_0
abbrev r5_2 : Rect S128x128 := Rect.unit (s := S128x128) ![0, 0] S128x128.size inb_S128x128_S128x128_0_0
abbrev r5_3 : Rect S128 := Rect.unit (s := S128) ![0] S128.size inb_S128_S128_0
abbrev r5_4 : Rect S128x128 := Rect.unit (s := S128x128) ![0, 0] S128x128.size inb_S128x128_S128x128_0_0
abbrev r5_5 : Rect S128 := Rect.unit (s := S128) ![0] S128.size inb_S128_S128_0
abbrev r5_6 : Rect S5000x128 := Rect.unit (s := S5000x128) ![0, 0] S5000x128.size inb_S5000x128_S5000x128_0_0

/-- What the body leaves in the output block, from the input blocks: its one store, of the body's arithmetic on
    the whole input blocks. -/
def out5_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨r5_6, k5_pay1 (View.ld x0 r5_0) (View.ld x1 r5_1) (View.ld x2 r5_2) (View.ld x3 r5_3) (View.ld x4 r5_4) (View.ld x5 r5_5)⟩]

/-- The one store covers the output block. -/
theorem cover5_6 (p0 : Vec F S5000x128 .f32) (y : S5000x128.Idx) :
    ∃ pc ∈ ([⟨r5_6, p0⟩] : List (View.Piece (Elt F) S5000x128 .f32)), y ∈ pc.1.set :=
  View.cover_of_tiled [⟨r5_6, p0⟩] S5000x128.size (by rfl) y

/-! ## The body run on whole staging buffers -/
set_option maxHeartbeats 2000000 in
/-- With every input buffer held whole at contents `x_w` and the output buffer held at anything, the body runs to its
    end, hands the inputs back as they were and leaves the output buffer at `out5_6` of the inputs. -/
theorem sound_kernel5 (c : Dev nD) (E : Set ℕ) (i : grid5.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out5_6 x0 x1 x2 x3 x4 x5)) -∗ K ⟨⟩))
      ⊢ wp frame (wpE (defs₀ (F := F)) Variants.none c none) E (cc5__mlp_kernel i arg0 harg0 arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The region's proof data on core `c`: its arrays as it finds them; after the body at point `t` every input's
    buffer still at its block and the output's at `out5_6` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so `sound_kernel5` applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Body6B.lean ====
/-
  Region 6: the output head out = pooled·Wl + bl, one block of all 64 rows. The body loads pooled, Wl and bl whole and
  stores the product plus the bias.
-/
import proofs.«102879_j77541339562639_2_alg».proof.Proof.Gen.Kernel.Launch
import proofs.«102879_j77541339562639_2_alg».proof.Proof.Gen.Kernel.Skeleton
import proofs.«102879_j77541339562639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether or not the point fetched it: a window
    that is not fetched has not moved, so the block it holds is still the point's block. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether or not the point fetched it: a window
    that is not fetched has not moved, so the block it holds is still the point's block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether or not the point fetched it: a window
    that is not fetched has not moved, so the block it holds is still the point's block. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole block -/
abbrev r6_0 : Rect S64x512 := Rect.unit (s := S64x512) ![0, 0] S64x512.size inb_S64x512_S64x512_0_0
abbrev r6_1 : Rect S512x256 := Rect.unit (s := S512x256) ![0, 0] S512x256.size inb_S512x256_S512x256_0_0
abbrev r6_2 : Rect S256 := Rect.unit (s := S256) ![0] S256.size inb_S256_S256_0
abbrev r6_3 : Rect S64x256 := Rect.unit (s := S64x256) ![0, 0] S64x256.size inb_S64x256_S64x256_0_0

/-- What the body leaves in the output block, from the input blocks: its one store, of the body's arithmetic on
    the whole input blocks. -/
def out6_3 (x0 : Vec F S64x512 .f32) (x1 : Vec F S512x256 .f32) (x2 : Vec F S256 .f32) : Vec F S64x256 .f32 :=
  View.canon [⟨r6_3, k6_pay1 (View.ld x0 r6_0) (View.ld x1 r6_1) (View.ld x2 r6_2)⟩]

/-- The one store covers the output block. -/
theorem cover6_3 (p0 : Vec F S64x256 .f32) (y : S64x256.Idx) :
    ∃ pc ∈ ([⟨r6_3, p0⟩] : List (View.Piece (Elt F) S64x256 .f32)), y ∈ pc.1.set :=
  View.cover_of_tiled [⟨r6_3, p0⟩] S64x256.size (by rfl) y

/-! ## The body run on whole staging buffers -/
set_option maxHeartbeats 2000000 in
/-- With every input buffer held whole at contents `x_w` and the output buffer held at anything, the body runs to its
    end, hands the inputs back as they were and leaves the output buffer at `out6_3` of the inputs. -/
theorem sound_kernel6 (c : Dev nD) (E : Set ℕ) (i : grid6.Coords) (arg0 : Memref sig .tc .vmem S64x512 .f32) (harg0 : arg0.IsWhole) (arg1 : Memref sig .tc .vmem S512x256 .f32) (harg1 : arg1.IsWhole) (arg2 : Memref sig .tc .vmem S256 .f32) (harg2 : arg2.IsWhole) (arg3 : Memref sig .tc .vmem S64x256 .f32) (harg3 : arg3.IsWhole)
    (x0 : Vec F S64x512 .f32) (x1 : Vec F S512x256 .f32) (x2 : Vec F S256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__linear_kernel i arg0 harg0 arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The region's proof data on core `c`: its arrays as it finds them; after the body at point `t` every input's
    buffer still at its block and the output's at `out6_3` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so `sound_kernel6` applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.RunB.lean ====
/-
  The whole run of @main: its 21 items in order — a stretch of host operations, or one of the seven kernel regions — with
  the contents of every buffer named at each boundary. `X J c` is what core `c`'s buffers hold after item J-1: the launch
  memory, then each host stretch applied, then at a region's exit the region's output array replaced by what the
  region's grid points wrote back and every other buffer as the region found it. From the seven regions' body
  obligations each region is entered from `X` before it and left at `X` after it; chaining the 21 items gives that every
  execution ends with every buffer at `X 21`.
-/
import proofs.«102879_j77541339562639_2_alg».proof.Proof.Gen.Kernel.Launch
import proofs.«102879_j77541339562639_2_alg».proof.Proof.Gen.Kernel.Skeleton
import proofs.«102879_j77541339562639_2_alg».proof.Proof.Gen.Kernel.Points
import proofs.«102879_j77541339562639_2_alg».proof.Proof.Body0B
import proofs.«102879_j77541339562639_2_alg».proof.Proof.Body1B
import proofs.«102879_j77541339562639_2_alg».proof.Proof.Body2B
import proofs.«102879_j77541339562639_2_alg».proof.Proof.Body3B
import proofs.«102879_j77541339562639_2_alg».proof.Proof.Body4B
import proofs.«102879_j77541339562639_2_alg».proof.Proof.Body5B
import proofs.«102879_j77541339562639_2_alg».proof.Proof.Body6B
import proofs.«102879_j77541339562639_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- A valuation read at the TensorCore's references. -/
abbrev rd (X : Dev nD → Valuation τ sig (Elt F)) : (c : Dev nD) → (b : Ref sig .tc) → Buf (Elt F) ((c : Thread nD τ).loc b) := fun c b => X c b

/-! ## The buffers' contents at every boundary -/

/-- After the first host stretch (the two rows of the edge list taken apart). -/
abbrev X1 (c : Dev nD) : Valuation τ sig (Elt F) := StableHlo.after hostOps0 (fun b => m (c, b))
/-- What region 0 leaves in its output array: its grid points' write-backs, folded. -/
def o2 (c : Dev nD) : Buf (Elt F) ((c : Thread nD τ).loc main_v4) := (dat0 (rd (X1 m)) c).arrAt 3 cfg0.N
/-- After region 0: its output array replaced, every other buffer as it was. -/
def X2 (c : Dev nD) : Valuation τ sig (Elt F) := Function.update (X1 m c) main_v4 (o2 m c)
theorem X2_out (c : Dev nD) : X2 m c main_v4 = o2 m c := by unfold X2; exact Function.update_self ..
theorem X2_of_ne (c : Dev nD) (b : Ref sig .tc) (h : b ≠ main_v4) : X2 m c b = X1 m c b := by
  unfold X2; exact Function.update_of_ne (StableHlo.devRef_ne_of_ne h) _ _
/-- What region 1 leaves in its output array: its grid points' write-backs, folded. -/
def o3 (c : Dev nD) : Buf (Elt F) ((c : Thread nD τ).loc main_v5) := (dat1 (rd (X2 m)) c).arrAt 3 cfg1.N
/-- After region 1: its output array replaced, every other buffer as it was. -/
def X3 (c : Dev nD) : Valuation τ sig (Elt F) := Function.update (X2 m c) main_v5 (o3 m c)
theorem X3_out (c : Dev nD) : X3 m c main_v5 = o3 m c := by unfold X3; exact Function.update_self ..
theorem X3_of_ne (c : Dev nD) (b : Ref sig .tc) (h : b ≠ main_v5) : X3 m c b = X2 m c b := by
  unfold X3; exact Function.update_of_ne (StableHlo.devRef_ne_of_ne h) _ _
/-- After the host stretch `hostOps2`. -/
def X4 (c : Dev nD) : Valuation τ sig (Elt F) := StableHlo.after hostOps2 (X3 m c)
/-- After the host stretch `hostOps2_1`. -/
def X5 (c : Dev nD) : Valuation τ sig (Elt F) := StableHlo.after hostOps2_1 (X4 m c)
/-- After the host stretch `hostOps2_2`. -/
def X6 (c : Dev nD) : Valuation τ sig (Elt F) := StableHlo.after hostOps2_2 (X5 m c)
/-- What region 2 leaves in its output array: its grid points' write-backs, folded. -/
def o7 (c : Dev nD) : Buf (Elt F) ((c : Thread nD τ).loc main_v19) := (dat2 (rd (X6 m)) c).arrAt 6 cfg2.N
/-- After region 2: its output array replaced, every other buffer as it was. -/
def X7 (c : Dev nD) : Valuation τ sig (Elt F) := Function.update (X6 m c) main_v19 (o7 m c)
theorem X7_out (c : Dev nD) : X7 m c main_v19 = o7 m c := by unfold X7; exact Function.update_self ..
theorem X7_of_ne (c : Dev nD) (b : Ref sig .tc) (h : b ≠ main_v19) : X7 m c b = X6 m c b := by
  unfold X7; exact Function.update_of_ne (StableHlo.devRef_ne_of_ne h) _ _
/-- After the host stretch `hostOps3`. -/
def X8 (c : Dev nD) : Valuation τ sig (Elt F) := StableHlo.after hostOps3 (X7 m c)
/-- After the host stretch `hostOps3_1`. -/
def X9 (c : Dev nD) : Valuation τ sig (Elt F) := StableHlo.after hostOps3_1 (X8 m c)
/-- After the host stretch `hostOps3_2`. -/
def X10 (c : Dev nD) : Valuation τ sig (Elt F) := StableHlo.after hostOps3_2 (X9 m c)
/-- What region 3 leaves in its output array: its grid points' write-backs, folded. -/
def o11 (c : Dev nD) : Buf (Elt F) ((c : Thread nD τ).loc main_v36) := (dat3 (rd (X10 m)) c).arrAt 6 cfg3.N
/-- After region 3: its output array replaced, every other buffer as it was. -/
def X11 (c : Dev nD) : Valuation τ sig (Elt F) := Function.update (X10 m c) main_v36 (o11 m c)
theorem X11_out (c : Dev nD) : X11 m c main_v36 = o11 m c := by unfold X11; exact Function.update_self ..
theorem X11_of_ne (c : Dev nD) (b : Ref sig .tc) (h : b ≠ main_v36) : X11 m c b = X10 m c b := by
  unfold X11; exact Function.update_of_ne (StableHlo.devRef_ne_of_ne h) _ _
/-- After the host stretch `hostOps4`. -/
def X12 (c : Dev nD) : Valuation τ sig (Elt F) := StableHlo.after hostOps4 (X11 m c)
/-- After the host stretch `hostOps4_1`. -/
def X13 (c : Dev nD) : Valuation τ sig (Elt F) := StableHlo.after hostOps4_1 (X12 m c)
/-- After the host stretch `hostOps4_2`. -/
def X14 (c : Dev nD) : Valuation τ sig (Elt F) := StableHlo.after hostOps4_2 (X13 m c)
/-- What region 4 leaves in its output array: its grid points' write-backs, folded. -/
def o15 (c : Dev nD) : Buf (Elt F) ((c : Thread nD τ).loc main_v53) := (dat4 (rd (X14 m)) c).arrAt 6 cfg4.N
/-- After region 4: its output array replaced, every other buffer as it was. -/
def X15 (c : Dev nD) : Valuation τ sig (Elt F) := Function.update (X14 m c) main_v53 (o15 m c)
theorem X15_out (c : Dev nD) : X15 m c main_v53 = o15 m c := by unfold X15; exact Function.update_self ..
theorem X15_of_ne (c : Dev nD) (b : Ref sig .tc) (h : b ≠ main_v53) : X15 m c b = X14 m c b := by
  unfold X15; exact Function.update_of_ne (StableHlo.devRef_ne_of_ne h) _ _
/-- After the host stretch `hostOps5`. -/
def X16 (c : Dev nD) : Valuation τ sig (Elt F) := StableHlo.after hostOps5 (X15 m c)
/-- After the host stretch `hostOps5_1`. -/
def X17 (c : Dev nD) : Valuation τ sig (Elt F) := StableHlo.after hostOps5_1 (X16 m c)
/-- After the host stretch `hostOps5_2`. -/
def X18 (c : Dev nD) : Valuation τ sig (Elt F) := StableHlo.after hostOps5_2 (X17 m c)
/-- What region 5 leaves in its output array: its grid points' write-backs, folded. -/
def o19 (c : Dev nD) : Buf (Elt F) ((c : Thread nD τ).loc main_v70) := (dat5 (rd (X18 m)) c).arrAt 6 cfg5.N
/-- After region 5: its output array replaced, every other buffer as it was. -/
def X19 (c : Dev nD) : Valuation τ sig (Elt F) := Function.update (X18 m c) main_v70 (o19 m c)
theorem X19_out (c : Dev nD) : X19 m c main_v70 = o19 m c := by unfold X19; exact Function.update_self ..
theorem X19_of_ne (c : Dev nD) (b : Ref sig .tc) (h : b ≠ main_v70) : X19 m c b = X18 m c b := by
  unfold X19; exact Function.update_of_ne (StableHlo.devRef_ne_of_ne h) _ _
/-- After the host stretch `hostOps6`. -/
def X20 (c : Dev nD) : Valuation τ sig (Elt F) := StableHlo.after hostOps6 (X19 m c)
/-- What region 6 leaves in its output array: its grid points' write-backs, folded. -/
def o21 (c : Dev nD) : Buf (Elt F) ((c : Thread nD τ).loc main_v75) := (dat6 (rd (X20 m)) c).arrAt 3 cfg6.N
/-- After region 6: its output array replaced, every other buffer as it was. -/
def X21 (c : Dev nD) : Valuation τ sig (Elt F) := Function.update (X20 m c) main_v75 (o21 m c)
theorem X21_out (c : Dev nD) : X21 m c main_v75 = o21 m c := by unfold X21; exact Function.update_self ..
theorem X21_of_ne (c : Dev nD) (b : Ref sig .tc) (h : b ≠ main_v75) : X21 m c b = X20 m c b := by
  unfold X21; exact Function.update_of_ne (StableHlo.devRef_ne_of_ne h) _ _

/-- What the regions leave, as the one family the generated boundary valuations are written over: after item J-1 a
    buffer holds `X J`'s contents. -/
def outs : Outs (F := F) := fun J r c =>
  match J with
  | 2 => X2 m c r
  | 3 => X3 m c r
  | 7 => X7 m c r
  | 11 => X11 m c r
  | 15 => X15 m c r
  | 19 => X19 m c r
  | 21 => X21 m c r
  | _ => X1 m c r

/-! ## The generated boundary valuations, at these contents, are the `X` -/

theorem V1_eq (c : Dev nD) : V1 m c = X1 m c := rfl
theorem V2_eq (c : Dev nD) : V2 m (outs m) c = X2 m c := by
  show Function.update (V1 m c) main_v4 (X2 m c main_v4) = X2 m c
  rw [V1_eq, X2_out]; rfl
theorem V3_eq (c : Dev nD) : V3 m (outs m) c = X3 m c := by
  show Function.update (V2 m (outs m) c) main_v5 (X3 m c main_v5) = X3 m c
  rw [V2_eq, X3_out]; rfl
theorem V4_eq (c : Dev nD) : V4 m (outs m) c = X4 m c := by
  unfold X4
  show StableHlo.after hostOps2 (V3 m (outs m) c) = _
  rw [V3_eq]
theorem V5_eq (c : Dev nD) : V5 m (outs m) c = X5 m c := by
  unfold X5
  show StableHlo.after hostOps2_1 (V4 m (outs m) c) = _
  rw [V4_eq]
theorem V6_eq (c : Dev nD) : V6 m (outs m) c = X6 m c := by
  unfold X6
  show StableHlo.after hostOps2_2 (V5 m (outs m) c) = _
  rw [V5_eq]
theorem V7_eq (c : Dev nD) : V7 m (outs m) c = X7 m c := by
  show Function.update (V6 m (outs m) c) main_v19 (X7 m c main_v19) = X7 m c
  rw [V6_eq, X7_out]; rfl
theorem V8_eq (c : Dev nD) : V8 m (outs m) c = X8 m c := by
  unfold X8
  show StableHlo.after hostOps3 (V7 m (outs m) c) = _
  rw [V7_eq]
theorem V9_eq (c : Dev nD) : V9 m (outs m) c = X9 m c := by
  unfold X9
  show StableHlo.after hostOps3_1 (V8 m (outs m) c) = _
  rw [V8_eq]
theorem V10_eq (c : Dev nD) : V10 m (outs m) c = X10 m c := by
  unfold X10
  show StableHlo.after hostOps3_2 (V9 m (outs m) c) = _
  rw [V9_eq]
theorem V11_eq (c : Dev nD) : V11 m (outs m) c = X11 m c := by
  show Function.update (V10 m (outs m) c) main_v36 (X11 m c main_v36) = X11 m c
  rw [V10_eq, X11_out]; rfl
theorem V12_eq (c : Dev nD) : V12 m (outs m) c = X12 m c := by
  unfold X12
  show StableHlo.after hostOps4 (V11 m (outs m) c) = _
  rw [V11_eq]
theorem V13_eq (c : Dev nD) : V13 m (outs m) c = X13 m c := by
  unfold X13
  show StableHlo.after hostOps4_1 (V12 m (outs m) c) = _
  rw [V12_eq]
theorem V14_eq (c : Dev nD) : V14 m (outs m) c = X14 m c := by
  unfold X14
  show StableHlo.after hostOps4_2 (V13 m (outs m) c) = _
  rw [V13_eq]
theorem V15_eq (c : Dev nD) : V15 m (outs m) c = X15 m c := by
  show Function.update (V14 m (outs m) c) main_v53 (X15 m c main_v53) = X15 m c
  rw [V14_eq, X15_out]; rfl
theorem V16_eq (c : Dev nD) : V16 m (outs m) c = X16 m c := by
  unfold X16
  show StableHlo.after hostOps5 (V15 m (outs m) c) = _
  rw [V15_eq]
theorem V17_eq (c : Dev nD) : V17 m (outs m) c = X17 m c := by
  unfold X17
  show StableHlo.after hostOps5_1 (V16 m (outs m) c) = _
  rw [V16_eq]
theorem V18_eq (c : Dev nD) : V18 m (outs m) c = X18 m c := by
  unfold X18
  show StableHlo.after hostOps5_2 (V17 m (outs m) c) = _
  rw [V17_eq]
theorem V19_eq (c : Dev nD) : V19 m (outs m) c = X19 m c := by
  show Function.update (V18 m (outs m) c) main_v70 (X19 m c main_v70) = X19 m c
  rw [V18_eq, X19_out]; rfl
theorem V20_eq (c : Dev nD) : V20 m (outs m) c = X20 m c := by
  unfold X20
  show StableHlo.after hostOps6 (V19 m (outs m) c) = _
  rw [V19_eq]
theorem V21_eq (c : Dev nD) : V21 m (outs m) c = X21 m c := by
  show Function.update (V20 m (outs m) c) main_v75 (X21 m c main_v75) = X21 m c
  rw [V20_eq, X21_out]; rfl

/-! ## What each host stretch leaves unchanged -/

theorem X1_of (c : Dev nD) (r : Ref sig .tc) (h : r ∉ hostOps0_W) : X1 m c r = m (c, r) :=
  StableHlo.after_of_writes_sub hostOps0 _ hostOps0_writes h
theorem X4_of (c : Dev nD) (r : Ref sig .tc) (h : r ∉ hostOps2_W) : X4 m c r = X3 m c r := by
  unfold X4; exact StableHlo.after_of_writes_sub hostOps2 _ hostOps2_writes h
theorem X5_of (c : Dev nD) (r : Ref sig .tc) (h : r ∉ hostOps2_1_W) : X5 m c r = X4 m c r := by
  unfold X5; exact StableHlo.after_of_writes_sub hostOps2_1 _ hostOps2_1_writes h
theorem X6_of (c : Dev nD) (r : Ref sig .tc) (h : r ∉ hostOps2_2_W) : X6 m c r = X5 m c r := by
  unfold X6; exact StableHlo.after_of_writes_sub hostOps2_2 _ hostOps2_2_writes h
theorem X8_of (c : Dev nD) (r : Ref sig .tc) (h : r ∉ hostOps3_W) : X8 m c r = X7 m c r := by
  unfold X8; exact StableHlo.after_of_writes_sub hostOps3 _ hostOps3_writes h
theorem X9_of (c : Dev nD) (r : Ref sig .tc) (h : r ∉ hostOps3_1_W) : X9 m c r = X8 m c r := by
  unfold X9; exact StableHlo.after_of_writes_sub hostOps3_1 _ hostOps3_1_writes h
theorem X10_of (c : Dev nD) (r : Ref sig .tc) (h : r ∉ hostOps3_2_W) : X10 m c r = X9 m c r := by
  unfold X10; exact StableHlo.after_of_writes_sub hostOps3_2 _ hostOps3_2_writes h
theorem X12_of (c : Dev nD) (r : Ref sig .tc) (h : r ∉ hostOps4_W) : X12 m c r = X11 m c r := by
  unfold X12; exact StableHlo.after_of_writes_sub hostOps4 _ hostOps4_writes h
theorem X13_of (c : Dev nD) (r : Ref sig .tc) (h : r ∉ hostOps4_1_W) : X13 m c r = X12 m c r := by
  unfold X13; exact StableHlo.after_of_writes_sub hostOps4_1 _ hostOps4_1_writes h
theorem X14_of (c : Dev nD) (r : Ref sig .tc) (h : r ∉ hostOps4_2_W) : X14 m c r = X13 m c r := by
  unfold X14; exact StableHlo.after_of_writes_sub hostOps4_2 _ hostOps4_2_writes h
theorem X16_of (c : Dev nD) (r : Ref sig .tc) (h : r ∉ hostOps5_W) : X16 m c r = X15 m c r := by
  unfold X16; exact StableHlo.after_of_writes_sub hostOps5 _ hostOps5_writes h
theorem X17_of (c : Dev nD) (r : Ref sig .tc) (h : r ∉ hostOps5_1_W) : X17 m c r = X16 m c r := by
  unfold X17; exact StableHlo.after_of_writes_sub hostOps5_1 _ hostOps5_1_writes h
theorem X18_of (c : Dev nD) (r : Ref sig .tc) (h : r ∉ hostOps5_2_W) : X18 m c r = X17 m c r := by
  unfold X18; exact StableHlo.after_of_writes_sub hostOps5_2 _ hostOps5_2_writes h
theorem X20_of (c : Dev nD) (r : Ref sig .tc) (h : r ∉ hostOps6_W) : X20 m c r = X19 m c r := by
  unfold X20; exact StableHlo.after_of_writes_sub hostOps6 _ hostOps6_writes h

-- from here on the boundary contents are named, never opened: everything said about them is in the lemmas above
attribute [irreducible] X2 X3 X4 X5 X6 X7 X8 X9 X10 X11 X12 X13 X14 X15 X16 X17 X18 X19 X20 X21

/-! ## The proof data family and what rides along -/

/-- Every region's proof data, each at the contents its region is entered from. -/
def pdats : (p : Fin 7) → (c : Dev nD) → Dat τ (Elt F) Unit ℕ (UR sig nD τ) ℕ (cfgs p) c
  | ⟨0, _⟩ => fun c => dat0 (rd (X1 m)) c
  | ⟨1, _⟩ => fun c => dat1 (rd (X2 m)) c
  | ⟨2, _⟩ => fun c => dat2 (rd (X6 m)) c
  | ⟨3, _⟩ => fun c => dat3 (rd (X10 m)) c
  | ⟨4, _⟩ => fun c => dat4 (rd (X14 m)) c
  | ⟨5, _⟩ => fun c => dat5 (rd (X18 m)) c
  | ⟨6, _⟩ => fun c => dat6 (rd (X20 m)) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and that it owes nothing. -/
abbrev R (c : Dev nD) : sProp 𝕄 := iprop((∃ r, prngReg c r) ∗ ∃ W, owes (c : Thread nD τ) (0 : CellTallies nD τ sig Unit) W)

/-! ## The regions as segments -/

set_option maxHeartbeats 2000000 in
/-- At region 0's exit each of its arrays holds what the pipeline leaves: an input's as it was found, the output's the write-backs. -/
theorem hF0 (c : Dev nD) : ∀ w : Fin cfg0.W, (dat0 (rd (X1 m)) c).arrAt w cfg0.N = rd (X2 m) c (Pipeline.arrRef spec0 w)
  | ⟨0, _⟩ => ((dat0 (rd (X1 m)) c).arrAt_in 0 rfl _).trans ((A_eq0 (rd (X1 m)) c 0).trans (X2_of_ne m c main_arg0 (by decide)).symm)
  | ⟨1, _⟩ => ((dat0 (rd (X1 m)) c).arrAt_in 1 rfl _).trans ((A_eq0 (rd (X1 m)) c 1).trans (X2_of_ne m c main_arg4 (by decide)).symm)
  | ⟨2, _⟩ => ((dat0 (rd (X1 m)) c).arrAt_in 2 rfl _).trans ((A_eq0 (rd (X1 m)) c 2).trans (X2_of_ne m c main_arg5 (by decide)).symm)
  | ⟨3, _⟩ => (X2_out m c).symm

set_option backward.isDefEq.respectTransparency.types false in
/-- Region 0: entered with every buffer at `X1`, left with every buffer at `X2`. Its arrays are split out of
    the buffers on entry and put back on exit, the output's at what the grid points wrote back; the generator register
    goes into the region's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (X1 m)) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (rd (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (X1 m) c) (rd (X2 m) c) ((pdats m 0 c).arrAt · cfg0.N)
      (hF0 m c)
      (fun b hb => X2_of_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 1's exit each of its arrays holds what the pipeline leaves: an input's as it was found, the output's the write-backs. -/
theorem hF1 (c : Dev nD) : ∀ w : Fin cfg1.W, (dat1 (rd (X2 m)) c).arrAt w cfg1.N = rd (X3 m) c (Pipeline.arrRef spec1 w)
  | ⟨0, _⟩ => ((dat1 (rd (X2 m)) c).arrAt_in 0 rfl _).trans ((A_eq1 (rd (X2 m)) c 0).trans (X3_of_ne m c main_arg2 (by decide)).symm)
  | ⟨1, _⟩ => ((dat1 (rd (X2 m)) c).arrAt_in 1 rfl _).trans ((A_eq1 (rd (X2 m)) c 1).trans (X3_of_ne m c main_arg6 (by decide)).symm)
  | ⟨2, _⟩ => ((dat1 (rd (X2 m)) c).arrAt_in 2 rfl _).trans ((A_eq1 (rd (X2 m)) c 2).trans (X3_of_ne m c main_arg7 (by decide)).symm)
  | ⟨3, _⟩ => (X3_out m c).symm

set_option backward.isDefEq.respectTransparency.types false in
/-- Region 1: entered with every buffer at `X2`, left with every buffer at `X3`. Its arrays are split out of
    the buffers on entry and put back on exit, the output's at what the grid points wrote back; the generator register
    goes into the region's invariant and comes out; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (X2 m)) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (rd (X2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (X2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (X2 m) c) (rd (X3 m) c) ((pdats m 1 c).arrAt · cfg1.N)
      (hF1 m c)
      (fun b hb => X3_of_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 2's exit each of its arrays holds what the pipeline leaves: an input's as it was found, the output's the write-backs. -/
theorem hF2 (c : Dev nD) : ∀ w : Fin cfg2.W, (dat2 (rd (X6 m)) c).arrAt w cfg2.N = rd (X7 m) c (Pipeline.arrRef spec2 w)
  | ⟨0, _⟩ => ((dat2 (rd (X6 m)) c).arrAt_in 0 rfl _).trans ((A_eq2 (rd (X6 m)) c 0).trans (X7_of_ne m c main_v4 (by decide)).symm)
  | ⟨1, _⟩ => ((dat2 (rd (X6 m)) c).arrAt_in 1 rfl _).trans ((A_eq2 (rd (X6 m)) c 1).trans (X7_of_ne m c main_v18 (by decide)).symm)
  | ⟨2, _⟩ => ((dat2 (rd (X6 m)) c).arrAt_in 2 rfl _).trans ((A_eq2 (rd (X6 m)) c 2).trans (X7_of_ne m c main_arg8 (by decide)).symm)
  | ⟨3, _⟩ => ((dat2 (rd (X6 m)) c).arrAt_in 3 rfl _).trans ((A_eq2 (rd (X6 m)) c 3).trans (X7_of_ne m c main_arg9 (by decide)).symm)
  | ⟨4, _⟩ => ((dat2 (rd (X6 m)) c).arrAt_in 4 rfl _).trans ((A_eq2 (rd (X6 m)) c 4).trans (X7_of_ne m c main_arg10 (by decide)).symm)
  | ⟨5, _⟩ => ((dat2 (rd (X6 m)) c).arrAt_in 5 rfl _).trans ((A_eq2 (rd (X6 m)) c 5).trans (X7_of_ne m c main_arg11 (by decide)).symm)
  | ⟨6, _⟩ => (X7_out m c).symm

set_option backward.isDefEq.respectTransparency.types false in
/-- Region 2: entered with every buffer at `X6`, left with every buffer at `X7`. Its arrays are split out of
    the buffers on entry and put back on exit, the output's at what the grid points wrote back; the generator register
    goes into the region's invariant and comes out; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (X6 m)) c).loose
  hwaits := Pipeline.hwaits_of_owed_zero _ _ _ _ L lv 2 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec2 c (rd (X6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (X6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (X6 m) c) (rd (X7 m) c) ((pdats m 2 c).arrAt · cfg2.N)
      (hF2 m c)
      (fun b hb => X7_of_ne m c b fun h => hb (h ▸ Finset.mem_image.mpr ⟨6, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 3's exit each of its arrays holds what the pipeline leaves: an input's as it was found, the output's the write-backs. -/
theorem hF3 (c : Dev nD) : ∀ w : Fin cfg3.W, (dat3 (rd (X10 m)) c).arrAt w cfg3.N = rd (X11 m) c (Pipeline.arrRef spec3 w)
  | ⟨0, _⟩ => ((dat3 (rd (X10 m)) c).arrAt_in 0 rfl _).trans ((A_eq3 (rd (X10 m)) c 0).trans (X11_of_ne m c main_v19 (by decide)).symm)
  | ⟨1, _⟩ => ((dat3 (rd (X10 m)) c).arrAt_in 1 rfl _).trans ((A_eq3 (rd (X10 m)) c 1).trans (X11_of_ne m c main_v35 (by decide)).symm)
  | ⟨2, _⟩ => ((dat3 (rd (X10 m)) c).arrAt_in 2 rfl _).trans ((A_eq3 (rd (X10 m)) c 2).trans (X11_of_ne m c main_arg8 (by decide)).symm)
  | ⟨3, _⟩ => ((dat3 (rd (X10 m)) c).arrAt_in 3 rfl _).trans ((A_eq3 (rd (X10 m)) c 3).trans (X11_of_ne m c main_arg9 (by decide)).symm)
  | ⟨4, _⟩ => ((dat3 (rd (X10 m)) c).arrAt_in 4 rfl _).trans ((A_eq3 (rd (X10 m)) c 4).trans (X11_of_ne m c main_arg10 (by decide)).symm)
  | ⟨5, _⟩ => ((dat3 (rd (X10 m)) c).arrAt_in 5 rfl _).trans ((A_eq3 (rd (X10 m)) c 5).trans (X11_of_ne m c main_arg11 (by decide)).symm)
  | ⟨6, _⟩ => (X11_out m c).symm

set_option backward.isDefEq.respectTransparency.types false in
/-- Region 3: entered with every buffer at `X10`, left with every buffer at `X11`. Its arrays are split out of
    the buffers on entry and put back on exit, the output's at what the grid points wrote back; the generator register
    goes into the region's invariant and comes out; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (X10 m)) c).loose
  hwaits := Pipeline.hwaits_of_owed_zero _ _ _ _ L lv 3 fun _ _ => rfl
  pre c := iprop(StableHlo.held (c : Thread nD τ) (Pipeline.ucRefs τ sig) (X10 m c) ∗ R c)
  post c := iprop(StableHlo.held (c : Thread nD τ) (Pipeline.ucRefs τ sig) (X11 m c) ∗ R c)
  X c := iprop(∃ r, prngReg c r)
  Y c := iprop(∃ r, prngReg c r)
  Z c := Pipeline.unscopedRest (Ix := Unit) (Name := ℕ) (U := UR sig nD τ) (Lvl := ℕ) spec3 c (rd (X10 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (X10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (X10 m) c) (rd (X11 m) c) ((pdats m 3 c).arrAt · cfg3.N)
      (hF3 m c)
      (fun b hb => X11_of_ne m c b fun h => hb (h ▸ Finset.mem_image.mpr ⟨6, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 4's exit each of its arrays holds what the pipeline leaves: an input's as it was found, the output's the write-backs. -/
theorem hF4 (c : Dev nD) : ∀ w : Fin cfg4.W, (dat4 (rd (X14 m)) c).arrAt w cfg4.N = rd (X15 m) c (Pipeline.arrRef spec4 w)
  | ⟨0, _⟩ => ((dat4 (rd (X14 m)) c).arrAt_in 0 rfl _).trans ((A_eq4 (rd (X14 m)) c 0).trans (X15_of_ne m c main_v36 (by decide)).symm)
  | ⟨1, _⟩ => ((dat4 (rd (X14 m)) c).arrAt_in 1 rfl _).trans ((A_eq4 (rd (X14 m)) c 1).trans (X15_of_ne m c main_v52 (by decide)).symm)
  | ⟨2, _⟩ => ((dat4 (rd (X14 m)) c).arrAt_in 2 rfl _).trans ((A_eq4 (rd (X14 m)) c 2).trans (X15_of_ne m c main_arg8 (by decide)).symm)
  | ⟨3, _⟩ => ((dat4 (rd (X14 m)) c).arrAt_in 3 rfl _).trans ((A_eq4 (rd (X14 m)) c 3).trans (X15_of_ne m c main_arg9 (by decide)).symm)
  | ⟨4, _⟩ => ((dat4 (rd (X14 m)) c).arrAt_in 4 rfl _).trans ((A_eq4 (rd (X14 m)) c 4).trans (X15_of_ne m c main_arg10 (by decide)).symm)
  | ⟨5, _⟩ => ((dat4 (rd (X14 m)) c).arrAt_in 5 rfl _).trans ((A_eq4 (rd (X14 m)) c 5).trans (X15_of_ne m c main_arg11 (by decide)).symm)
  | ⟨6, _⟩ => (X15_out m c).symm

set_option backward.isDefEq.respectTransparency.types false in
/-- Region 4: entered with every buffer at `X14`, left with every buffer at `X15`. Its arrays are split out of
    the buffers on entry and put back on exit, the output's at what the grid points wrote back; the generator register
    goes into the region's invariant and comes out; nothing is owed; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (X14 m)) c).loose
  hwaits := Pipeline.hwaits_of_owed_zero _ _ _ _ L lv 4 fun _ _ => rfl
  pre c := iprop(StableHlo.held (c : Thread nD τ) (Pipeline.ucRefs τ sig) (X14 m c) ∗ R c)
  post c := iprop(StableHlo.held (c : Thread nD τ) (Pipeline.ucRefs τ sig) (X15 m c) ∗ R c)
  X c := iprop(∃ r, prngReg c r)
  Y c := iprop(∃ r, prngReg c r)
  Z c := Pipeline.unscopedRest (Ix := Unit) (Name := ℕ) (U := UR sig nD τ) (Lvl := ℕ) spec4 c (rd (X14 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (X14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (X14 m) c) (rd (X15 m) c) ((pdats m 4 c).arrAt · cfg4.N)
      (hF4 m c)
      (fun b hb => X15_of_ne m c b fun h => hb (h ▸ Finset.mem_image.mpr ⟨6, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 5's exit each of its arrays holds what the pipeline leaves: an input's as it was found, the output's the write-backs. -/
theorem hF5 (c : Dev nD) : ∀ w : Fin cfg5.W, (dat5 (rd (X18 m)) c).arrAt w cfg5.N = rd (X19 m) c (Pipeline.arrRef spec5 w)
  | ⟨0, _⟩ => ((dat5 (rd (X18 m)) c).arrAt_in 0 rfl _).trans ((A_eq5 (rd (X18 m)) c 0).trans (X19_of_ne m c main_v53 (by decide)).symm)
  | ⟨1, _⟩ => ((dat5 (rd (X18 m)) c).arrAt_in 1 rfl _).trans ((A_eq5 (rd (X18 m)) c 1).trans (X19_of_ne m c main_v69 (by decide)).symm)
  | ⟨2, _⟩ => ((dat5 (rd (X18 m)) c).arrAt_in 2 rfl _).trans ((A_eq5 (rd (X18 m)) c 2).trans (X19_of_ne m c main_arg8 (by decide)).symm)
  | ⟨3, _⟩ => ((dat5 (rd (X18 m)) c).arrAt_in 3 rfl _).trans ((A_eq5 (rd (X18 m)) c 3).trans (X19_of_ne m c main_arg9 (by decide)).symm)
  | ⟨4, _⟩ => ((dat5 (rd (X18 m)) c).arrAt_in 4 rfl _).trans ((A_eq5 (rd (X18 m)) c 4).trans (X19_of_ne m c main_arg10 (by decide)).symm)
  | ⟨5, _⟩ => ((dat5 (rd (X18 m)) c).arrAt_in 5 rfl _).trans ((A_eq5 (rd (X18 m)) c 5).trans (X19_of_ne m c main_arg11 (by decide)).symm)
  | ⟨6, _⟩ => (X19_out m c).symm

set_option backward.isDefEq.respectTransparency.types false in
/-- Region 5: entered with every buffer at `X18`, left with every buffer at `X19`. Its arrays are split out of
    the buffers on entry and put back on exit, the output's at what the grid points wrote back; the generator register
    goes into the region's invariant and comes out; nothing is owed; the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (X18 m)) c).loose
  hwaits := Pipeline.hwaits_of_owed_zero _ _ _ _ L lv 5 fun _ _ => rfl
  pre c := iprop(StableHlo.held (c : Thread nD τ) (Pipeline.ucRefs τ sig) (X18 m c) ∗ R c)
  post c := iprop(StableHlo.held (c : Thread nD τ) (Pipeline.ucRefs τ sig) (X19 m c) ∗ R c)
  X c := iprop(∃ r, prngReg c r)
  Y c := iprop(∃ r, prngReg c r)
  Z c := Pipeline.unscopedRest (Ix := Unit) (Name := ℕ) (U := UR sig nD τ) (Lvl := ℕ) spec5 c (rd (X18 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (X18 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (X18 m) c) (rd (X19 m) c) ((pdats m 5 c).arrAt · cfg5.N)
      (hF5 m c)
      (fun b hb => X19_of_ne m c b fun h => hb (h ▸ Finset.mem_image.mpr ⟨6, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 6's exit each of its arrays holds what the pipeline leaves: an input's as it was found, the output's the write-backs. -/
theorem hF6 (c : Dev nD) : ∀ w : Fin cfg6.W, (dat6 (rd (X20 m)) c).arrAt w cfg6.N = rd (X21 m) c (Pipeline.arrRef spec6 w)
  | ⟨0, _⟩ => ((dat6 (rd (X20 m)) c).arrAt_in 0 rfl _).trans ((A_eq6 (rd (X20 m)) c 0).trans (X21_of_ne m c main_v74 (by decide)).symm)
  | ⟨1, _⟩ => ((dat6 (rd (X20 m)) c).arrAt_in 1 rfl _).trans ((A_eq6 (rd (X20 m)) c 1).trans (X21_of_ne m c main_arg12 (by decide)).symm)
  | ⟨2, _⟩ => ((dat6 (rd (X20 m)) c).arrAt_in 2 rfl _).trans ((A_eq6 (rd (X20 m)) c 2).trans (X21_of_ne m c main_arg13 (by decide)).symm)
  | ⟨3, _⟩ => (X21_out m c).symm

set_option backward.isDefEq.respectTransparency.types false in
/-- Region 6: entered with every buffer at `X20`, left with every buffer at `X21`. Its arrays are split out of
    the buffers on entry and put back on exit, the output's at what the grid points wrote back; the generator register
    goes into the region's invariant and comes out; nothing is owed; the kernel has no semaphore of its own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (rd (X20 m)) c).loose
  hwaits := Pipeline.hwaits_of_owed_zero _ _ _ _ L lv 6 fun _ _ => rfl
  pre c := iprop(StableHlo.held (c : Thread nD τ) (Pipeline.ucRefs τ sig) (X20 m c) ∗ R c)
  post c := iprop(StableHlo.held (c : Thread nD τ) (Pipeline.ucRefs τ sig) (X21 m c) ∗ R c)
  X c := iprop(∃ r, prngReg c r)
  Y c := iprop(∃ r, prngReg c r)
  Z c := Pipeline.unscopedRest (Ix := Unit) (Name := ℕ) (U := UR sig nD τ) (Lvl := ℕ) spec6 c (rd (X20 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (rd (X20 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (rd (X20 m) c) (rd (X21 m) c) ((pdats m 6 c).arrAt · cfg6.N)
      (hF6 m c)
      (fun b hb => X21_of_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The items chain: each region is entered from the boundary before it and left at the boundary after it -/
theorem hpre0 (c : Dev nD) : iprop(StableHlo.held (c : Thread nD τ) (Pipeline.ucRefs τ sig) (V1 m c) ∗ R c) ⊢ (reg0 m).pre c := by
  rw [V1_eq m c]; exact .rfl
theorem hpost0 (c : Dev nD) : (reg0 m).post c ⊢ iprop(StableHlo.held (c : Thread nD τ) (Pipeline.ucRefs τ sig) (V2 m (outs m) c) ∗ R c) := by
  rw [V2_eq m c]; exact .rfl
theorem hpre1 (c : Dev nD) : iprop(StableHlo.held (c : Thread nD τ) (Pipeline.ucRefs τ sig) (V2 m (outs m) c) ∗ R c) ⊢ (reg1 m).pre c := by
  rw [V2_eq m c]; exact .rfl
theorem hpost1 (c : Dev nD) : (reg1 m).post c ⊢ iprop(StableHlo.held (c : Thread nD τ) (Pipeline.ucRefs τ sig) (V3 m (outs m) c) ∗ R c) := by
  rw [V3_eq m c]; exact .rfl
theorem hpre2 (c : Dev nD) : iprop(StableHlo.held (c : Thread nD τ) (Pipeline.ucRefs τ sig) (V6 m (outs m) c) ∗ R c) ⊢ (reg2 m).pre c := by
  rw [V6_eq m c]; exact .rfl
theorem hpost2 (c : Dev nD) : (reg2 m).post c ⊢ iprop(StableHlo.held (c : Thread nD τ) (Pipeline.ucRefs τ sig) (V7 m (outs m) c) ∗ R c) := by
  rw [V7_eq m c]; exact .rfl
theorem hpre3 (c : Dev nD) : iprop(StableHlo.held (c : Thread nD τ) (Pipeline.ucRefs τ sig) (V10 m (outs m) c) ∗ R c) ⊢ (reg3 m).pre c := by
  rw [V10_eq m c]; exact .rfl
theorem hpost3 (c : Dev nD) : (reg3 m).post c ⊢ iprop(StableHlo.held (c : Thread nD τ) (Pipeline.ucRefs τ sig) (V11 m (outs m) c) ∗ R c) := by
  rw [V11_eq m c]; exact .rfl
theorem hpre4 (c : Dev nD) : iprop(StableHlo.held (c : Thread nD τ) (Pipeline.ucRefs τ sig) (V14 m (outs m) c) ∗ R c) ⊢ (reg4 m).pre c := by
  rw [V14_eq m c]; exact .rfl
theorem hpost4 (c : Dev nD) : (reg4 m).post c ⊢ iprop(StableHlo.held (c : Thread nD τ) (Pipeline.ucRefs τ sig) (V15 m (outs m) c) ∗ R c) := by
  rw [V15_eq m c]; exact .rfl
theorem hpre5 (c : Dev nD) : iprop(StableHlo.held (c : Thread nD τ) (Pipeline.ucRefs τ sig) (V18 m (outs m) c) ∗ R c) ⊢ (reg5 m).pre c := by
  rw [V18_eq m c]; exact .rfl
theorem hpost5 (c : Dev nD) : (reg5 m).post c ⊢ iprop(StableHlo.held (c : Thread nD τ) (Pipeline.ucRefs τ sig) (V19 m (outs m) c) ∗ R c) := by
  rw [V19_eq m c]; exact .rfl
theorem hpre6 (c : Dev nD) : iprop(StableHlo.held (c : Thread nD τ) (Pipeline.ucRefs τ sig) (V20 m (outs m) c) ∗ R c) ⊢ (reg6 m).pre c := by
  rw [V20_eq m c]; exact .rfl
theorem hpost6 (c : Dev nD) : (reg6 m).post c ⊢ iprop(StableHlo.held (c : Thread nD τ) (Pipeline.ucRefs τ sig) (V21 m (outs m) c) ∗ R c) := by
  rw [V21_eq m c]; exact .rfl

/-- What rides along ends with the core owing nothing. -/
theorem R_owes (c : Dev nD) : R (F := F) c ⊢ (iprop(∃ W, owes (c : Thread nD τ) (0 : CellTallies nD τ sig Unit) W) : sProp 𝕄) := by
  iintro ⟨-, H⟩; iexact H

/-! ## The run -/

set_option backward.isDefEq.respectTransparency.types false in
/-- From any memory with zero counters every weakly fair execution of @main terminates, nothing faulting, and ends with
    every buffer of every core at `X21`: the 21 items chained, the launch's resources dealt to the first item, the last
    item's buffers read against the final state. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = X21 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m) (reg6 m))
    (fun c Q => by
      rewrite [main_chain c, Seg.run_eq_chain,
        show ((segs m (outs m) 𝒱₀ L lv (fun _ c => R c) () (pdats m) (reg0 m) (reg1 m) (reg2 m) (reg3 m) (reg4 m) (reg5 m) (reg6 m)) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V21 m (outs m) c))
    (hch := fun c => ⟨.rfl, hpre0 m c, (hpost0 m c).trans (hpre1 m c), hpost1 m c, .rfl, .rfl, hpre2 m c, hpost2 m c, .rfl, .rfl, hpre3 m c, hpost3 m c, .rfl, .rfl, hpre4 m c, hpost4 m c, .rfl, .rfl, hpre5 m c, hpost5 m c, hpre6 m c, (hpost6 m c).trans (sep_mono .rfl (R_owes c))⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = X21 m c b)
    (hfin := fun c s' => by
      unfold StableHlo.held
      iintro ⟨Hh, HSI⟩
      ihave Hr := (pointsTo_read_all (Pipeline.ucRefs τ sig) (fun b => ((c : Thread nD τ).1, b)) (V21 m (outs m) c) s') $$ [Hh HSI]
      · isplitl [Hh] <;> iassumption
      icases Hr with ⟨%h, HSI⟩
      imodintro
      isplitr
      · ipureintro
        exact fun b hb => (h b hb).trans (congrFun (V21_eq m c) b)
      · iexact HSI)
    (hQ := fun _ h => h)

end Cert.Kernel.Hand

end
-- ==== Proof.FrameB.lean ====
/-
  The frame, read off the run: every execution of @main ends with every buffer at `X21`, and no item writes an
  argument, so each argument's buffer ends holding its launch contents.
-/
import proofs.«102879_j77541339562639_2_alg».proof.Proof.RunB

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- An unscoped TensorCore reference is among those the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Argument 0 ends as launched: no host stretch writes it and no region's output array is it. -/
theorem X21_arg0 (c : Dev nD) : X21 m c main_arg0 = m ((c.tc : Thread nD τ).loc main_arg0) :=
  ((X21_of_ne m c main_arg0 (by decide)).trans ((X20_of m c main_arg0 (by decide)).trans ((X19_of_ne m c main_arg0 (by decide)).trans ((X18_of m c main_arg0 (by decide)).trans ((X17_of m c main_arg0 (by decide)).trans ((X16_of m c main_arg0 (by decide)).trans ((X15_of_ne m c main_arg0 (by decide)).trans ((X14_of m c main_arg0 (by decide)).trans ((X13_of m c main_arg0 (by decide)).trans ((X12_of m c main_arg0 (by decide)).trans ((X11_of_ne m c main_arg0 (by decide)).trans ((X10_of m c main_arg0 (by decide)).trans ((X9_of m c main_arg0 (by decide)).trans ((X8_of m c main_arg0 (by decide)).trans ((X7_of_ne m c main_arg0 (by decide)).trans ((X6_of m c main_arg0 (by decide)).trans ((X5_of m c main_arg0 (by decide)).trans ((X4_of m c main_arg0 (by decide)).trans ((X3_of_ne m c main_arg0 (by decide)).trans ((X2_of_ne m c main_arg0 (by decide)).trans (X1_of m c main_arg0 (by decide))))))))))))))))))))))
/-- Argument 1 ends as launched: no host stretch writes it and no region's output array is it. -/
theorem X21_arg1 (c : Dev nD) : X21 m c main_arg1 = m ((c.tc : Thread nD τ).loc main_arg1) :=
  ((X21_of_ne m c main_arg1 (by decide)).trans ((X20_of m c main_arg1 (by decide)).trans ((X19_of_ne m c main_arg1 (by decide)).trans ((X18_of m c main_arg1 (by decide)).trans ((X17_of m c main_arg1 (by decide)).trans ((X16_of m c main_arg1 (by decide)).trans ((X15_of_ne m c main_arg1 (by decide)).trans ((X14_of m c main_arg1 (by decide)).trans ((X13_of m c main_arg1 (by decide)).trans ((X12_of m c main_arg1 (by decide)).trans ((X11_of_ne m c main_arg1 (by decide)).trans ((X10_of m c main_arg1 (by decide)).trans ((X9_of m c main_arg1 (by decide)).trans ((X8_of m c main_arg1 (by decide)).trans ((X7_of_ne m c main_arg1 (by decide)).trans ((X6_of m c main_arg1 (by decide)).trans ((X5_of m c main_arg1 (by decide)).trans ((X4_of m c main_arg1 (by decide)).trans ((X3_of_ne m c main_arg1 (by decide)).trans ((X2_of_ne m c main_arg1 (by decide)).trans (X1_of m c main_arg1 (by decide))))))))))))))))))))))
/-- Argument 2 ends as launched: no host stretch writes it and no region's output array is it. -/
theorem X21_arg2 (c : Dev nD) : X21 m c main_arg2 = m ((c.tc : Thread nD τ).loc main_arg2) :=
  ((X21_of_ne m c main_arg2 (by decide)).trans ((X20_of m c main_arg2 (by decide)).trans ((X19_of_ne m c main_arg2 (by decide)).trans ((X18_of m c main_arg2 (by decide)).trans ((X17_of m c main_arg2 (by decide)).trans ((X16_of m c main_arg2 (by decide)).trans ((X15_of_ne m c main_arg2 (by decide)).trans ((X14_of m c main_arg2 (by decide)).trans ((X13_of m c main_arg2 (by decide)).trans ((X12_of m c main_arg2 (by decide)).trans ((X11_of_ne m c main_arg2 (by decide)).trans ((X10_of m c main_arg2 (by decide)).trans ((X9_of m c main_arg2 (by decide)).trans ((X8_of m c main_arg2 (by decide)).trans ((X7_of_ne m c main_arg2 (by decide)).trans ((X6_of m c main_arg2 (by decide)).trans ((X5_of m c main_arg2 (by decide)).trans ((X4_of m c main_arg2 (by decide)).trans ((X3_of_ne m c main_arg2 (by decide)).trans ((X2_of_ne m c main_arg2 (by decide)).trans (X1_of m c main_arg2 (by decide))))))))))))))))))))))
/-- Argument 3 ends as launched: no host stretch writes it and no region's output array is it. -/
theorem X21_arg3 (c : Dev nD) : X21 m c main_arg3 = m ((c.tc : Thread nD τ).loc main_arg3) :=
  ((X21_of_ne m c main_arg3 (by decide)).trans ((X20_of m c main_arg3 (by decide)).trans ((X19_of_ne m c main_arg3 (by decide)).trans ((X18_of m c main_arg3 (by decide)).trans ((X17_of m c main_arg3 (by decide)).trans ((X16_of m c main_arg3 (by decide)).trans ((X15_of_ne m c main_arg3 (by decide)).trans ((X14_of m c main_arg3 (by decide)).trans ((X13_of m c main_arg3 (by decide)).trans ((X12_of m c main_arg3 (by decide)).trans ((X11_of_ne m c main_arg3 (by decide)).trans ((X10_of m c main_arg3 (by decide)).trans ((X9_of m c main_arg3 (by decide)).trans ((X8_of m c main_arg3 (by decide)).trans ((X7_of_ne m c main_arg3 (by decide)).trans ((X6_of m c main_arg3 (by decide)).trans ((X5_of m c main_arg3 (by decide)).trans ((X4_of m c main_arg3 (by decide)).trans ((X3_of_ne m c main_arg3 (by decide)).trans ((X2_of_ne m c main_arg3 (by decide)).trans (X1_of m c main_arg3 (by decide))))))))))))))))))))))
/-- Argument 4 ends as launched: no host stretch writes it and no region's output array is it. -/
theorem X21_arg4 (c : Dev nD) : X21 m c main_arg4 = m ((c.tc : Thread nD τ).loc main_arg4) :=
  ((X21_of_ne m c main_arg4 (by decide)).trans ((X20_of m c main_arg4 (by decide)).trans ((X19_of_ne m c main_arg4 (by decide)).trans ((X18_of m c main_arg4 (by decide)).trans ((X17_of m c main_arg4 (by decide)).trans ((X16_of m c main_arg4 (by decide)).trans ((X15_of_ne m c main_arg4 (by decide)).trans ((X14_of m c main_arg4 (by decide)).trans ((X13_of m c main_arg4 (by decide)).trans ((X12_of m c main_arg4 (by decide)).trans ((X11_of_ne m c main_arg4 (by decide)).trans ((X10_of m c main_arg4 (by decide)).trans ((X9_of m c main_arg4 (by decide)).trans ((X8_of m c main_arg4 (by decide)).trans ((X7_of_ne m c main_arg4 (by decide)).trans ((X6_of m c main_arg4 (by decide)).trans ((X5_of m c main_arg4 (by decide)).trans ((X4_of m c main_arg4 (by decide)).trans ((X3_of_ne m c main_arg4 (by decide)).trans ((X2_of_ne m c main_arg4 (by decide)).trans (X1_of m c main_arg4 (by decide))))))))))))))))))))))
/-- Argument 5 ends as launched: no host stretch writes it and no region's output array is it. -/
theorem X21_arg5 (c : Dev nD) : X21 m c main_arg5 = m ((c.tc : Thread nD τ).loc main_arg5) :=
  ((X21_of_ne m c main_arg5 (by decide)).trans ((X20_of m c main_arg5 (by decide)).trans ((X19_of_ne m c main_arg5 (by decide)).trans ((X18_of m c main_arg5 (by decide)).trans ((X17_of m c main_arg5 (by decide)).trans ((X16_of m c main_arg5 (by decide)).trans ((X15_of_ne m c main_arg5 (by decide)).trans ((X14_of m c main_arg5 (by decide)).trans ((X13_of m c main_arg5 (by decide)).trans ((X12_of m c main_arg5 (by decide)).trans ((X11_of_ne m c main_arg5 (by decide)).trans ((X10_of m c main_arg5 (by decide)).trans ((X9_of m c main_arg5 (by decide)).trans ((X8_of m c main_arg5 (by decide)).trans ((X7_of_ne m c main_arg5 (by decide)).trans ((X6_of m c main_arg5 (by decide)).trans ((X5_of m c main_arg5 (by decide)).trans ((X4_of m c main_arg5 (by decide)).trans ((X3_of_ne m c main_arg5 (by decide)).trans ((X2_of_ne m c main_arg5 (by decide)).trans (X1_of m c main_arg5 (by decide))))))))))))))))))))))
/-- Argument 6 ends as launched: no host stretch writes it and no region's output array is it. -/
theorem X21_arg6 (c : Dev nD) : X21 m c main_arg6 = m ((c.tc : Thread nD τ).loc main_arg6) :=
  ((X21_of_ne m c main_arg6 (by decide)).trans ((X20_of m c main_arg6 (by decide)).trans ((X19_of_ne m c main_arg6 (by decide)).trans ((X18_of m c main_arg6 (by decide)).trans ((X17_of m c main_arg6 (by decide)).trans ((X16_of m c main_arg6 (by decide)).trans ((X15_of_ne m c main_arg6 (by decide)).trans ((X14_of m c main_arg6 (by decide)).trans ((X13_of m c main_arg6 (by decide)).trans ((X12_of m c main_arg6 (by decide)).trans ((X11_of_ne m c main_arg6 (by decide)).trans ((X10_of m c main_arg6 (by decide)).trans ((X9_of m c main_arg6 (by decide)).trans ((X8_of m c main_arg6 (by decide)).trans ((X7_of_ne m c main_arg6 (by decide)).trans ((X6_of m c main_arg6 (by decide)).trans ((X5_of m c main_arg6 (by decide)).trans ((X4_of m c main_arg6 (by decide)).trans ((X3_of_ne m c main_arg6 (by decide)).trans ((X2_of_ne m c main_arg6 (by decide)).trans (X1_of m c main_arg6 (by decide))))))))))))))))))))))
/-- Argument 7 ends as launched: no host stretch writes it and no region's output array is it. -/
theorem X21_arg7 (c : Dev nD) : X21 m c main_arg7 = m ((c.tc : Thread nD τ).loc main_arg7) :=
  ((X21_of_ne m c main_arg7 (by decide)).trans ((X20_of m c main_arg7 (by decide)).trans ((X19_of_ne m c main_arg7 (by decide)).trans ((X18_of m c main_arg7 (by decide)).trans ((X17_of m c main_arg7 (by decide)).trans ((X16_of m c main_arg7 (by decide)).trans ((X15_of_ne m c main_arg7 (by decide)).trans ((X14_of m c main_arg7 (by decide)).trans ((X13_of m c main_arg7 (by decide)).trans ((X12_of m c main_arg7 (by decide)).trans ((X11_of_ne m c main_arg7 (by decide)).trans ((X10_of m c main_arg7 (by decide)).trans ((X9_of m c main_arg7 (by decide)).trans ((X8_of m c main_arg7 (by decide)).trans ((X7_of_ne m c main_arg7 (by decide)).trans ((X6_of m c main_arg7 (by decide)).trans ((X5_of m c main_arg7 (by decide)).trans ((X4_of m c main_arg7 (by decide)).trans ((X3_of_ne m c main_arg7 (by decide)).trans ((X2_of_ne m c main_arg7 (by decide)).trans (X1_of m c main_arg7 (by decide))))))))))))))))))))))
/-- Argument 8 ends as launched: no host stretch writes it and no region's output array is it. -/
theorem X21_arg8 (c : Dev nD) : X21 m c main_arg8 = m ((c.tc : Thread nD τ).loc main_arg8) :=
  ((X21_of_ne m c main_arg8 (by decide)).trans ((X20_of m c main_arg8 (by decide)).trans ((X19_of_ne m c main_arg8 (by decide)).trans ((X18_of m c main_arg8 (by decide)).trans ((X17_of m c main_arg8 (by decide)).trans ((X16_of m c main_arg8 (by decide)).trans ((X15_of_ne m c main_arg8 (by decide)).trans ((X14_of m c main_arg8 (by decide)).trans ((X13_of m c main_arg8 (by decide)).trans ((X12_of m c main_arg8 (by decide)).trans ((X11_of_ne m c main_arg8 (by decide)).trans ((X10_of m c main_arg8 (by decide)).trans ((X9_of m c main_arg8 (by decide)).trans ((X8_of m c main_arg8 (by decide)).trans ((X7_of_ne m c main_arg8 (by decide)).trans ((X6_of m c main_arg8 (by decide)).trans ((X5_of m c main_arg8 (by decide)).trans ((X4_of m c main_arg8 (by decide)).trans ((X3_of_ne m c main_arg8 (by decide)).trans ((X2_of_ne m c main_arg8 (by decide)).trans (X1_of m c main_arg8 (by decide))))))))))))))))))))))
/-- Argument 9 ends as launched: no host stretch writes it and no region's output array is it. -/
theorem X21_arg9 (c : Dev nD) : X21 m c main_arg9 = m ((c.tc : Thread nD τ).loc main_arg9) :=
  ((X21_of_ne m c main_arg9 (by decide)).trans ((X20_of m c main_arg9 (by decide)).trans ((X19_of_ne m c main_arg9 (by decide)).trans ((X18_of m c main_arg9 (by decide)).trans ((X17_of m c main_arg9 (by decide)).trans ((X16_of m c main_arg9 (by decide)).trans ((X15_of_ne m c main_arg9 (by decide)).trans ((X14_of m c main_arg9 (by decide)).trans ((X13_of m c main_arg9 (by decide)).trans ((X12_of m c main_arg9 (by decide)).trans ((X11_of_ne m c main_arg9 (by decide)).trans ((X10_of m c main_arg9 (by decide)).trans ((X9_of m c main_arg9 (by decide)).trans ((X8_of m c main_arg9 (by decide)).trans ((X7_of_ne m c main_arg9 (by decide)).trans ((X6_of m c main_arg9 (by decide)).trans ((X5_of m c main_arg9 (by decide)).trans ((X4_of m c main_arg9 (by decide)).trans ((X3_of_ne m c main_arg9 (by decide)).trans ((X2_of_ne m c main_arg9 (by decide)).trans (X1_of m c main_arg9 (by decide))))))))))))))))))))))
/-- Argument 10 ends as launched: no host stretch writes it and no region's output array is it. -/
theorem X21_arg10 (c : Dev nD) : X21 m c main_arg10 = m ((c.tc : Thread nD τ).loc main_arg10) :=
  ((X21_of_ne m c main_arg10 (by decide)).trans ((X20_of m c main_arg10 (by decide)).trans ((X19_of_ne m c main_arg10 (by decide)).trans ((X18_of m c main_arg10 (by decide)).trans ((X17_of m c main_arg10 (by decide)).trans ((X16_of m c main_arg10 (by decide)).trans ((X15_of_ne m c main_arg10 (by decide)).trans ((X14_of m c main_arg10 (by decide)).trans ((X13_of m c main_arg10 (by decide)).trans ((X12_of m c main_arg10 (by decide)).trans ((X11_of_ne m c main_arg10 (by decide)).trans ((X10_of m c main_arg10 (by decide)).trans ((X9_of m c main_arg10 (by decide)).trans ((X8_of m c main_arg10 (by decide)).trans ((X7_of_ne m c main_arg10 (by decide)).trans ((X6_of m c main_arg10 (by decide)).trans ((X5_of m c main_arg10 (by decide)).trans ((X4_of m c main_arg10 (by decide)).trans ((X3_of_ne m c main_arg10 (by decide)).trans ((X2_of_ne m c main_arg10 (by decide)).trans (X1_of m c main_arg10 (by decide))))))))))))))))))))))
/-- Argument 11 ends as launched: no host stretch writes it and no region's output array is it. -/
theorem X21_arg11 (c : Dev nD) : X21 m c main_arg11 = m ((c.tc : Thread nD τ).loc main_arg11) :=
  ((X21_of_ne m c main_arg11 (by decide)).trans ((X20_of m c main_arg11 (by decide)).trans ((X19_of_ne m c main_arg11 (by decide)).trans ((X18_of m c main_arg11 (by decide)).trans ((X17_of m c main_arg11 (by decide)).trans ((X16_of m c main_arg11 (by decide)).trans ((X15_of_ne m c main_arg11 (by decide)).trans ((X14_of m c main_arg11 (by decide)).trans ((X13_of m c main_arg11 (by decide)).trans ((X12_of m c main_arg11 (by decide)).trans ((X11_of_ne m c main_arg11 (by decide)).trans ((X10_of m c main_arg11 (by decide)).trans ((X9_of m c main_arg11 (by decide)).trans ((X8_of m c main_arg11 (by decide)).trans ((X7_of_ne m c main_arg11 (by decide)).trans ((X6_of m c main_arg11 (by decide)).trans ((X5_of m c main_arg11 (by decide)).trans ((X4_of m c main_arg11 (by decide)).trans ((X3_of_ne m c main_arg11 (by decide)).trans ((X2_of_ne m c main_arg11 (by decide)).trans (X1_of m c main_arg11 (by decide))))))))))))))))))))))
/-- Argument 12 ends as launched: no host stretch writes it and no region's output array is it. -/
theorem X21_arg12 (c : Dev nD) : X21 m c main_arg12 = m ((c.tc : Thread nD τ).loc main_arg12) :=
  ((X21_of_ne m c main_arg12 (by decide)).trans ((X20_of m c main_arg12 (by decide)).trans ((X19_of_ne m c main_arg12 (by decide)).trans ((X18_of m c main_arg12 (by decide)).trans ((X17_of m c main_arg12 (by decide)).trans ((X16_of m c main_arg12 (by decide)).trans ((X15_of_ne m c main_arg12 (by decide)).trans ((X14_of m c main_arg12 (by decide)).trans ((X13_of m c main_arg12 (by decide)).trans ((X12_of m c main_arg12 (by decide)).trans ((X11_of_ne m c main_arg12 (by decide)).trans ((X10_of m c main_arg12 (by decide)).trans ((X9_of m c main_arg12 (by decide)).trans ((X8_of m c main_arg12 (by decide)).trans ((X7_of_ne m c main_arg12 (by decide)).trans ((X6_of m c main_arg12 (by decide)).trans ((X5_of m c main_arg12 (by decide)).trans ((X4_of m c main_arg12 (by decide)).trans ((X3_of_ne m c main_arg12 (by decide)).trans ((X2_of_ne m c main_arg12 (by decide)).trans (X1_of m c main_arg12 (by decide))))))))))))))))))))))
/-- Argument 13 ends as launched: no host stretch writes it and no region's output array is it. -/
theorem X21_arg13 (c : Dev nD) : X21 m c main_arg13 = m ((c.tc : Thread nD τ).loc main_arg13) :=
  ((X21_of_ne m c main_arg13 (by decide)).trans ((X20_of m c main_arg13 (by decide)).trans ((X19_of_ne m c main_arg13 (by decide)).trans ((X18_of m c main_arg13 (by decide)).trans ((X17_of m c main_arg13 (by decide)).trans ((X16_of m c main_arg13 (by decide)).trans ((X15_of_ne m c main_arg13 (by decide)).trans ((X14_of m c main_arg13 (by decide)).trans ((X13_of m c main_arg13 (by decide)).trans ((X12_of m c main_arg13 (by decide)).trans ((X11_of_ne m c main_arg13 (by decide)).trans ((X10_of m c main_arg13 (by decide)).trans ((X9_of m c main_arg13 (by decide)).trans ((X8_of m c main_arg13 (by decide)).trans ((X7_of_ne m c main_arg13 (by decide)).trans ((X6_of m c main_arg13 (by decide)).trans ((X5_of m c main_arg13 (by decide)).trans ((X4_of m c main_arg13 (by decide)).trans ((X3_of_ne m c main_arg13 (by decide)).trans ((X2_of_ne m c main_arg13 (by decide)).trans (X1_of m c main_arg13 (by decide))))))))))))))))))))))

/-- THE FRAME: every weakly fair execution of @main terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (X21_arg0 m c),
    (h c _ (mem_uc main_arg1 (by decide))).trans (X21_arg1 m c),
    (h c _ (mem_uc main_arg2 (by decide))).trans (X21_arg2 m c),
    (h c _ (mem_uc main_arg3 (by decide))).trans (X21_arg3 m c),
    (h c _ (mem_uc main_arg4 (by decide))).trans (X21_arg4 m c),
    (h c _ (mem_uc main_arg5 (by decide))).trans (X21_arg5 m c),
    (h c _ (mem_uc main_arg6 (by decide))).trans (X21_arg6 m c),
    (h c _ (mem_uc main_arg7 (by decide))).trans (X21_arg7 m c),
    (h c _ (mem_uc main_arg8 (by decide))).trans (X21_arg8 m c),
    (h c _ (mem_uc main_arg9 (by decide))).trans (X21_arg9 m c),
    (h c _ (mem_uc main_arg10 (by decide))).trans (X21_arg10 m c),
    (h c _ (mem_uc main_arg11 (by decide))).trans (X21_arg11 m c),
    (h c _ (mem_uc main_arg12 (by decide))).trans (X21_arg12 m c),
    (h c _ (mem_uc main_arg13 (by decide))).trans (X21_arg13 m c)⟩)
    (run_main m ρ)

end Cert.Kernel.Hand

end
-- ==== Proof.Body0.lean ====
/-
  Region 0: the node input transform h = x·Wn + bn, eight blocks of 5000 rows. The body loads a block of x, the whole
  of Wn and bn, and stores the block's rows of the product plus the bias.
-/
import proofs.«102879_j77541339562639_2_alg».proof.Proof.Gen.KernelIdeal.Launch
import proofs.«102879_j77541339562639_2_alg».proof.Proof.Gen.KernelIdeal.Skeleton
import proofs.«102879_j77541339562639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not the point fetched it: a window
    that is not fetched has not moved, so the block it holds is still the point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not the point fetched it: a window
    that is not fetched has not moved, so the block it holds is still the point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not the point fetched it: a window
    that is not fetched has not moved, so the block it holds is still the point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole block -/
abbrev r0_0 : Rect S5000x32 := Rect.unit (s := S5000x32) ![0, 0] S5000x32.size inb_S5000x32_S5000x32_0_0
abbrev r0_1 : Rect S32x128 := Rect.unit (s := S32x128) ![0, 0] S32x128.size inb_S32x128_S32x128_0_0
abbrev r0_2 : Rect S128 := Rect.unit (s := S128) ![0] S128.size inb_S128_S128_0
abbrev r0_3 : Rect S5000x128 := Rect.unit (s := S5000x128) ![0, 0] S5000x128.size inb_S5000x128_S5000x128_0_0

/-- What the body leaves in the output block, from the input blocks: its one store, of the body's arithmetic on
    the whole input blocks. -/
def out0_3 (x0 : Vec F S5000x32 .f32) (x1 : Vec F S32x128 .f32) (x2 : Vec F S128 .f32) : Vec F S5000x128 .f32 :=
  View.canon [⟨r0_3, k0_pay1 (View.ld x0 r0_0) (View.ld x1 r0_1) (View.ld x2 r0_2)⟩]

/-- The one store covers the output block. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The body run on whole staging buffers -/
set_option maxHeartbeats 2000000 in
/-- With every input buffer held whole at contents `x_w` and the output buffer held at anything, the body runs to its
    end, hands the inputs back as they were and leaves the output buffer at `out0_3` of the inputs. -/
theorem sound_kernel0 (c : Dev nD) (E : Set ℕ) (i : grid0.Coords) (arg0 : Memref sig .tc .vmem S5000x32 .f32) (harg0 : arg0.IsWhole) (arg1 : Memref sig .tc .vmem S32x128 .f32) (harg1 : arg1.IsWhole) (arg2 : Memref sig .tc .vmem S128 .f32) (harg2 : arg2.IsWhole) (arg3 : Memref sig .tc .vmem S5000x128 .f32) (harg3 : arg3.IsWhole)
    (x0 : Vec F S5000x32 .f32) (x1 : Vec F S32x128 .f32) (x2 : Vec F S128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The region's proof data on core `c`: its arrays as it finds them; after the body at point `t` every input's
    buffer still at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  Region 1: the edge input transform e = edge_attr·We + be, eighty blocks of 8000 rows, stored in the half-width format.
  The body loads a block of edge_attr, the whole of We and be, and stores the block's rows of the product plus the bias.
-/
import proofs.«102879_j77541339562639_2_alg».proof.Proof.Gen.KernelIdeal.Launch
import proofs.«102879_j77541339562639_2_alg».proof.Proof.Gen.KernelIdeal.Skeleton
import proofs.«102879_j77541339562639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not the point fetched it: a window
    that is not fetched has not moved, so the block it holds is still the point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not the point fetched it: a window
    that is not fetched has not moved, so the block it holds is still the point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not the point fetched it: a window
    that is not fetched has not moved, so the block it holds is still the point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole block -/
abbrev r1_0 : Rect S8000x16 := Rect.unit (s := S8000x16) ![0, 0] S8000x16.size inb_S8000x16_S8000x16_0_0
abbrev r1_1 : Rect S16x128 := Rect.unit (s := S16x128) ![0, 0] S16x128.size inb_S16x128_S16x128_0_0
abbrev r1_2 : Rect S128 := Rect.unit (s := S128) ![0] S128.size inb_S128_S128_0
abbrev r1_3 : Rect S8000x128 := Rect.unit (s := S8000x128) ![0, 0] S8000x128.size inb_S8000x128_S8000x128_0_0

/-- What the body leaves in the output block, from the input blocks: its one store, of the body's arithmetic on
    the whole input blocks. -/
def out1_3 (x0 : Vec F S8000x16 .f32) (x1 : Vec F S16x128 .f32) (x2 : Vec F S128 .f32) : Vec F S8000x128 .bf16 :=
  View.canon [⟨r1_3, k1_pay1 (View.ld x0 r1_0) (View.ld x1 r1_1) (View.ld x2 r1_2)⟩]

/-- The one store covers the output block. -/
theorem cover1_3 (p0 : Vec F S8000x128 .bf16) (y : S8000x128.Idx) :
    ∃ pc ∈ ([⟨r1_3, p0⟩] : List (View.Piece (Elt F) S8000x128 .bf16)), y ∈ pc.1.set :=
  View.cover_of_tiled [⟨r1_3, p0⟩] S8000x128.size (by rfl) y

/-! ## The body run on whole staging buffers -/
set_option maxHeartbeats 2000000 in
/-- With every input buffer held whole at contents `x_w` and the output buffer held at anything, the body runs to its
    end, hands the inputs back as they were and leaves the output buffer at `out1_3` of the inputs. -/
theorem sound_kernel1 (c : Dev nD) (E : Set ℕ) (i : grid1.Coords) (arg0 : Memref sig .tc .vmem S8000x16 .f32) (harg0 : arg0.IsWhole) (arg1 : Memref sig .tc .vmem S16x128 .f32) (harg1 : arg1.IsWhole) (arg2 : Memref sig .tc .vmem S128 .f32) (harg2 : arg2.IsWhole) (arg3 : Memref sig .tc .vmem S8000x128 .bf16) (harg3 : arg3.IsWhole)
    (x0 : Vec F S8000x16 .f32) (x1 : Vec F S16x128 .f32) (x2 : Vec F S128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The region's proof data on core `c`: its arrays as it finds them; after the body at point `t` every input's
    buffer still at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2.lean ====
/-
  Region 2: one round's node update h' = relu((h + agg)·W1 + b1)·W2 + b2, eight blocks of 5000 rows. The body loads a
  block of h and of agg, the whole of W1, b1, W2, b2, and stores the block's rows of the update.
-/
import proofs.«102879_j77541339562639_2_alg».proof.Proof.Gen.KernelIdeal.Launch
import proofs.«102879_j77541339562639_2_alg».proof.Proof.Gen.KernelIdeal.Skeleton
import proofs.«102879_j77541339562639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not the point fetched it: a window
    that is not fetched has not moved, so the block it holds is still the point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether or not the point fetched it: a window
    that is not fetched has not moved, so the block it holds is still the point's block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether or not the point fetched it: a window
    that is not fetched has not moved, so the block it holds is still the point's block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether or not the point fetched it: a window
    that is not fetched has not moved, so the block it holds is still the point's block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether or not the point fetched it: a window
    that is not fetched has not moved, so the block it holds is still the point's block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether or not the point fetched it: a window
    that is not fetched has not moved, so the block it holds is still the point's block. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole block -/
abbrev r2_0 : Rect S5000x128 := Rect.unit (s := S5000x128) ![0, 0] S5000x128.size inb_S5000x128_S5000x128_0_0
abbrev r2_1 : Rect S5000x128 := Rect.unit (s := S5000x128) ![0, 0] S5000x128.size inb_S5000x128_S5000x128_0_0
abbrev r2_2 : Rect S128x128 := Rect.unit (s := S128x128) ![0, 0] S128x128.size inb_S128x128_S128x128_0_0
abbrev r2_3 : Rect S128 := Rect.unit (s := S128) ![0] S128.size inb_S128_S128_0
abbrev r2_4 : Rect S128x128 := Rect.unit (s := S128x128) ![0, 0] S128x128.size inb_S128x128_S128x128_0_0
abbrev r2_5 : Rect S128 := Rect.unit (s := S128) ![0] S128.size inb_S128_S128_0
abbrev r2_6 : Rect S5000x128 := Rect.unit (s := S5000x128) ![0, 0] S5000x128.size inb_S5000x128_S5000x128_0_0

/-- What the body leaves in the output block, from the input blocks: its one store, of the body's arithmetic on
    the whole input blocks. -/
def out2_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨r2_6, k2_pay1 (View.ld x0 r2_0) (View.ld x1 r2_1) (View.ld x2 r2_2) (View.ld x3 r2_3) (View.ld x4 r2_4) (View.ld x5 r2_5)⟩]

/-- The one store covers the output block. -/
theorem cover2_6 (p0 : Vec F S5000x128 .f32) (y : S5000x128.Idx) :
    ∃ pc ∈ ([⟨r2_6, p0⟩] : List (View.Piece (Elt F) S5000x128 .f32)), y ∈ pc.1.set :=
  View.cover_of_tiled [⟨r2_6, p0⟩] S5000x128.size (by rfl) y

/-! ## The body run on whole staging buffers -/
set_option maxHeartbeats 2000000 in
/-- With every input buffer held whole at contents `x_w` and the output buffer held at anything, the body runs to its
    end, hands the inputs back as they were and leaves the output buffer at `out2_6` of the inputs. -/
theorem sound_kernel2 (c : Dev nD) (E : Set ℕ) (i : grid2.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2 x3 x4 x5)) -∗ K ⟨⟩))
      ⊢ wp frame (wpE (defs₀ (F := F)) Variants.none c none) E (cc2__mlp_kernel i arg0 harg0 arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The region's proof data on core `c`: its arrays as it finds them; after the body at point `t` every input's
    buffer still at its block and the output's at `out2_6` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Body3.lean ====
/-
  Region 3: one round's node update h' = relu((h + agg)·W1 + b1)·W2 + b2, eight blocks of 5000 rows. The body loads a
  block of h and of agg, the whole of W1, b1, W2, b2, and stores the block's rows of the update.
-/
import proofs.«102879_j77541339562639_2_alg».proof.Proof.Gen.KernelIdeal.Launch
import proofs.«102879_j77541339562639_2_alg».proof.Proof.Gen.KernelIdeal.Skeleton
import proofs.«102879_j77541339562639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether or not the point fetched it: a window
    that is not fetched has not moved, so the block it holds is still the point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether or not the point fetched it: a window
    that is not fetched has not moved, so the block it holds is still the point's block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether or not the point fetched it: a window
    that is not fetched has not moved, so the block it holds is still the point's block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether or not the point fetched it: a window
    that is not fetched has not moved, so the block it holds is still the point's block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether or not the point fetched it: a window
    that is not fetched has not moved, so the block it holds is still the point's block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether or not the point fetched it: a window
    that is not fetched has not moved, so the block it holds is still the point's block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole block -/
abbrev r3_0 : Rect S5000x128 := Rect.unit (s := S5000x128) ![0, 0] S5000x128.size inb_S5000x128_S5000x128_0_0
abbrev r3_1 : Rect S5000x128 := Rect.unit (s := S5000x128) ![0, 0] S5000x128.size inb_S5000x128_S5000x128_0_0
abbrev r3_2 : Rect S128x128 := Rect.unit (s := S128x128) ![0, 0] S128x128.size inb_S128x128_S128x128_0_0
abbrev r3_3 : Rect S128 := Rect.unit (s := S128) ![0] S128.size inb_S128_S128_0
abbrev r3_4 : Rect S128x128 := Rect.unit (s := S128x128) ![0, 0] S128x128.size inb_S128x128_S128x128_0_0
abbrev r3_5 : Rect S128 := Rect.unit (s := S128) ![0] S128.size inb_S128_S128_0
abbrev r3_6 : Rect S5000x128 := Rect.unit (s := S5000x128) ![0, 0] S5000x128.size inb_S5000x128_S5000x128_0_0

/-- What the body leaves in the output block, from the input blocks: its one store, of the body's arithmetic on
    the whole input blocks. -/
def out3_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨r3_6, k3_pay1 (View.ld x0 r3_0) (View.ld x1 r3_1) (View.ld x2 r3_2) (View.ld x3 r3_3) (View.ld x4 r3_4) (View.ld x5 r3_5)⟩]

/-- The one store covers the output block. -/
theorem cover3_6 (p0 : Vec F S5000x128 .f32) (y : S5000x128.Idx) :
    ∃ pc ∈ ([⟨r3_6, p0⟩] : List (View.Piece (Elt F) S5000x128 .f32)), y ∈ pc.1.set :=
  View.cover_of_tiled [⟨r3_6, p0⟩] S5000x128.size (by rfl) y

/-! ## The body run on whole staging buffers -/
set_option maxHeartbeats 2000000 in
/-- With every input buffer held whole at contents `x_w` and the output buffer held at anything, the body runs to its
    end, hands the inputs back as they were and leaves the output buffer at `out3_6` of the inputs. -/
theorem sound_kernel3 (c : Dev nD) (E : Set ℕ) (i : grid3.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3_6 x0 x1 x2 x3 x4 x5)) -∗ K ⟨⟩))
      ⊢ wp frame (wpE (defs₀ (F := F)) Variants.none c none) E (cc3__mlp_kernel i arg0 harg0 arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The region's proof data on core `c`: its arrays as it finds them; after the body at point `t` every input's
    buffer still at its block and the output's at `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so `sound_kernel3` applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Body4.lean ====
/-
  Region 4: one round's node update h' = relu((h + agg)·W1 + b1)·W2 + b2, eight blocks of 5000 rows. The body loads a
  block of h and of agg, the whole of W1, b1, W2, b2, and stores the block's rows of the update.
-/
import proofs.«102879_j77541339562639_2_alg».proof.Proof.Gen.KernelIdeal.Launch
import proofs.«102879_j77541339562639_2_alg».proof.Proof.Gen.KernelIdeal.Skeleton
import proofs.«102879_j77541339562639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether or not the point fetched it: a window
    that is not fetched has not moved, so the block it holds is still the point's block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether or not the point fetched it: a window
    that is not fetched has not moved, so the block it holds is still the point's block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether or not the point fetched it: a window
    that is not fetched has not moved, so the block it holds is still the point's block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether or not the point fetched it: a window
    that is not fetched has not moved, so the block it holds is still the point's block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, whether or not the point fetched it: a window
    that is not fetched has not moved, so the block it holds is still the point's block. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, whether or not the point fetched it: a window
    that is not fetched has not moved, so the block it holds is still the point's block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole block -/
abbrev r4_0 : Rect S5000x128 := Rect.unit (s := S5000x128) ![0, 0] S5000x128.size inb_S5000x128_S5000x128_0_0
abbrev r4_1 : Rect S5000x128 := Rect.unit (s := S5000x128) ![0, 0] S5000x128.size inb_S5000x128_S5000x128_0_0
abbrev r4_2 : Rect S128x128 := Rect.unit (s := S128x128) ![0, 0] S128x128.size inb_S128x128_S128x128_0_0
abbrev r4_3 : Rect S128 := Rect.unit (s := S128) ![0] S128.size inb_S128_S128_0
abbrev r4_4 : Rect S128x128 := Rect.unit (s := S128x128) ![0, 0] S128x128.size inb_S128x128_S128x128_0_0
abbrev r4_5 : Rect S128 := Rect.unit (s := S128) ![0] S128.size inb_S128_S128_0
abbrev r4_6 : Rect S5000x128 := Rect.unit (s := S5000x128) ![0, 0] S5000x128.size inb_S5000x128_S5000x128_0_0

/-- What the body leaves in the output block, from the input blocks: its one store, of the body's arithmetic on
    the whole input blocks. -/
def out4_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨r4_6, k4_pay1 (View.ld x0 r4_0) (View.ld x1 r4_1) (View.ld x2 r4_2) (View.ld x3 r4_3) (View.ld x4 r4_4) (View.ld x5 r4_5)⟩]

/-- The one store covers the output block. -/
theorem cover4_6 (p0 : Vec F S5000x128 .f32) (y : S5000x128.Idx) :
    ∃ pc ∈ ([⟨r4_6, p0⟩] : List (View.Piece (Elt F) S5000x128 .f32)), y ∈ pc.1.set :=
  View.cover_of_tiled [⟨r4_6, p0⟩] S5000x128.size (by rfl) y

/-! ## The body run on whole staging buffers -/
set_option maxHeartbeats 2000000 in
/-- With every input buffer held whole at contents `x_w` and the output buffer held at anything, the body runs to its
    end, hands the inputs back as they were and leaves the output buffer at `out4_6` of the inputs. -/
theorem sound_kernel4 (c : Dev nD) (E : Set ℕ) (i : grid4.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out4_6 x0 x1 x2 x3 x4 x5)) -∗ K ⟨⟩))
      ⊢ wp frame (wpE (defs₀ (F := F)) Variants.none c none) E (cc4__mlp_kernel i arg0 harg0 arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The region's proof data on core `c`: its arrays as it finds them; after the body at point `t` every input's
    buffer still at its block and the output's at `out4_6` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' buffers hold their blocks, so `sound_kernel4` applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Body5.lean ====
/-
  Region 5: one round's node update h' = relu((h + agg)·W1 + b1)·W2 + b2, eight blocks of 5000 rows. The body loads a
  block of h and of agg, the whole of W1, b1, W2, b2, and stores the block's rows of the update.
-/
import proofs.«102879_j77541339562639_2_alg».proof.Proof.Gen.KernelIdeal.Launch
import proofs.«102879_j77541339562639_2_alg».proof.Proof.Gen.KernelIdeal.Skeleton
import proofs.«102879_j77541339562639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether or not the point fetched it: a window
    that is not fetched has not moved, so the block it holds is still the point's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether or not the point fetched it: a window
    that is not fetched has not moved, so the block it holds is still the point's block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether or not the point fetched it: a window
    that is not fetched has not moved, so the block it holds is still the point's block. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether or not the point fetched it: a window
    that is not fetched has not moved, so the block it holds is still the point's block. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether or not the point fetched it: a window
    that is not fetched has not moved, so the block it holds is still the point's block. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, whether or not the point fetched it: a window
    that is not fetched has not moved, so the block it holds is still the point's block. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole block -/
abbrev r5_0 : Rect S5000x128 := Rect.unit (s := S5000x128) ![0, 0] S5000x128.size inb_S5000x128_S5000x128_0_0
abbrev r5_1 : Rect S5000x128 := Rect.unit (s := S5000x128) ![0, 0] S5000x128.size inb_S5000x128_S5000x128_0_0
abbrev r5_2 : Rect S128x128 := Rect.unit (s := S128x128) ![0, 0] S128x128.size inb_S128x128_S128x128_0_0
abbrev r5_3 : Rect S128 := Rect.unit (s := S128) ![0] S128.size inb_S128_S128_0
abbrev r5_4 : Rect S128x128 := Rect.unit (s := S128x128) ![0, 0] S128x128.size inb_S128x128_S128x128_0_0
abbrev r5_5 : Rect S128 := Rect.unit (s := S128) ![0] S128.size inb_S128_S128_0
abbrev r5_6 : Rect S5000x128 := Rect.unit (s := S5000x128) ![0, 0] S5000x128.size inb_S5000x128_S5000x128_0_0

/-- What the body leaves in the output block, from the input blocks: its one store, of the body's arithmetic on
    the whole input blocks. -/
def out5_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨r5_6, k5_pay1 (View.ld x0 r5_0) (View.ld x1 r5_1) (View.ld x2 r5_2) (View.ld x3 r5_3) (View.ld x4 r5_4) (View.ld x5 r5_5)⟩]

/-- The one store covers the output block. -/
theorem cover5_6 (p0 : Vec F S5000x128 .f32) (y : S5000x128.Idx) :
    ∃ pc ∈ ([⟨r5_6, p0⟩] : List (View.Piece (Elt F) S5000x128 .f32)), y ∈ pc.1.set :=
  View.cover_of_tiled [⟨r5_6, p0⟩] S5000x128.size (by rfl) y

/-! ## The body run on whole staging buffers -/
set_option maxHeartbeats 2000000 in
/-- With every input buffer held whole at contents `x_w` and the output buffer held at anything, the body runs to its
    end, hands the inputs back as they were and leaves the output buffer at `out5_6` of the inputs. -/
theorem sound_kernel5 (c : Dev nD) (E : Set ℕ) (i : grid5.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out5_6 x0 x1 x2 x3 x4 x5)) -∗ K ⟨⟩))
      ⊢ wp frame (wpE (defs₀ (F := F)) Variants.none c none) E (cc5__mlp_kernel i arg0 harg0 arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The region's proof data on core `c`: its arrays as it finds them; after the body at point `t` every input's
    buffer still at its block and the output's at `out5_6` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so `sound_kernel5` applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.Body6.lean ====
/-
  Region 6: the output head out = pooled·Wl + bl, one block of all 64 rows. The body loads pooled, Wl and bl whole and
  stores the product plus the bias.
-/
import proofs.«102879_j77541339562639_2_alg».proof.Proof.Gen.KernelIdeal.Launch
import proofs.«102879_j77541339562639_2_alg».proof.Proof.Gen.KernelIdeal.Skeleton
import proofs.«102879_j77541339562639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows of its array, as the region finds it, that the point works on. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether or not the point fetched it: a window
    that is not fetched has not moved, so the block it holds is still the point's block. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether or not the point fetched it: a window
    that is not fetched has not moved, so the block it holds is still the point's block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether or not the point fetched it: a window
    that is not fetched has not moved, so the block it holds is still the point's block. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole block -/
abbrev r6_0 : Rect S64x512 := Rect.unit (s := S64x512) ![0, 0] S64x512.size inb_S64x512_S64x512_0_0
abbrev r6_1 : Rect S512x256 := Rect.unit (s := S512x256) ![0, 0] S512x256.size inb_S512x256_S512x256_0_0
abbrev r6_2 : Rect S256 := Rect.unit (s := S256) ![0] S256.size inb_S256_S256_0
abbrev r6_3 : Rect S64x256 := Rect.unit (s := S64x256) ![0, 0] S64x256.size inb_S64x256_S64x256_0_0

/-- What the body leaves in the output block, from the input blocks: its one store, of the body's arithmetic on
    the whole input blocks. -/
def out6_3 (x0 : Vec F S64x512 .f32) (x1 : Vec F S512x256 .f32) (x2 : Vec F S256 .f32) : Vec F S64x256 .f32 :=
  View.canon [⟨r6_3, k6_pay1 (View.ld x0 r6_0) (View.ld x1 r6_1) (View.ld x2 r6_2)⟩]

/-- The one store covers the output block. -/
theorem cover6_3 (p0 : Vec F S64x256 .f32) (y : S64x256.Idx) :
    ∃ pc ∈ ([⟨r6_3, p0⟩] : List (View.Piece (Elt F) S64x256 .f32)), y ∈ pc.1.set :=
  View.cover_of_tiled [⟨r6_3, p0⟩] S64x256.size (by rfl) y

/-! ## The body run on whole staging buffers -/
set_option maxHeartbeats 2000000 in
/-- With every input buffer held whole at contents `x_w` and the output buffer held at anything, the body runs to its
    end, hands the inputs back as they were and leaves the output buffer at `out6_3` of the inputs. -/
theorem sound_kernel6 (c : Dev nD) (E : Set ℕ) (i : grid6.Coords) (arg0 : Memref sig .tc .vmem S64x512 .f32) (harg0 : arg0.IsWhole) (arg1 : Memref sig .tc .vmem S512x256 .f32) (harg1 : arg1.IsWhole) (arg2 : Memref sig .tc .vmem S256 .f32) (harg2 : arg2.IsWhole) (arg3 : Memref sig .tc .vmem S64x256 .f32) (harg3 : arg3.IsWhole)
    (x0 : Vec F S64x512 .f32) (x1 : Vec F S512x256 .f32) (x2 : Vec F S256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__linear_kernel i arg0 harg0 arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The region's proof data on core `c`: its arrays as it finds them; after the body at point `t` every input's
    buffer still at its block and the output's at `out6_3` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so `sound_kernel6` applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Run.lean ====
/-
  The whole run of @main: its 21 items in order — a stretch of host operations, or one of the seven kernel regions — with
  the contents of every buffer named at each boundary. `X J c` is what core `c`'s buffers hold after item J-1: the launch
  memory, then each host stretch applied, then at a region's exit the region's output array replaced by what the
  region's grid points wrote back and every other buffer as the region found it. From the seven regions' body
  obligations each region is entered from `X` before it and left at `X` after it; chaining the 21 items gives that every
  execution ends with every buffer at `X 21`.
-/
import proofs.«102879_j77541339562639_2_alg».proof.Proof.Gen.KernelIdeal.Launch
import proofs.«102879_j77541339562639_2_alg».proof.Proof.Gen.KernelIdeal.Skeleton
import proofs.«102879_j77541339562639_2_alg».proof.Proof.Gen.KernelIdeal.Points
import proofs.«102879_j77541339562639_2_alg».proof.Proof.Body0
import proofs.«102879_j77541339562639_2_alg».proof.Proof.Body1
import proofs.«102879_j77541339562639_2_alg».proof.Proof.Body2
import proofs.«102879_j77541339562639_2_alg».proof.Proof.Body3
import proofs.«102879_j77541339562639_2_alg».proof.Proof.Body4
import proofs.«102879_j77541339562639_2_alg».proof.Proof.Body5
import proofs.«102879_j77541339562639_2_alg».proof.Proof.Body6
import proofs.«102879_j77541339562639_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- A valuation read at the TensorCore's references. -/
abbrev rd (X : Dev nD → Valuation τ sig (Elt F)) : (c : Dev nD) → (b : Ref sig .tc) → Buf (Elt F) ((c : Thread nD τ).loc b) := fun c b => X c b

/-! ## The buffers' contents at every boundary -/

/-- After the first host stretch (the two rows of the edge list taken apart). -/
abbrev X1 (c : Dev nD) : Valuation τ sig (Elt F) := StableHlo.after hostOps0 (fun b => m (c, b))
/-- What region 0 leaves in its output array: its grid points' write-backs, folded. -/
def o2 (c : Dev nD) : Buf (Elt F) ((c : Thread nD τ).loc main_v4) := (dat0 (rd (X1 m)) c).arrAt 3 cfg0.N
/-- After region 0: its output array replaced, every other buffer as it was. -/
def X2 (c : Dev nD) : Valuation τ sig (Elt F) := Function.update (X1 m c) main_v4 (o2 m c)
theorem X2_out (c : Dev nD) : X2 m c main_v4 = o2 m c := by unfold X2; exact Function.update_self ..
theorem X2_of_ne (c : Dev nD) (b : Ref sig .tc) (h : b ≠ main_v4) : X2 m c b = X1 m c b := by
  unfold X2; exact Function.update_of_ne (StableHlo.devRef_ne_of_ne h) _ _
/-- What region 1 leaves in its output array: its grid points' write-backs, folded. -/
def o3 (c : Dev nD) : Buf (Elt F) ((c : Thread nD τ).loc main_v5) := (dat1 (rd (X2 m)) c).arrAt 3 cfg1.N
/-- After region 1: its output array replaced, every other buffer as it was. -/
def X3 (c : Dev nD) : Valuation τ sig (Elt F) := Function.update (X2 m c) main_v5 (o3 m c)
theorem X3_out (c : Dev nD) : X3 m c main_v5 = o3 m c := by unfold X3; exact Function.update_self ..
theorem X3_of_ne (c : Dev nD) (b : Ref sig .tc) (h : b ≠ main_v5) : X3 m c b = X2 m c b := by
  unfold X3; exact Function.update_of_ne (StableHlo.devRef_ne_of_ne h) _ _
/-- After the host stretch `hostOps2`. -/
def X4 (c : Dev nD) : Valuation τ sig (Elt F) := StableHlo.after hostOps2 (X3 m c)
/-- After the host stretch `hostOps2_1`. -/
def X5 (c : Dev nD) : Valuation τ sig (Elt F) := StableHlo.after hostOps2_1 (X4 m c)
/-- After the host stretch `hostOps2_2`. -/
def X6 (c : Dev nD) : Valuation τ sig (Elt F) := StableHlo.after hostOps2_2 (X5 m c)
/-- What region 2 leaves in its output array: its grid points' write-backs, folded. -/
def o7 (c : Dev nD) : Buf (Elt F) ((c : Thread nD τ).loc main_v19) := (dat2 (rd (X6 m)) c).arrAt 6 cfg2.N
/-- After region 2: its output array replaced, every other buffer as it was. -/
def X7 (c : Dev nD) : Valuation τ sig (Elt F) := Function.update (X6 m c) main_v19 (o7 m c)
theorem X7_out (c : Dev nD) : X7 m c main_v19 = o7 m c := by unfold X7; exact Function.update_self ..
theorem X7_of_ne (c : Dev nD) (b : Ref sig .tc) (h : b ≠ main_v19) : X7 m c b = X6 m c b := by
  unfold X7; exact Function.update_of_ne (StableHlo.devRef_ne_of_ne h) _ _
/-- After the host stretch `hostOps3`. -/
def X8 (c : Dev nD) : Valuation τ sig (Elt F) := StableHlo.after hostOps3 (X7 m c)
/-- After the host stretch `hostOps3_1`. -/
def X9 (c : Dev nD) : Valuation τ sig (Elt F) := StableHlo.after hostOps3_1 (X8 m c)
/-- After the host stretch `hostOps3_2`. -/
def X10 (c : Dev nD) : Valuation τ sig (Elt F) := StableHlo.after hostOps3_2 (X9 m c)
/-- What region 3 leaves in its output array: its grid points' write-backs, folded. -/
def o11 (c : Dev nD) : Buf (Elt F) ((c : Thread nD τ).loc main_v36) := (dat3 (rd (X10 m)) c).arrAt 6 cfg3.N
/-- After region 3: its output array replaced, every other buffer as it was. -/
def X11 (c : Dev nD) : Valuation τ sig (Elt F) := Function.update (X10 m c) main_v36 (o11 m c)
theorem X11_out (c : Dev nD) : X11 m c main_v36 = o11 m c := by unfold X11; exact Function.update_self ..
theorem X11_of_ne (c : Dev nD) (b : Ref sig .tc) (h : b ≠ main_v36) : X11 m c b = X10 m c b := by
  unfold X11; exact Function.update_of_ne (StableHlo.devRef_ne_of_ne h) _ _
/-- After the host stretch `hostOps4`. -/
def X12 (c : Dev nD) : Valuation τ sig (Elt F) := StableHlo.after hostOps4 (X11 m c)
/-- After the host stretch `hostOps4_1`. -/
def X13 (c : Dev nD) : Valuation τ sig (Elt F) := StableHlo.after hostOps4_1 (X12 m c)
/-- After the host stretch `hostOps4_2`. -/
def X14 (c : Dev nD) : Valuation τ sig (Elt F) := StableHlo.after hostOps4_2 (X13 m c)
/-- What region 4 leaves in its output array: its grid points' write-backs, folded. -/
def o15 (c : Dev nD) : Buf (Elt F) ((c : Thread nD τ).loc main_v53) := (dat4 (rd (X14 m)) c).arrAt 6 cfg4.N
/-- After region 4: its output array replaced, every other buffer as it was. -/
def X15 (c : Dev nD) : Valuation τ sig (Elt F) := Function.update (X14 m c) main_v53 (o15 m c)
theorem X15_out (c : Dev nD) : X15 m c main_v53 = o15 m c := by unfold X15; exact Function.update_self ..
theorem X15_of_ne (c : Dev nD) (b : Ref sig .tc) (h : b ≠ main_v53) : X15 m c b = X14 m c b := by
  unfold X15; exact Function.update_of_ne (StableHlo.devRef_ne_of_ne h) _ _
/-- After the host stretch `hostOps5`. -/
def X16 (c : Dev nD) : Valuation τ sig (Elt F) := StableHlo.after hostOps5 (X15 m c)
/-- After the host stretch `hostOps5_1`. -/
def X17 (c : Dev nD) : Valuation τ sig (Elt F) := StableHlo.after hostOps5_1 (X16 m c)
/-- After the host stretch `hostOps5_2`. -/
def X18 (c : Dev nD) : Valuation τ sig (Elt F) := StableHlo.after hostOps5_2 (X17 m c)
/-- What region 5 leaves in its output array: its grid points' write-backs, folded. -/
def o19 (c : Dev nD) : Buf (Elt F) ((c : Thread nD τ).loc main_v70) := (dat5 (rd (X18 m)) c).arrAt 6 cfg5.N
/-- After region 5: its output array replaced, every other buffer as it was. -/
def X19 (c : Dev nD) : Valuation τ sig (Elt F) := Function.update (X18 m c) main_v70 (o19 m c)
theorem X19_out (c : Dev nD) : X19 m c main_v70 = o19 m c := by unfold X19; exact Function.update_self ..
theorem X19_of_ne (c : Dev nD) (b : Ref sig .tc) (h : b ≠ main_v70) : X19 m c b = X18 m c b := by
  unfold X19; exact Function.update_of_ne (StableHlo.devRef_ne_of_ne h) _ _
/-- After the host stretch `hostOps6`. -/
def X20 (c : Dev nD) : Valuation τ sig (Elt F) := StableHlo.after hostOps6 (X19 m c)
/-- What region 6 leaves in its output array: its grid points' write-backs, folded. -/
def o21 (c : Dev nD) : Buf (Elt F) ((c : Thread nD τ).loc main_v75) := (dat6 (rd (X20 m)) c).arrAt 3 cfg6.N
/-- After region 6: its output array replaced, every other buffer as it was. -/
def X21 (c : Dev nD) : Valuation τ sig (Elt F) := Function.update (X20 m c) main_v75 (o21 m c)
theorem X21_out (c : Dev nD) : X21 m c main_v75 = o21 m c := by unfold X21; exact Function.update_self ..
theorem X21_of_ne (c : Dev nD) (b : Ref sig .tc) (h : b ≠ main_v75) : X21 m c b = X20 m c b := by
  unfold X21; exact Function.update_of_ne (StableHlo.devRef_ne_of_ne h) _ _

/-- What the regions leave, as the one family the generated boundary valuations are written over: after item J-1 a
    buffer holds `X J`'s contents. -/
def outs : Outs (F := F) := fun J r c =>
  match J with
  | 2 => X2 m c r
  | 3 => X3 m c r
  | 7 => X7 m c r
  | 11 => X11 m c r
  | 15 => X15 m c r
  | 19 => X19 m c r
  | 21 => X21 m c r
  | _ => X1 m c r

/-! ## The generated boundary valuations, at these contents, are the `X` -/

theorem V1_eq (c : Dev nD) : V1 m c = X1 m c := rfl
theorem V2_eq (c : Dev nD) : V2 m (outs m) c = X2 m c := by
  show Function.update (V1 m c) main_v4 (X2 m c main_v4) = X2 m c
  rw [V1_eq, X2_out]; rfl
theorem V3_eq (c : Dev nD) : V3 m (outs m) c = X3 m c := by
  show Function.update (V2 m (outs m) c) main_v5 (X3 m c main_v5) = X3 m c
  rw [V2_eq, X3_out]; rfl
theorem V4_eq (c : Dev nD) : V4 m (outs m) c = X4 m c := by
  unfold X4
  show StableHlo.after hostOps2 (V3 m (outs m) c) = _
  rw [V3_eq]
theorem V5_eq (c : Dev nD) : V5 m (outs m) c = X5 m c := by
  unfold X5
  show StableHlo.after hostOps2_1 (V4 m (outs m) c) = _
  rw [V4_eq]
theorem V6_eq (c : Dev nD) : V6 m (outs m) c = X6 m c := by
  unfold X6
  show StableHlo.after hostOps2_2 (V5 m (outs m) c) = _
  rw [V5_eq]
theorem V7_eq (c : Dev nD) : V7 m (outs m) c = X7 m c := by
  show Function.update (V6 m (outs m) c) main_v19 (X7 m c main_v19) = X7 m c
  rw [V6_eq, X7_out]; rfl
theorem V8_eq (c : Dev nD) : V8 m (outs m) c = X8 m c := by
  unfold X8
  show StableHlo.after hostOps3 (V7 m (outs m) c) = _
  rw [V7_eq]
theorem V9_eq (c : Dev nD) : V9 m (outs m) c = X9 m c := by
  unfold X9
  show StableHlo.after hostOps3_1 (V8 m (outs m) c) = _
  rw [V8_eq]
theorem V10_eq (c : Dev nD) : V10 m (outs m) c = X10 m c := by
  unfold X10
  show StableHlo.after hostOps3_2 (V9 m (outs m) c) = _
  rw [V9_eq]
theorem V11_eq (c : Dev nD) : V11 m (outs m) c = X11 m c := by
  show Function.update (V10 m (outs m) c) main_v36 (X11 m c main_v36) = X11 m c
  rw [V10_eq, X11_out]; rfl
theorem V12_eq (c : Dev nD) : V12 m (outs m) c = X12 m c := by
  unfold X12
  show StableHlo.after hostOps4 (V11 m (outs m) c) = _
  rw [V11_eq]
theorem V13_eq (c : Dev nD) : V13 m (outs m) c = X13 m c := by
  unfold X13
  show StableHlo.after hostOps4_1 (V12 m (outs m) c) = _
  rw [V12_eq]
theorem V14_eq (c : Dev nD) : V14 m (outs m) c = X14 m c := by
  unfold X14
  show StableHlo.after hostOps4_2 (V13 m (outs m) c) = _
  rw [V13_eq]
theorem V15_eq (c : Dev nD) : V15 m (outs m) c = X15 m c := by
  show Function.update (V14 m (outs m) c) main_v53 (X15 m c main_v53) = X15 m c
  rw [V14_eq, X15_out]; rfl
theorem V16_eq (c : Dev nD) : V16 m (outs m) c = X16 m c := by
  unfold X16
  show StableHlo.after hostOps5 (V15 m (outs m) c) = _
  rw [V15_eq]
theorem V17_eq (c : Dev nD) : V17 m (outs m) c = X17 m c := by
  unfold X17
  show StableHlo.after hostOps5_1 (V16 m (outs m) c) = _
  rw [V16_eq]
theorem V18_eq (c : Dev nD) : V18 m (outs m) c = X18 m c := by
  unfold X18
  show StableHlo.after hostOps5_2 (V17 m (outs m) c) = _
  rw [V17_eq]
theorem V19_eq (c : Dev nD) : V19 m (outs m) c = X19 m c := by
  show Function.update (V18 m (outs m) c) main_v70 (X19 m c main_v70) = X19 m c
  rw [V18_eq, X19_out]; rfl
theorem V20_eq (c : Dev nD) : V20 m (outs m) c = X20 m c := by
  unfold X20
  show StableHlo.after hostOps6 (V19 m (outs m) c) = _
  rw [V19_eq]
theorem V21_eq (c : Dev nD) : V21 m (outs m) c = X21 m c := by
  show Function.update (V20 m (outs m) c) main_v75 (X21 m c main_v75) = X21 m c
  rw [V20_eq, X21_out]; rfl

/-! ## What each host stretch leaves unchanged -/

theorem X1_of (c : Dev nD) (r : Ref sig .tc) (h : r ∉ hostOps0_W) : X1 m c r = m (c, r) :=
  StableHlo.after_of_writes_sub hostOps0 _ hostOps0_writes h
theorem X4_of (c : Dev nD) (r : Ref sig .tc) (h : r ∉ hostOps2_W) : X4 m c r = X3 m c r := by
  unfold X4; exact StableHlo.after_of_writes_sub hostOps2 _ hostOps2_writes h
theorem X5_of (c : Dev nD) (r : Ref sig .tc) (h : r ∉ hostOps2_1_W) : X5 m c r = X4 m c r := by
  unfold X5; exact StableHlo.after_of_writes_sub hostOps2_1 _ hostOps2_1_writes h
theorem X6_of (c : Dev nD) (r : Ref sig .tc) (h : r ∉ hostOps2_2_W) : X6 m c r = X5 m c r := by
  unfold X6; exact StableHlo.after_of_writes_sub hostOps2_2 _ hostOps2_2_writes h
theorem X8_of (c : Dev nD) (r : Ref sig .tc) (h : r ∉ hostOps3_W) : X8 m c r = X7 m c r := by
  unfold X8; exact StableHlo.after_of_writes_sub hostOps3 _ hostOps3_writes h
theorem X9_of (c : Dev nD) (r : Ref sig .tc) (h : r ∉ hostOps3_1_W) : X9 m c r = X8 m c r := by
  unfold X9; exact StableHlo.after_of_writes_sub hostOps3_1 _ hostOps3_1_writes h
theorem X10_of (c : Dev nD) (r : Ref sig .tc) (h : r ∉ hostOps3_2_W) : X10 m c r = X9 m c r := by
  unfold X10; exact StableHlo.after_of_writes_sub hostOps3_2 _ hostOps3_2_writes h
theorem X12_of (c : Dev nD) (r : Ref sig .tc) (h : r ∉ hostOps4_W) : X12 m c r = X11 m c r := by
  unfold X12; exact StableHlo.after_of_writes_sub hostOps4 _ hostOps4_writes h
theorem X13_of (c : Dev nD) (r : Ref sig .tc) (h : r ∉ hostOps4_1_W) : X13 m c r = X12 m c r := by
  unfold X13; exact StableHlo.after_of_writes_sub hostOps4_1 _ hostOps4_1_writes h
theorem X14_of (c : Dev nD) (r : Ref sig .tc) (h : r ∉ hostOps4_2_W) : X14 m c r = X13 m c r := by
  unfold X14; exact StableHlo.after_of_writes_sub hostOps4_2 _ hostOps4_2_writes h
theorem X16_of (c : Dev nD) (r : Ref sig .tc) (h : r ∉ hostOps5_W) : X16 m c r = X15 m c r := by
  unfold X16; exact StableHlo.after_of_writes_sub hostOps5 _ hostOps5_writes h
theorem X17_of (c : Dev nD) (r : Ref sig .tc) (h : r ∉ hostOps5_1_W) : X17 m c r = X16 m c r := by
  unfold X17; exact StableHlo.after_of_writes_sub hostOps5_1 _ hostOps5_1_writes h
theorem X18_of (c : Dev nD) (r : Ref sig .tc) (h : r ∉ hostOps5_2_W) : X18 m c r = X17 m c r := by
  unfold X18; exact StableHlo.after_of_writes_sub hostOps5_2 _ hostOps5_2_writes h
theorem X20_of (c : Dev nD) (r : Ref sig .tc) (h : r ∉ hostOps6_W) : X20 m c r = X19 m c r := by
  unfold X20; exact StableHlo.after_of_writes_sub hostOps6 _ hostOps6_writes h

-- from here on the boundary contents are named, never opened: everything said about them is in the lemmas above
attribute [irreducible] X2 X3 X4 X5 X6 X7 X8 X9 X10 X11 X12 X13 X14 X15 X16 X17 X18 X19 X20 X21

/-! ## The proof data family and what rides along -/

/-- Every region's proof data, each at the contents its region is entered from. -/
def pdats : (p : Fin 7) → (c : Dev nD) → Dat τ (Elt F) Unit ℕ (UR sig nD τ) ℕ (cfgs p) c
  | ⟨0, _⟩ => fun c => dat0 (rd (X1 m)) c
  | ⟨1, _⟩ => fun c => dat1 (rd (X2 m)) c
  | ⟨2, _⟩ => fun c => dat2 (rd (X6 m)) c
  | ⟨3, _⟩ => fun c => dat3 (rd (X10 m)) c
  | ⟨4, _⟩ => fun c => dat4 (rd (X14 m)) c
  | ⟨5, _⟩ => fun c => dat5 (rd (X18 m)) c
  | ⟨6, _⟩ => fun c => dat6 (rd (X20 m)) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and that it owes nothing. -/
abbrev R (c : Dev nD) : sProp 𝕄 := iprop((∃ r, prngReg c r) ∗ ∃ W, owes (c : Thread nD τ) (0 : CellTallies nD τ sig Unit) W)

/-! ## The regions as segments -/

set_option maxHeartbeats 2000000 in
/-- At region 0's exit each of its arrays holds what the pipeline leaves: an input's as it was found, the output's the write-backs. -/
theorem hF0 (c : Dev nD) : ∀ w : Fin cfg0.W, (dat0 (rd (X1 m)) c).arrAt w cfg0.N = rd (X2 m) c (Pipeline.arrRef spec0 w)
  | ⟨0, _⟩ => ((dat0 (rd (X1 m)) c).arrAt_in 0 rfl _).trans ((A_eq0 (rd (X1 m)) c 0).trans (X2_of_ne m c main_arg0 (by decide)).symm)
  | ⟨1, _⟩ => ((dat0 (rd (X1 m)) c).arrAt_in 1 rfl _).trans ((A_eq0 (rd (X1 m)) c 1).trans (X2_of_ne m c main_arg4 (by decide)).symm)
  | ⟨2, _⟩ => ((dat0 (rd (X1 m)) c).arrAt_in 2 rfl _).trans ((A_eq0 (rd (X1 m)) c 2).trans (X2_of_ne m c main_arg5 (by decide)).symm)
  | ⟨3, _⟩ => (X2_out m c).symm

set_option backward.isDefEq.respectTransparency.types false in
/-- Region 0: entered with every buffer at `X1`, left with every buffer at `X2`. Its arrays are split out of
    the buffers on entry and put back on exit, the output's at what the grid points wrote back; the generator register
    goes into the region's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (X1 m)) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (rd (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (X1 m) c) (rd (X2 m) c) ((pdats m 0 c).arrAt · cfg0.N)
      (hF0 m c)
      (fun b hb => X2_of_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 1's exit each of its arrays holds what the pipeline leaves: an input's as it was found, the output's the write-backs. -/
theorem hF1 (c : Dev nD) : ∀ w : Fin cfg1.W, (dat1 (rd (X2 m)) c).arrAt w cfg1.N = rd (X3 m) c (Pipeline.arrRef spec1 w)
  | ⟨0, _⟩ => ((dat1 (rd (X2 m)) c).arrAt_in 0 rfl _).trans ((A_eq1 (rd (X2 m)) c 0).trans (X3_of_ne m c main_arg2 (by decide)).symm)
  | ⟨1, _⟩ => ((dat1 (rd (X2 m)) c).arrAt_in 1 rfl _).trans ((A_eq1 (rd (X2 m)) c 1).trans (X3_of_ne m c main_arg6 (by decide)).symm)
  | ⟨2, _⟩ => ((dat1 (rd (X2 m)) c).arrAt_in 2 rfl _).trans ((A_eq1 (rd (X2 m)) c 2).trans (X3_of_ne m c main_arg7 (by decide)).symm)
  | ⟨3, _⟩ => (X3_out m c).symm

set_option backward.isDefEq.respectTransparency.types false in
/-- Region 1: entered with every buffer at `X2`, left with every buffer at `X3`. Its arrays are split out of
    the buffers on entry and put back on exit, the output's at what the grid points wrote back; the generator register
    goes into the region's invariant and comes out; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (X2 m)) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (rd (X2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (X2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (X2 m) c) (rd (X3 m) c) ((pdats m 1 c).arrAt · cfg1.N)
      (hF1 m c)
      (fun b hb => X3_of_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 2's exit each of its arrays holds what the pipeline leaves: an input's as it was found, the output's the write-backs. -/
theorem hF2 (c : Dev nD) : ∀ w : Fin cfg2.W, (dat2 (rd (X6 m)) c).arrAt w cfg2.N = rd (X7 m) c (Pipeline.arrRef spec2 w)
  | ⟨0, _⟩ => ((dat2 (rd (X6 m)) c).arrAt_in 0 rfl _).trans ((A_eq2 (rd (X6 m)) c 0).trans (X7_of_ne m c main_v4 (by decide)).symm)
  | ⟨1, _⟩ => ((dat2 (rd (X6 m)) c).arrAt_in 1 rfl _).trans ((A_eq2 (rd (X6 m)) c 1).trans (X7_of_ne m c main_v18 (by decide)).symm)
  | ⟨2, _⟩ => ((dat2 (rd (X6 m)) c).arrAt_in 2 rfl _).trans ((A_eq2 (rd (X6 m)) c 2).trans (X7_of_ne m c main_arg8 (by decide)).symm)
  | ⟨3, _⟩ => ((dat2 (rd (X6 m)) c).arrAt_in 3 rfl _).trans ((A_eq2 (rd (X6 m)) c 3).trans (X7_of_ne m c main_arg9 (by decide)).symm)
  | ⟨4, _⟩ => ((dat2 (rd (X6 m)) c).arrAt_in 4 rfl _).trans ((A_eq2 (rd (X6 m)) c 4).trans (X7_of_ne m c main_arg10 (by decide)).symm)
  | ⟨5, _⟩ => ((dat2 (rd (X6 m)) c).arrAt_in 5 rfl _).trans ((A_eq2 (rd (X6 m)) c 5).trans (X7_of_ne m c main_arg11 (by decide)).symm)
  | ⟨6, _⟩ => (X7_out m c).symm

set_option backward.isDefEq.respectTransparency.types false in
/-- Region 2: entered with every buffer at `X6`, left with every buffer at `X7`. Its arrays are split out of
    the buffers on entry and put back on exit, the output's at what the grid points wrote back; the generator register
    goes into the region's invariant and comes out; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (X6 m)) c).loose
  hwaits := Pipeline.hwaits_of_owed_zero _ _ _ _ L lv 2 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec2 c (rd (X6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (X6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (X6 m) c) (rd (X7 m) c) ((pdats m 2 c).arrAt · cfg2.N)
      (hF2 m c)
      (fun b hb => X7_of_ne m c b fun h => hb (h ▸ Finset.mem_image.mpr ⟨6, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 3's exit each of its arrays holds what the pipeline leaves: an input's as it was found, the output's the write-backs. -/
theorem hF3 (c : Dev nD) : ∀ w : Fin cfg3.W, (dat3 (rd (X10 m)) c).arrAt w cfg3.N = rd (X11 m) c (Pipeline.arrRef spec3 w)
  | ⟨0, _⟩ => ((dat3 (rd (X10 m)) c).arrAt_in 0 rfl _).trans ((A_eq3 (rd (X10 m)) c 0).trans (X11_of_ne m c main_v19 (by decide)).symm)
  | ⟨1, _⟩ => ((dat3 (rd (X10 m)) c).arrAt_in 1 rfl _).trans ((A_eq3 (rd (X10 m)) c 1).trans (X11_of_ne m c main_v35 (by decide)).symm)
  | ⟨2, _⟩ => ((dat3 (rd (X10 m)) c).arrAt_in 2 rfl _).trans ((A_eq3 (rd (X10 m)) c 2).trans (X11_of_ne m c main_arg8 (by decide)).symm)
  | ⟨3, _⟩ => ((dat3 (rd (X10 m)) c).arrAt_in 3 rfl _).trans ((A_eq3 (rd (X10 m)) c 3).trans (X11_of_ne m c main_arg9 (by decide)).symm)
  | ⟨4, _⟩ => ((dat3 (rd (X10 m)) c).arrAt_in 4 rfl _).trans ((A_eq3 (rd (X10 m)) c 4).trans (X11_of_ne m c main_arg10 (by decide)).symm)
  | ⟨5, _⟩ => ((dat3 (rd (X10 m)) c).arrAt_in 5 rfl _).trans ((A_eq3 (rd (X10 m)) c 5).trans (X11_of_ne m c main_arg11 (by decide)).symm)
  | ⟨6, _⟩ => (X11_out m c).symm

set_option backward.isDefEq.respectTransparency.types false in
/-- Region 3: entered with every buffer at `X10`, left with every buffer at `X11`. Its arrays are split out of
    the buffers on entry and put back on exit, the output's at what the grid points wrote back; the generator register
    goes into the region's invariant and comes out; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (X10 m)) c).loose
  hwaits := Pipeline.hwaits_of_owed_zero _ _ _ _ L lv 3 fun _ _ => rfl
  pre c := iprop(StableHlo.held (c : Thread nD τ) (Pipeline.ucRefs τ sig) (X10 m c) ∗ R c)
  post c := iprop(StableHlo.held (c : Thread nD τ) (Pipeline.ucRefs τ sig) (X11 m c) ∗ R c)
  X c := iprop(∃ r, prngReg c r)
  Y c := iprop(∃ r, prngReg c r)
  Z c := Pipeline.unscopedRest (Ix := Unit) (Name := ℕ) (U := UR sig nD τ) (Lvl := ℕ) spec3 c (rd (X10 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (X10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (X10 m) c) (rd (X11 m) c) ((pdats m 3 c).arrAt · cfg3.N)
      (hF3 m c)
      (fun b hb => X11_of_ne m c b fun h => hb (h ▸ Finset.mem_image.mpr ⟨6, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 4's exit each of its arrays holds what the pipeline leaves: an input's as it was found, the output's the write-backs. -/
theorem hF4 (c : Dev nD) : ∀ w : Fin cfg4.W, (dat4 (rd (X14 m)) c).arrAt w cfg4.N = rd (X15 m) c (Pipeline.arrRef spec4 w)
  | ⟨0, _⟩ => ((dat4 (rd (X14 m)) c).arrAt_in 0 rfl _).trans ((A_eq4 (rd (X14 m)) c 0).trans (X15_of_ne m c main_v36 (by decide)).symm)
  | ⟨1, _⟩ => ((dat4 (rd (X14 m)) c).arrAt_in 1 rfl _).trans ((A_eq4 (rd (X14 m)) c 1).trans (X15_of_ne m c main_v52 (by decide)).symm)
  | ⟨2, _⟩ => ((dat4 (rd (X14 m)) c).arrAt_in 2 rfl _).trans ((A_eq4 (rd (X14 m)) c 2).trans (X15_of_ne m c main_arg8 (by decide)).symm)
  | ⟨3, _⟩ => ((dat4 (rd (X14 m)) c).arrAt_in 3 rfl _).trans ((A_eq4 (rd (X14 m)) c 3).trans (X15_of_ne m c main_arg9 (by decide)).symm)
  | ⟨4, _⟩ => ((dat4 (rd (X14 m)) c).arrAt_in 4 rfl _).trans ((A_eq4 (rd (X14 m)) c 4).trans (X15_of_ne m c main_arg10 (by decide)).symm)
  | ⟨5, _⟩ => ((dat4 (rd (X14 m)) c).arrAt_in 5 rfl _).trans ((A_eq4 (rd (X14 m)) c 5).trans (X15_of_ne m c main_arg11 (by decide)).symm)
  | ⟨6, _⟩ => (X15_out m c).symm

set_option backward.isDefEq.respectTransparency.types false in
/-- Region 4: entered with every buffer at `X14`, left with every buffer at `X15`. Its arrays are split out of
    the buffers on entry and put back on exit, the output's at what the grid points wrote back; the generator register
    goes into the region's invariant and comes out; nothing is owed; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (X14 m)) c).loose
  hwaits := Pipeline.hwaits_of_owed_zero _ _ _ _ L lv 4 fun _ _ => rfl
  pre c := iprop(StableHlo.held (c : Thread nD τ) (Pipeline.ucRefs τ sig) (X14 m c) ∗ R c)
  post c := iprop(StableHlo.held (c : Thread nD τ) (Pipeline.ucRefs τ sig) (X15 m c) ∗ R c)
  X c := iprop(∃ r, prngReg c r)
  Y c := iprop(∃ r, prngReg c r)
  Z c := Pipeline.unscopedRest (Ix := Unit) (Name := ℕ) (U := UR sig nD τ) (Lvl := ℕ) spec4 c (rd (X14 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (X14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (X14 m) c) (rd (X15 m) c) ((pdats m 4 c).arrAt · cfg4.N)
      (hF4 m c)
      (fun b hb => X15_of_ne m c b fun h => hb (h ▸ Finset.mem_image.mpr ⟨6, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 5's exit each of its arrays holds what the pipeline leaves: an input's as it was found, the output's the write-backs. -/
theorem hF5 (c : Dev nD) : ∀ w : Fin cfg5.W, (dat5 (rd (X18 m)) c).arrAt w cfg5.N = rd (X19 m) c (Pipeline.arrRef spec5 w)
  | ⟨0, _⟩ => ((dat5 (rd (X18 m)) c).arrAt_in 0 rfl _).trans ((A_eq5 (rd (X18 m)) c 0).trans (X19_of_ne m c main_v53 (by decide)).symm)
  | ⟨1, _⟩ => ((dat5 (rd (X18 m)) c).arrAt_in 1 rfl _).trans ((A_eq5 (rd (X18 m)) c 1).trans (X19_of_ne m c main_v69 (by decide)).symm)
  | ⟨2, _⟩ => ((dat5 (rd (X18 m)) c).arrAt_in 2 rfl _).trans ((A_eq5 (rd (X18 m)) c 2).trans (X19_of_ne m c main_arg8 (by decide)).symm)
  | ⟨3, _⟩ => ((dat5 (rd (X18 m)) c).arrAt_in 3 rfl _).trans ((A_eq5 (rd (X18 m)) c 3).trans (X19_of_ne m c main_arg9 (by decide)).symm)
  | ⟨4, _⟩ => ((dat5 (rd (X18 m)) c).arrAt_in 4 rfl _).trans ((A_eq5 (rd (X18 m)) c 4).trans (X19_of_ne m c main_arg10 (by decide)).symm)
  | ⟨5, _⟩ => ((dat5 (rd (X18 m)) c).arrAt_in 5 rfl _).trans ((A_eq5 (rd (X18 m)) c 5).trans (X19_of_ne m c main_arg11 (by decide)).symm)
  | ⟨6, _⟩ => (X19_out m c).symm

set_option backward.isDefEq.respectTransparency.types false in
/-- Region 5: entered with every buffer at `X18`, left with every buffer at `X19`. Its arrays are split out of
    the buffers on entry and put back on exit, the output's at what the grid points wrote back; the generator register
    goes into the region's invariant and comes out; nothing is owed; the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (X18 m)) c).loose
  hwaits := Pipeline.hwaits_of_owed_zero _ _ _ _ L lv 5 fun _ _ => rfl
  pre c := iprop(StableHlo.held (c : Thread nD τ) (Pipeline.ucRefs τ sig) (X18 m c) ∗ R c)
  post c := iprop(StableHlo.held (c : Thread nD τ) (Pipeline.ucRefs τ sig) (X19 m c) ∗ R c)
  X c := iprop(∃ r, prngReg c r)
  Y c := iprop(∃ r, prngReg c r)
  Z c := Pipeline.unscopedRest (Ix := Unit) (Name := ℕ) (U := UR sig nD τ) (Lvl := ℕ) spec5 c (rd (X18 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (X18 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (X18 m) c) (rd (X19 m) c) ((pdats m 5 c).arrAt · cfg5.N)
      (hF5 m c)
      (fun b hb => X19_of_ne m c b fun h => hb (h ▸ Finset.mem_image.mpr ⟨6, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 6's exit each of its arrays holds what the pipeline leaves: an input's as it was found, the output's the write-backs. -/
theorem hF6 (c : Dev nD) : ∀ w : Fin cfg6.W, (dat6 (rd (X20 m)) c).arrAt w cfg6.N = rd (X21 m) c (Pipeline.arrRef spec6 w)
  | ⟨0, _⟩ => ((dat6 (rd (X20 m)) c).arrAt_in 0 rfl _).trans ((A_eq6 (rd (X20 m)) c 0).trans (X21_of_ne m c main_v74 (by decide)).symm)
  | ⟨1, _⟩ => ((dat6 (rd (X20 m)) c).arrAt_in 1 rfl _).trans ((A_eq6 (rd (X20 m)) c 1).trans (X21_of_ne m c main_arg12 (by decide)).symm)
  | ⟨2, _⟩ => ((dat6 (rd (X20 m)) c).arrAt_in 2 rfl _).trans ((A_eq6 (rd (X20 m)) c 2).trans (X21_of_ne m c main_arg13 (by decide)).symm)
  | ⟨3, _⟩ => (X21_out m c).symm

set_option backward.isDefEq.respectTransparency.types false in
/-- Region 6: entered with every buffer at `X20`, left with every buffer at `X21`. Its arrays are split out of
    the buffers on entry and put back on exit, the output's at what the grid points wrote back; the generator register
    goes into the region's invariant and comes out; nothing is owed; the kernel has no semaphore of its own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (rd (X20 m)) c).loose
  hwaits := Pipeline.hwaits_of_owed_zero _ _ _ _ L lv 6 fun _ _ => rfl
  pre c := iprop(StableHlo.held (c : Thread nD τ) (Pipeline.ucRefs τ sig) (X20 m c) ∗ R c)
  post c := iprop(StableHlo.held (c : Thread nD τ) (Pipeline.ucRefs τ sig) (X21 m c) ∗ R c)
  X c := iprop(∃ r, prngReg c r)
  Y c := iprop(∃ r, prngReg c r)
  Z c := Pipeline.unscopedRest (Ix := Unit) (Name := ℕ) (U := UR sig nD τ) (Lvl := ℕ) spec6 c (rd (X20 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (rd (X20 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (rd (X20 m) c) (rd (X21 m) c) ((pdats m 6 c).arrAt · cfg6.N)
      (hF6 m c)
      (fun b hb => X21_of_ne m c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The items chain: each region is entered from the boundary before it and left at the boundary after it -/
theorem hpre0 (c : Dev nD) : iprop(StableHlo.held (c : Thread nD τ) (Pipeline.ucRefs τ sig) (V1 m c) ∗ R c) ⊢ (reg0 m).pre c := by
  rw [V1_eq m c]; exact .rfl
theorem hpost0 (c : Dev nD) : (reg0 m).post c ⊢ iprop(StableHlo.held (c : Thread nD τ) (Pipeline.ucRefs τ sig) (V2 m (outs m) c) ∗ R c) := by
  rw [V2_eq m c]; exact .rfl
theorem hpre1 (c : Dev nD) : iprop(StableHlo.held (c : Thread nD τ) (Pipeline.ucRefs τ sig) (V2 m (outs m) c) ∗ R c) ⊢ (reg1 m).pre c := by
  rw [V2_eq m c]; exact .rfl
theorem hpost1 (c : Dev nD) : (reg1 m).post c ⊢ iprop(StableHlo.held (c : Thread nD τ) (Pipeline.ucRefs τ sig) (V3 m (outs m) c) ∗ R c) := by
  rw [V3_eq m c]; exact .rfl
theorem hpre2 (c : Dev nD) : iprop(StableHlo.held (c : Thread nD τ) (Pipeline.ucRefs τ sig) (V6 m (outs m) c) ∗ R c) ⊢ (reg2 m).pre c := by
  rw [V6_eq m c]; exact .rfl
theorem hpost2 (c : Dev nD) : (reg2 m).post c ⊢ iprop(StableHlo.held (c : Thread nD τ) (Pipeline.ucRefs τ sig) (V7 m (outs m) c) ∗ R c) := by
  rw [V7_eq m c]; exact .rfl
theorem hpre3 (c : Dev nD) : iprop(StableHlo.held (c : Thread nD τ) (Pipeline.ucRefs τ sig) (V10 m (outs m) c) ∗ R c) ⊢ (reg3 m).pre c := by
  rw [V10_eq m c]; exact .rfl
theorem hpost3 (c : Dev nD) : (reg3 m).post c ⊢ iprop(StableHlo.held (c : Thread nD τ) (Pipeline.ucRefs τ sig) (V11 m (outs m) c) ∗ R c) := by
  rw [V11_eq m c]; exact .rfl
theorem hpre4 (c : Dev nD) : iprop(StableHlo.held (c : Thread nD τ) (Pipeline.ucRefs τ sig) (V14 m (outs m) c) ∗ R c) ⊢ (reg4 m).pre c := by
  rw [V14_eq m c]; exact .rfl
theorem hpost4 (c : Dev nD) : (reg4 m).post c ⊢ iprop(StableHlo.held (c : Thread nD τ) (Pipeline.ucRefs τ sig) (V15 m (outs m) c) ∗ R c) := by
  rw [V15_eq m c]; exact .rfl
theorem hpre5 (c : Dev nD) : iprop(StableHlo.held (c : Thread nD τ) (Pipeline.ucRefs τ sig) (V18 m (outs m) c) ∗ R c) ⊢ (reg5 m).pre c := by
  rw [V18_eq m c]; exact .rfl
theorem hpost5 (c : Dev nD) : (reg5 m).post c ⊢ iprop(StableHlo.held (c : Thread nD τ) (Pipeline.ucRefs τ sig) (V19 m (outs m) c) ∗ R c) := by
  rw [V19_eq m c]; exact .rfl
theorem hpre6 (c : Dev nD) : iprop(StableHlo.held (c : Thread nD τ) (Pipeline.ucRefs τ sig) (V20 m (outs m) c) ∗ R c) ⊢ (reg6 m).pre c := by
  rw [V20_eq m c]; exact .rfl
theorem hpost6 (c : Dev nD) : (reg6 m).post c ⊢ iprop(StableHlo.held (c : Thread nD τ) (Pipeline.ucRefs τ sig) (V21 m (outs m) c) ∗ R c) := by
  rw [V21_eq m c]; exact .rfl

/-- What rides along ends with the core owing nothing. -/
theorem R_owes (c : Dev nD) : R (F := F) c ⊢ (iprop(∃ W, owes (c : Thread nD τ) (0 : CellTallies nD τ sig Unit) W) : sProp 𝕄) := by
  iintro ⟨-, H⟩; iexact H

/-! ## The run -/

set_option backward.isDefEq.respectTransparency.types false in
/-- From any memory with zero counters every weakly fair execution of @main terminates, nothing faulting, and ends with
    every buffer of every core at `X21`: the 21 items chained, the launch's resources dealt to the first item, the last
    item's buffers read against the final state. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = X21 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m) (reg6 m))
    (fun c Q => by
      rewrite [main_chain c, Seg.run_eq_chain,
        show ((segs m (outs m) 𝒱₀ L lv (fun _ c => R c) () (pdats m) (reg0 m) (reg1 m) (reg2 m) (reg3 m) (reg4 m) (reg5 m) (reg6 m)) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V21 m (outs m) c))
    (hch := fun c => ⟨.rfl, hpre0 m c, (hpost0 m c).trans (hpre1 m c), hpost1 m c, .rfl, .rfl, hpre2 m c, hpost2 m c, .rfl, .rfl, hpre3 m c, hpost3 m c, .rfl, .rfl, hpre4 m c, hpost4 m c, .rfl, .rfl, hpre5 m c, hpost5 m c, hpre6 m c, (hpost6 m c).trans (sep_mono .rfl (R_owes c))⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = X21 m c b)
    (hfin := fun c s' => by
      unfold StableHlo.held
      iintro ⟨Hh, HSI⟩
      ihave Hr := (pointsTo_read_all (Pipeline.ucRefs τ sig) (fun b => ((c : Thread nD τ).1, b)) (V21 m (outs m) c) s') $$ [Hh HSI]
      · isplitl [Hh] <;> iassumption
      icases Hr with ⟨%h, HSI⟩
      imodintro
      isplitr
      · ipureintro
        exact fun b hb => (h b hb).trans (congrFun (V21_eq m c) b)
      · iexact HSI)
    (hQ := fun _ h => h)

end Cert.KernelIdeal.Hand

end
-- ==== Proof.Frame.lean ====
/-
  The frame, read off the run: every execution of @main ends with every buffer at `X21`, and no item writes an
  argument, so each argument's buffer ends holding its launch contents.
-/
import proofs.«102879_j77541339562639_2_alg».proof.Proof.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- An unscoped TensorCore reference is among those the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Argument 0 ends as launched: no host stretch writes it and no region's output array is it. -/
theorem X21_arg0 (c : Dev nD) : X21 m c main_arg0 = m ((c.tc : Thread nD τ).loc main_arg0) :=
  ((X21_of_ne m c main_arg0 (by decide)).trans ((X20_of m c main_arg0 (by decide)).trans ((X19_of_ne m c main_arg0 (by decide)).trans ((X18_of m c main_arg0 (by decide)).trans ((X17_of m c main_arg0 (by decide)).trans ((X16_of m c main_arg0 (by decide)).trans ((X15_of_ne m c main_arg0 (by decide)).trans ((X14_of m c main_arg0 (by decide)).trans ((X13_of m c main_arg0 (by decide)).trans ((X12_of m c main_arg0 (by decide)).trans ((X11_of_ne m c main_arg0 (by decide)).trans ((X10_of m c main_arg0 (by decide)).trans ((X9_of m c main_arg0 (by decide)).trans ((X8_of m c main_arg0 (by decide)).trans ((X7_of_ne m c main_arg0 (by decide)).trans ((X6_of m c main_arg0 (by decide)).trans ((X5_of m c main_arg0 (by decide)).trans ((X4_of m c main_arg0 (by decide)).trans ((X3_of_ne m c main_arg0 (by decide)).trans ((X2_of_ne m c main_arg0 (by decide)).trans (X1_of m c main_arg0 (by decide))))))))))))))))))))))
/-- Argument 1 ends as launched: no host stretch writes it and no region's output array is it. -/
theorem X21_arg1 (c : Dev nD) : X21 m c main_arg1 = m ((c.tc : Thread nD τ).loc main_arg1) :=
  ((X21_of_ne m c main_arg1 (by decide)).trans ((X20_of m c main_arg1 (by decide)).trans ((X19_of_ne m c main_arg1 (by decide)).trans ((X18_of m c main_arg1 (by decide)).trans ((X17_of m c main_arg1 (by decide)).trans ((X16_of m c main_arg1 (by decide)).trans ((X15_of_ne m c main_arg1 (by decide)).trans ((X14_of m c main_arg1 (by decide)).trans ((X13_of m c main_arg1 (by decide)).trans ((X12_of m c main_arg1 (by decide)).trans ((X11_of_ne m c main_arg1 (by decide)).trans ((X10_of m c main_arg1 (by decide)).trans ((X9_of m c main_arg1 (by decide)).trans ((X8_of m c main_arg1 (by decide)).trans ((X7_of_ne m c main_arg1 (by decide)).trans ((X6_of m c main_arg1 (by decide)).trans ((X5_of m c main_arg1 (by decide)).trans ((X4_of m c main_arg1 (by decide)).trans ((X3_of_ne m c main_arg1 (by decide)).trans ((X2_of_ne m c main_arg1 (by decide)).trans (X1_of m c main_arg1 (by decide))))))))))))))))))))))
/-- Argument 2 ends as launched: no host stretch writes it and no region's output array is it. -/
theorem X21_arg2 (c : Dev nD) : X21 m c main_arg2 = m ((c.tc : Thread nD τ).loc main_arg2) :=
  ((X21_of_ne m c main_arg2 (by decide)).trans ((X20_of m c main_arg2 (by decide)).trans ((X19_of_ne m c main_arg2 (by decide)).trans ((X18_of m c main_arg2 (by decide)).trans ((X17_of m c main_arg2 (by decide)).trans ((X16_of m c main_arg2 (by decide)).trans ((X15_of_ne m c main_arg2 (by decide)).trans ((X14_of m c main_arg2 (by decide)).trans ((X13_of m c main_arg2 (by decide)).trans ((X12_of m c main_arg2 (by decide)).trans ((X11_of_ne m c main_arg2 (by decide)).trans ((X10_of m c main_arg2 (by decide)).trans ((X9_of m c main_arg2 (by decide)).trans ((X8_of m c main_arg2 (by decide)).trans ((X7_of_ne m c main_arg2 (by decide)).trans ((X6_of m c main_arg2 (by decide)).trans ((X5_of m c main_arg2 (by decide)).trans ((X4_of m c main_arg2 (by decide)).trans ((X3_of_ne m c main_arg2 (by decide)).trans ((X2_of_ne m c main_arg2 (by decide)).trans (X1_of m c main_arg2 (by decide))))))))))))))))))))))
/-- Argument 3 ends as launched: no host stretch writes it and no region's output array is it. -/
theorem X21_arg3 (c : Dev nD) : X21 m c main_arg3 = m ((c.tc : Thread nD τ).loc main_arg3) :=
  ((X21_of_ne m c main_arg3 (by decide)).trans ((X20_of m c main_arg3 (by decide)).trans ((X19_of_ne m c main_arg3 (by decide)).trans ((X18_of m c main_arg3 (by decide)).trans ((X17_of m c main_arg3 (by decide)).trans ((X16_of m c main_arg3 (by decide)).trans ((X15_of_ne m c main_arg3 (by decide)).trans ((X14_of m c main_arg3 (by decide)).trans ((X13_of m c main_arg3 (by decide)).trans ((X12_of m c main_arg3 (by decide)).trans ((X11_of_ne m c main_arg3 (by decide)).trans ((X10_of m c main_arg3 (by decide)).trans ((X9_of m c main_arg3 (by decide)).trans ((X8_of m c main_arg3 (by decide)).trans ((X7_of_ne m c main_arg3 (by decide)).trans ((X6_of m c main_arg3 (by decide)).trans ((X5_of m c main_arg3 (by decide)).trans ((X4_of m c main_arg3 (by decide)).trans ((X3_of_ne m c main_arg3 (by decide)).trans ((X2_of_ne m c main_arg3 (by decide)).trans (X1_of m c main_arg3 (by decide))))))))))))))))))))))
/-- Argument 4 ends as launched: no host stretch writes it and no region's output array is it. -/
theorem X21_arg4 (c : Dev nD) : X21 m c main_arg4 = m ((c.tc : Thread nD τ).loc main_arg4) :=
  ((X21_of_ne m c main_arg4 (by decide)).trans ((X20_of m c main_arg4 (by decide)).trans ((X19_of_ne m c main_arg4 (by decide)).trans ((X18_of m c main_arg4 (by decide)).trans ((X17_of m c main_arg4 (by decide)).trans ((X16_of m c main_arg4 (by decide)).trans ((X15_of_ne m c main_arg4 (by decide)).trans ((X14_of m c main_arg4 (by decide)).trans ((X13_of m c main_arg4 (by decide)).trans ((X12_of m c main_arg4 (by decide)).trans ((X11_of_ne m c main_arg4 (by decide)).trans ((X10_of m c main_arg4 (by decide)).trans ((X9_of m c main_arg4 (by decide)).trans ((X8_of m c main_arg4 (by decide)).trans ((X7_of_ne m c main_arg4 (by decide)).trans ((X6_of m c main_arg4 (by decide)).trans ((X5_of m c main_arg4 (by decide)).trans ((X4_of m c main_arg4 (by decide)).trans ((X3_of_ne m c main_arg4 (by decide)).trans ((X2_of_ne m c main_arg4 (by decide)).trans (X1_of m c main_arg4 (by decide))))))))))))))))))))))
/-- Argument 5 ends as launched: no host stretch writes it and no region's output array is it. -/
theorem X21_arg5 (c : Dev nD) : X21 m c main_arg5 = m ((c.tc : Thread nD τ).loc main_arg5) :=
  ((X21_of_ne m c main_arg5 (by decide)).trans ((X20_of m c main_arg5 (by decide)).trans ((X19_of_ne m c main_arg5 (by decide)).trans ((X18_of m c main_arg5 (by decide)).trans ((X17_of m c main_arg5 (by decide)).trans ((X16_of m c main_arg5 (by decide)).trans ((X15_of_ne m c main_arg5 (by decide)).trans ((X14_of m c main_arg5 (by decide)).trans ((X13_of m c main_arg5 (by decide)).trans ((X12_of m c main_arg5 (by decide)).trans ((X11_of_ne m c main_arg5 (by decide)).trans ((X10_of m c main_arg5 (by decide)).trans ((X9_of m c main_arg5 (by decide)).trans ((X8_of m c main_arg5 (by decide)).trans ((X7_of_ne m c main_arg5 (by decide)).trans ((X6_of m c main_arg5 (by decide)).trans ((X5_of m c main_arg5 (by decide)).trans ((X4_of m c main_arg5 (by decide)).trans ((X3_of_ne m c main_arg5 (by decide)).trans ((X2_of_ne m c main_arg5 (by decide)).trans (X1_of m c main_arg5 (by decide))))))))))))))))))))))
/-- Argument 6 ends as launched: no host stretch writes it and no region's output array is it. -/
theorem X21_arg6 (c : Dev nD) : X21 m c main_arg6 = m ((c.tc : Thread nD τ).loc main_arg6) :=
  ((X21_of_ne m c main_arg6 (by decide)).trans ((X20_of m c main_arg6 (by decide)).trans ((X19_of_ne m c main_arg6 (by decide)).trans ((X18_of m c main_arg6 (by decide)).trans ((X17_of m c main_arg6 (by decide)).trans ((X16_of m c main_arg6 (by decide)).trans ((X15_of_ne m c main_arg6 (by decide)).trans ((X14_of m c main_arg6 (by decide)).trans ((X13_of m c main_arg6 (by decide)).trans ((X12_of m c main_arg6 (by decide)).trans ((X11_of_ne m c main_arg6 (by decide)).trans ((X10_of m c main_arg6 (by decide)).trans ((X9_of m c main_arg6 (by decide)).trans ((X8_of m c main_arg6 (by decide)).trans ((X7_of_ne m c main_arg6 (by decide)).trans ((X6_of m c main_arg6 (by decide)).trans ((X5_of m c main_arg6 (by decide)).trans ((X4_of m c main_arg6 (by decide)).trans ((X3_of_ne m c main_arg6 (by decide)).trans ((X2_of_ne m c main_arg6 (by decide)).trans (X1_of m c main_arg6 (by decide))))))))))))))))))))))
/-- Argument 7 ends as launched: no host stretch writes it and no region's output array is it. -/
theorem X21_arg7 (c : Dev nD) : X21 m c main_arg7 = m ((c.tc : Thread nD τ).loc main_arg7) :=
  ((X21_of_ne m c main_arg7 (by decide)).trans ((X20_of m c main_arg7 (by decide)).trans ((X19_of_ne m c main_arg7 (by decide)).trans ((X18_of m c main_arg7 (by decide)).trans ((X17_of m c main_arg7 (by decide)).trans ((X16_of m c main_arg7 (by decide)).trans ((X15_of_ne m c main_arg7 (by decide)).trans ((X14_of m c main_arg7 (by decide)).trans ((X13_of m c main_arg7 (by decide)).trans ((X12_of m c main_arg7 (by decide)).trans ((X11_of_ne m c main_arg7 (by decide)).trans ((X10_of m c main_arg7 (by decide)).trans ((X9_of m c main_arg7 (by decide)).trans ((X8_of m c main_arg7 (by decide)).trans ((X7_of_ne m c main_arg7 (by decide)).trans ((X6_of m c main_arg7 (by decide)).trans ((X5_of m c main_arg7 (by decide)).trans ((X4_of m c main_arg7 (by decide)).trans ((X3_of_ne m c main_arg7 (by decide)).trans ((X2_of_ne m c main_arg7 (by decide)).trans (X1_of m c main_arg7 (by decide))))))))))))))))))))))
/-- Argument 8 ends as launched: no host stretch writes it and no region's output array is it. -/
theorem X21_arg8 (c : Dev nD) : X21 m c main_arg8 = m ((c.tc : Thread nD τ).loc main_arg8) :=
  ((X21_of_ne m c main_arg8 (by decide)).trans ((X20_of m c main_arg8 (by decide)).trans ((X19_of_ne m c main_arg8 (by decide)).trans ((X18_of m c main_arg8 (by decide)).trans ((X17_of m c main_arg8 (by decide)).trans ((X16_of m c main_arg8 (by decide)).trans ((X15_of_ne m c main_arg8 (by decide)).trans ((X14_of m c main_arg8 (by decide)).trans ((X13_of m c main_arg8 (by decide)).trans ((X12_of m c main_arg8 (by decide)).trans ((X11_of_ne m c main_arg8 (by decide)).trans ((X10_of m c main_arg8 (by decide)).trans ((X9_of m c main_arg8 (by decide)).trans ((X8_of m c main_arg8 (by decide)).trans ((X7_of_ne m c main_arg8 (by decide)).trans ((X6_of m c main_arg8 (by decide)).trans ((X5_of m c main_arg8 (by decide)).trans ((X4_of m c main_arg8 (by decide)).trans ((X3_of_ne m c main_arg8 (by decide)).trans ((X2_of_ne m c main_arg8 (by decide)).trans (X1_of m c main_arg8 (by decide))))))))))))))))))))))
/-- Argument 9 ends as launched: no host stretch writes it and no region's output array is it. -/
theorem X21_arg9 (c : Dev nD) : X21 m c main_arg9 = m ((c.tc : Thread nD τ).loc main_arg9) :=
  ((X21_of_ne m c main_arg9 (by decide)).trans ((X20_of m c main_arg9 (by decide)).trans ((X19_of_ne m c main_arg9 (by decide)).trans ((X18_of m c main_arg9 (by decide)).trans ((X17_of m c main_arg9 (by decide)).trans ((X16_of m c main_arg9 (by decide)).trans ((X15_of_ne m c main_arg9 (by decide)).trans ((X14_of m c main_arg9 (by decide)).trans ((X13_of m c main_arg9 (by decide)).trans ((X12_of m c main_arg9 (by decide)).trans ((X11_of_ne m c main_arg9 (by decide)).trans ((X10_of m c main_arg9 (by decide)).trans ((X9_of m c main_arg9 (by decide)).trans ((X8_of m c main_arg9 (by decide)).trans ((X7_of_ne m c main_arg9 (by decide)).trans ((X6_of m c main_arg9 (by decide)).trans ((X5_of m c main_arg9 (by decide)).trans ((X4_of m c main_arg9 (by decide)).trans ((X3_of_ne m c main_arg9 (by decide)).trans ((X2_of_ne m c main_arg9 (by decide)).trans (X1_of m c main_arg9 (by decide))))))))))))))))))))))
/-- Argument 10 ends as launched: no host stretch writes it and no region's output array is it. -/
theorem X21_arg10 (c : Dev nD) : X21 m c main_arg10 = m ((c.tc : Thread nD τ).loc main_arg10) :=
  ((X21_of_ne m c main_arg10 (by decide)).trans ((X20_of m c main_arg10 (by decide)).trans ((X19_of_ne m c main_arg10 (by decide)).trans ((X18_of m c main_arg10 (by decide)).trans ((X17_of m c main_arg10 (by decide)).trans ((X16_of m c main_arg10 (by decide)).trans ((X15_of_ne m c main_arg10 (by decide)).trans ((X14_of m c main_arg10 (by decide)).trans ((X13_of m c main_arg10 (by decide)).trans ((X12_of m c main_arg10 (by decide)).trans ((X11_of_ne m c main_arg10 (by decide)).trans ((X10_of m c main_arg10 (by decide)).trans ((X9_of m c main_arg10 (by decide)).trans ((X8_of m c main_arg10 (by decide)).trans ((X7_of_ne m c main_arg10 (by decide)).trans ((X6_of m c main_arg10 (by decide)).trans ((X5_of m c main_arg10 (by decide)).trans ((X4_of m c main_arg10 (by decide)).trans ((X3_of_ne m c main_arg10 (by decide)).trans ((X2_of_ne m c main_arg10 (by decide)).trans (X1_of m c main_arg10 (by decide))))))))))))))))))))))
/-- Argument 11 ends as launched: no host stretch writes it and no region's output array is it. -/
theorem X21_arg11 (c : Dev nD) : X21 m c main_arg11 = m ((c.tc : Thread nD τ).loc main_arg11) :=
  ((X21_of_ne m c main_arg11 (by decide)).trans ((X20_of m c main_arg11 (by decide)).trans ((X19_of_ne m c main_arg11 (by decide)).trans ((X18_of m c main_arg11 (by decide)).trans ((X17_of m c main_arg11 (by decide)).trans ((X16_of m c main_arg11 (by decide)).trans ((X15_of_ne m c main_arg11 (by decide)).trans ((X14_of m c main_arg11 (by decide)).trans ((X13_of m c main_arg11 (by decide)).trans ((X12_of m c main_arg11 (by decide)).trans ((X11_of_ne m c main_arg11 (by decide)).trans ((X10_of m c main_arg11 (by decide)).trans ((X9_of m c main_arg11 (by decide)).trans ((X8_of m c main_arg11 (by decide)).trans ((X7_of_ne m c main_arg11 (by decide)).trans ((X6_of m c main_arg11 (by decide)).trans ((X5_of m c main_arg11 (by decide)).trans ((X4_of m c main_arg11 (by decide)).trans ((X3_of_ne m c main_arg11 (by decide)).trans ((X2_of_ne m c main_arg11 (by decide)).trans (X1_of m c main_arg11 (by decide))))))))))))))))))))))
/-- Argument 12 ends as launched: no host stretch writes it and no region's output array is it. -/
theorem X21_arg12 (c : Dev nD) : X21 m c main_arg12 = m ((c.tc : Thread nD τ).loc main_arg12) :=
  ((X21_of_ne m c main_arg12 (by decide)).trans ((X20_of m c main_arg12 (by decide)).trans ((X19_of_ne m c main_arg12 (by decide)).trans ((X18_of m c main_arg12 (by decide)).trans ((X17_of m c main_arg12 (by decide)).trans ((X16_of m c main_arg12 (by decide)).trans ((X15_of_ne m c main_arg12 (by decide)).trans ((X14_of m c main_arg12 (by decide)).trans ((X13_of m c main_arg12 (by decide)).trans ((X12_of m c main_arg12 (by decide)).trans ((X11_of_ne m c main_arg12 (by decide)).trans ((X10_of m c main_arg12 (by decide)).trans ((X9_of m c main_arg12 (by decide)).trans ((X8_of m c main_arg12 (by decide)).trans ((X7_of_ne m c main_arg12 (by decide)).trans ((X6_of m c main_arg12 (by decide)).trans ((X5_of m c main_arg12 (by decide)).trans ((X4_of m c main_arg12 (by decide)).trans ((X3_of_ne m c main_arg12 (by decide)).trans ((X2_of_ne m c main_arg12 (by decide)).trans (X1_of m c main_arg12 (by decide))))))))))))))))))))))
/-- Argument 13 ends as launched: no host stretch writes it and no region's output array is it. -/
theorem X21_arg13 (c : Dev nD) : X21 m c main_arg13 = m ((c.tc : Thread nD τ).loc main_arg13) :=
  ((X21_of_ne m c main_arg13 (by decide)).trans ((X20_of m c main_arg13 (by decide)).trans ((X19_of_ne m c main_arg13 (by decide)).trans ((X18_of m c main_arg13 (by decide)).trans ((X17_of m c main_arg13 (by decide)).trans ((X16_of m c main_arg13 (by decide)).trans ((X15_of_ne m c main_arg13 (by decide)).trans ((X14_of m c main_arg13 (by decide)).trans ((X13_of m c main_arg13 (by decide)).trans ((X12_of m c main_arg13 (by decide)).trans ((X11_of_ne m c main_arg13 (by decide)).trans ((X10_of m c main_arg13 (by decide)).trans ((X9_of m c main_arg13 (by decide)).trans ((X8_of m c main_arg13 (by decide)).trans ((X7_of_ne m c main_arg13 (by decide)).trans ((X6_of m c main_arg13 (by decide)).trans ((X5_of m c main_arg13 (by decide)).trans ((X4_of m c main_arg13 (by decide)).trans ((X3_of_ne m c main_arg13 (by decide)).trans ((X2_of_ne m c main_arg13 (by decide)).trans (X1_of m c main_arg13 (by decide))))))))))))))))))))))

/-- THE FRAME: every weakly fair execution of @main terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (X21_arg0 m c),
    (h c _ (mem_uc main_arg1 (by decide))).trans (X21_arg1 m c),
    (h c _ (mem_uc main_arg2 (by decide))).trans (X21_arg2 m c),
    (h c _ (mem_uc main_arg3 (by decide))).trans (X21_arg3 m c),
    (h c _ (mem_uc main_arg4 (by decide))).trans (X21_arg4 m c),
    (h c _ (mem_uc main_arg5 (by decide))).trans (X21_arg5 m c),
    (h c _ (mem_uc main_arg6 (by decide))).trans (X21_arg6 m c),
    (h c _ (mem_uc main_arg7 (by decide))).trans (X21_arg7 m c),
    (h c _ (mem_uc main_arg8 (by decide))).trans (X21_arg8 m c),
    (h c _ (mem_uc main_arg9 (by decide))).trans (X21_arg9 m c),
    (h c _ (mem_uc main_arg10 (by decide))).trans (X21_arg10 m c),
    (h c _ (mem_uc main_arg11 (by decide))).trans (X21_arg11 m c),
    (h c _ (mem_uc main_arg12 (by decide))).trans (X21_arg12 m c),
    (h c _ (mem_uc main_arg13 (by decide))).trans (X21_arg13 m c)⟩)
    (run_main m ρ)

end Cert.KernelIdeal.Hand

end
-- ==== Proof.Dense.lean ====
/-
  The dense pieces of the network entry by entry over the extended reals, at any sizes.

  `lin x W b` is the affine layer x·W + b: entry (r, q) is ∑ k, x (r, k) · W (k, q) + b q. `relu` cuts every entry off
  below at zero. `mlp h agg W1 b1 W2 b2` is one round's node update relu((h + agg)·W1 + b1)·W2 + b2. Row r of each of
  them depends on row r of its first argument(s) only, which is why a block of rows computed alone is that block of the
  whole result.
-/
import Idealize.ShloMosaic.PureOps.Ideal
import Idealize.ShloMosaic.Lib.ValueIdx

noncomputable section

open scoped BigOperators

namespace Cert.Dense

open Idealize.ShloMosaic Idealize.ShloMosaic.ValueIdx

/-- The affine layer x·W + b. -/
def lin {M K N : ℕ} (x : FVec Ideal ⟨2, ![M, K]⟩ .f32) (W : FVec Ideal ⟨2, ![K, N]⟩ .f32) (b : FVec Ideal ⟨1, ![N]⟩ .f32) :
    FVec Ideal ⟨2, ![M, N]⟩ .f32 :=
  fun i => (∑ k : Fin K, x (ix2 (i 0) k) * W (ix2 k (i 1))) + b (ix1 (i 1))

theorem lin_apply {M K N : ℕ} (x : FVec Ideal ⟨2, ![M, K]⟩ .f32) (W : FVec Ideal ⟨2, ![K, N]⟩ .f32) (b : FVec Ideal ⟨1, ![N]⟩ .f32)
    (r : Fin M) (q : Fin N) : lin x W b (ix2 r q) = (∑ k : Fin K, x (ix2 r k) * W (ix2 k q)) + b (ix1 q) := rfl

/-- The rectifier. -/
def relu {M N : ℕ} (a : FVec Ideal ⟨2, ![M, N]⟩ .f32) : FVec Ideal ⟨2, ![M, N]⟩ .f32 :=
  fun i => max (a i) (Ideal.ofBits .f32 0x00000000#32)

theorem relu_apply {M N : ℕ} (a : FVec Ideal ⟨2, ![M, N]⟩ .f32) (r : Fin M) (q : Fin N) :
    relu a (ix2 r q) = max (a (ix2 r q)) (Ideal.ofBits .f32 0x00000000#32) := rfl

/-- One round's node update relu((h + agg)·W1 + b1)·W2 + b2. -/
def mlp {M D : ℕ} (h agg : FVec Ideal ⟨2, ![M, D]⟩ .f32) (W1 : FVec Ideal ⟨2, ![D, D]⟩ .f32) (b1 : FVec Ideal ⟨1, ![D]⟩ .f32)
    (W2 : FVec Ideal ⟨2, ![D, D]⟩ .f32) (b2 : FVec Ideal ⟨1, ![D]⟩ .f32) : FVec Ideal ⟨2, ![M, D]⟩ .f32 :=
  lin (relu (lin (fun i => h i + agg i) W1 b1)) W2 b2

/-- Row r of the affine layer depends on row r of x only. -/
theorem lin_rows {M M' K N : ℕ} (x : FVec Ideal ⟨2, ![M, K]⟩ .f32) (x' : FVec Ideal ⟨2, ![M', K]⟩ .f32)
    (W : FVec Ideal ⟨2, ![K, N]⟩ .f32) (b : FVec Ideal ⟨1, ![N]⟩ .f32) (r : Fin M) (r' : Fin M') (q : Fin N)
    (h : ∀ k : Fin K, x (ix2 r k) = x' (ix2 r' k)) : lin x W b (ix2 r q) = lin x' W b (ix2 r' q) := by
  rw [lin_apply, lin_apply]
  exact congrArg (· + b (ix1 q)) (Finset.sum_congr rfl fun k _ => by rw [h k])

/-- Row r of the node update depends on row r of h and of agg only. -/
theorem mlp_rows {M M' D : ℕ} (h agg : FVec Ideal ⟨2, ![M, D]⟩ .f32) (h' agg' : FVec Ideal ⟨2, ![M', D]⟩ .f32)
    (W1 : FVec Ideal ⟨2, ![D, D]⟩ .f32) (b1 : FVec Ideal ⟨1, ![D]⟩ .f32) (W2 : FVec Ideal ⟨2, ![D, D]⟩ .f32) (b2 : FVec Ideal ⟨1, ![D]⟩ .f32)
    (r : Fin M) (r' : Fin M') (q : Fin D)
    (hh : ∀ k : Fin D, h (ix2 r k) = h' (ix2 r' k)) (ha : ∀ k : Fin D, agg (ix2 r k) = agg' (ix2 r' k)) :
    mlp h agg W1 b1 W2 b2 (ix2 r q) = mlp h' agg' W1 b1 W2 b2 (ix2 r' q) := by
  unfold mlp
  refine lin_rows _ _ W2 b2 r r' q fun k => ?_
  rw [relu_apply, relu_apply]
  refine congrArg (max · _) (lin_rows _ _ W1 b1 r r' k fun j => ?_)
  show h (ix2 r j) + agg (ix2 r j) = h' (ix2 r' j) + agg' (ix2 r' j)
  rw [hh j, ha j]

end Cert.Dense

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.Final0.lean ====
/-
  Region 0's output array as one function of the region's arrays: h = x·Wn + bn on all 40000 rows.

  The body's result at an entry (p, q) of a block is ∑ k, x (p, k) · Wn (k, q) + bn q of the blocks it loaded (the
  narrowing to bf16 is the identity on extended reals). At grid point t the first input's block is rows
  5000·t … 5000·t + 4999 of x, the weights' and the bias's blocks are the whole arrays, and the output's block is the
  same rows of the result; since a row of the affine layer depends on that row of x only, what point t writes back is
  block t of the layer of the whole arrays. Row r lies in the block of point r / 5000, so the eight blocks cover the
  array and it ends holding the layer.
-/
import proofs.«102879_j77541339562639_2_alg».proof.Proof.Body0
import proofs.«102879_j77541339562639_2_alg».proof.Proof.Dense
import proofs.«102879_j77541339562639_2_alg».proof.Proof.LibProduct
import proofs.«102879_j77541339562639_2_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz0_r2 : (![0, 0] : Fin 2 → Nat) = fun _ => 0 := funext fun a => by fin_cases a <;> rfl
theorem hz0_r1 : (![0] : Fin 1 → Nat) = fun _ => 0 := funext fun a => by fin_cases a; rfl

/-- The body's result at an entry: the row of the first block against the column of the second, plus the bias. -/
theorem pay0_apply (x : Vec Ideal S5000x32 .f32) (w : Vec Ideal S32x128 .f32) (b : Vec Ideal S128 .f32) (p : Fin 5000) (q : Fin 128) :
    k0_pay1 x w b (ix2 p q) = (∑ k : Fin 32, x (ix2 p k) * w (ix2 k q)) + b (ix1 q) := by
  unfold k0_pay1
  simp only [matmul]
  rw [addf_apply, Cert.LibProduct.matmul_zero_apply _ rfl rfl rfl rfl rfl rfl, Cert.LibRowVector.castRow_apply]
  rfl

/-- The printed index maps, decided over the grid: the first input and the output move one block of rows per point,
    the weights and the bias stay at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of the body's result on blocks that hold row r of X, all of W and all of B is row r of the affine layer. -/
theorem pay0_eq_lin (x : Vec Ideal S5000x32 .f32) (w : Vec Ideal S32x128 .f32) (b : Vec Ideal S128 .f32)
    (X : FVec Ideal ⟨2, ![40000, 32]⟩ .f32) (W : FVec Ideal ⟨2, ![32, 128]⟩ .f32) (B : FVec Ideal ⟨1, ![128]⟩ .f32)
    (p : Fin 5000) (q : Fin 128) (r : Fin 40000)
    (hx : ∀ k : Fin 32, x (ix2 p k) = X (ix2 r k))
    (hw : ∀ (k : Fin 32) (q : Fin 128), w (ix2 k q) = W (ix2 k q))
    (hb : ∀ q : Fin 128, b (ix1 q) = B (ix1 q)) :
    k0_pay1 x w b (ix2 p q) = Cert.Dense.lin X W B (ix2 r q) := by
  rw [pay0_apply, Cert.Dense.lin_apply, hb q]
  exact congrArg (· + B (ix1 q)) (Finset.sum_congr rfl fun k _ => by rw [hx k, hw k q])

/-- The first input's block at point t is rows 5000·t … 5000·t + 4999 of its array. -/
theorem iblk0_0_apply (c : Dev nD) (t : Fin cfg0.N) (p : Fin 5000) (k : Fin 32) (r : Fin 40000) (hr : r.val = t.val * 5000 + p.val) :
    (iblk0 V c 0 t : Vec Ideal S5000x32 .f32) (ix2 p k) = (V c main_arg0 : Vec Ideal S40000x32 .f32) (ix2 r k) := by
  obtain ⟨e0, e1, -⟩ := idx_facts0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 32 + 1 * k.val = k.val; rw [e1]; omega

/-- The weights' block at every point is the whole array. -/
theorem iblk0_1_apply (c : Dev nD) (t : Fin cfg0.N) (k : Fin 32) (q : Fin 128) :
    (iblk0 V c 1 t : Vec Ideal S32x128 .f32) (ix2 k q) = (V c main_arg4 : Vec Ideal S32x128 .f32) (ix2 k q) := by
  obtain ⟨-, -, e2, e3, -⟩ := idx_facts0 t
  show V c main_arg4 (((cfg0.win 1).blk t).view.emb (ix2 k q)) = V c main_arg4 (ix2 k q)
  refine congrArg _ (funext fun a => Fin.ext ?_)
  match a with
  | ⟨0, _⟩ => show win0_1.index t (0 : Fin 2) * 32 + 1 * k.val = k.val; rw [e2]; omega
  | ⟨1, _⟩ => show win0_1.index t (1 : Fin 2) * 128 + 1 * q.val = q.val; rw [e3]; omega

/-- The bias's block at every point is the whole vector. -/
theorem iblk0_2_apply (c : Dev nD) (t : Fin cfg0.N) (q : Fin 128) :
    (iblk0 V c 2 t : Vec Ideal S128 .f32) (ix1 q) = (V c main_arg5 : Vec Ideal S128 .f32) (ix1 q) := by
  obtain ⟨-, -, -, -, e4, -⟩ := idx_facts0 t
  show V c main_arg5 (((cfg0.win 2).blk t).view.emb (ix1 q)) = V c main_arg5 (ix1 q)
  refine congrArg _ (funext fun a => Fin.ext ?_)
  match a with
  | ⟨0, _⟩ => show win0_2.index t (0 : Fin 1) * 128 + 1 * q.val = q.val; rw [e4]; omega

/-- What point t writes back is block t of the affine layer of the arrays as the region finds them. -/
theorem flushed0_eq (c : Dev nD) (t : Fin cfg0.N) :
    (dat0 (F := Ideal) V c).flushed 3 t = ((cfg0.win 3).blk t).view.read (Elt Ideal)
      (Cert.Dense.lin (M := 40000) (K := 32) (N := 128) (V c main_arg0) (V c main_arg4) (V c main_arg5)) := by
  show (cfg0.win 3).cut (grid0.coords t) ((dat0 V c).after 3 t) = _
  rw [after0_3]
  unfold out0_3
  rw [View.canon_unit_zero hz0_r2]
  simp only [View.ld_unit_zero (S := S5000x32) hz0_r2, View.ld_unit_zero (S := S32x128) hz0_r2, View.ld_unit_zero (S := S128) hz0_r1]
  refine funext fun (j : S5000x128.Idx) => ?_
  obtain ⟨p, q, rfl⟩ : ∃ (p : Fin 5000) (q : Fin 128), j = ix2 p q := ⟨j 0, j 1, eq_ix2 j⟩
  obtain ⟨-, -, -, -, -, e5, e6⟩ := idx_facts0 t
  have ht : t.val < 8 := lt_of_lt_of_eq t.isLt N_0
  show k0_pay1 (iblk0 V c 0 t) (iblk0 V c 1 t) (iblk0 V c 2 t) (ix2 p q)
    = Cert.Dense.lin (M := 40000) (K := 32) (N := 128) (V c main_arg0) (V c main_arg4) (V c main_arg5) (((cfg0.win 3).blk t).view.emb (ix2 p q))
  have hi : ((cfg0.win 3).blk t).view.emb (ix2 p q) = (ix2 (⟨t.val * 5000 + p.val, by omega⟩ : Fin 40000) q : S40000x128.Idx) :=
    funext fun a => Fin.ext (by
      match a with
      | ⟨0, _⟩ => show win0_3.index t (0 : Fin 2) * 5000 + 1 * p.val = t.val * 5000 + p.val; rw [e5]; omega
      | ⟨1, _⟩ => show win0_3.index t (1 : Fin 2) * 128 + 1 * q.val = q.val; rw [e6]; omega)
  rw [hi]
  exact pay0_eq_lin _ _ _ _ _ _ p q _ (fun k => iblk0_0_apply V c t p k _ rfl) (fun k q => iblk0_1_apply V c t k q)
    (fun q => iblk0_2_apply V c t q)

/-- An index of the output array is in point t's block iff each coordinate is in the block's range on its axis. -/
theorem mem_blk0 (t : Fin cfg0.N) (i : S40000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- Row r of the output array is in the block of point r / 5000, which writes back. -/
theorem cover0 (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 8) N_0.symm⟩, rfl⟩
  refine ⟨t, flush0_3 t, ?_⟩
  rw [mem_blk0]
  obtain ⟨-, -, -, -, -, e5, e6⟩ := idx_facts0 t
  intro a
  match a with
  | ⟨0, _⟩ => show win0_3.index t (0 : Fin 2) * 5000 ≤ (i 0).val ∧ (i 0).val < win0_3.index t (0 : Fin 2) * 5000 + 5000; rw [e5, ht]; omega
  | ⟨1, _⟩ => show win0_3.index t (1 : Fin 2) * 128 ≤ (i 1).val ∧ (i 1).val < win0_3.index t (1 : Fin 2) * 128 + 128; rw [e6]; omega

/-- The output array after the region is the affine layer of the region's arrays: h = x·Wn + bn. -/
theorem final0 (c : Dev nD) : (dat0 (F := Ideal) V c).arrAt 3 cfg0.N
    = Cert.Dense.lin (M := 40000) (K := 32) (N := 128) (V c main_arg0) (V c main_arg4) (V c main_arg5) :=
  (dat0 V c).arrAt_eq_of_cover 3 _ (fun t _ => flushed0_eq V c t) cover0

end Cert.KernelIdeal.Hand

end
-- ==== Proof.Final1.lean ====
/-
  Region 1's output array as one function of the region's arrays: the affine layer of the edge features on all
  640000 rows, eighty blocks of 8000 rows.

  The body's result at an entry (p, q) of a block is ∑ k, x (p, k) · W (k, q) + b q of the blocks it loaded; the
  narrowings to bf16, of the operands and of the stored result, are the identity on extended reals. At grid point t
  the first input's block is rows 8000·t … 8000·t + 7999 of its array, the weights' and the bias's blocks are the whole
  arrays, and the output's block is the same rows of the result; a row of the affine layer depends on that row of the
  first argument only, so what point t writes back is block t of the layer of the whole arrays. Row r lies in the block
  of point r / 8000, so the eighty blocks cover the array and it ends holding the layer.
-/
import proofs.«102879_j77541339562639_2_alg».proof.Proof.Body1
import proofs.«102879_j77541339562639_2_alg».proof.Proof.Dense
import proofs.«102879_j77541339562639_2_alg».proof.Proof.LibProduct
import proofs.«102879_j77541339562639_2_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz1_r2 : (![0, 0] : Fin 2 → Nat) = fun _ => 0 := funext fun a => by fin_cases a <;> rfl
theorem hz1_r1 : (![0] : Fin 1 → Nat) = fun _ => 0 := funext fun a => by fin_cases a; rfl

/-- The body's result at an entry: the row of the first block against the column of the second, plus the bias (the narrowing of the result to bf16 is the identity on extended reals). -/
theorem pay1_apply (x : Vec Ideal S8000x16 .f32) (w : Vec Ideal S16x128 .f32) (b : Vec Ideal S128 .f32) (p : Fin 8000) (q : Fin 128) :
    k1_pay1 x w b (ix2 p q) = (∑ k : Fin 16, x (ix2 p k) * w (ix2 k q)) + b (ix1 q) := by
  unfold k1_pay1
  simp only [matmul]
  rw [truncf_apply, addf_apply, Cert.LibProduct.matmul_zero_apply _ rfl rfl rfl rfl rfl rfl, Cert.LibRowVector.castRow_apply]
  rfl

/-- The printed index maps, decided over the grid: the first input and the output move one block of rows per point,
    the weights and the bias stay at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row p of the body's result on blocks that hold row r of X, all of W and all of B is row r of the affine layer. -/
theorem pay1_eq_lin (x : Vec Ideal S8000x16 .f32) (w : Vec Ideal S16x128 .f32) (b : Vec Ideal S128 .f32)
    (X : FVec Ideal ⟨2, ![640000, 16]⟩ .f32) (W : FVec Ideal ⟨2, ![16, 128]⟩ .f32) (B : FVec Ideal ⟨1, ![128]⟩ .f32)
    (p : Fin 8000) (q : Fin 128) (r : Fin 640000)
    (hx : ∀ k : Fin 16, x (ix2 p k) = X (ix2 r k))
    (hw : ∀ (k : Fin 16) (q : Fin 128), w (ix2 k q) = W (ix2 k q))
    (hb : ∀ q : Fin 128, b (ix1 q) = B (ix1 q)) :
    k1_pay1 x w b (ix2 p q) = Cert.Dense.lin X W B (ix2 r q) := by
  rw [pay1_apply, Cert.Dense.lin_apply, hb q]
  exact congrArg (· + B (ix1 q)) (Finset.sum_congr rfl fun k _ => by rw [hx k, hw k q])

/-- The first input's block at point t is rows 8000·t … 8000·t + 7999 of its array. -/
theorem iblk1_0_apply (c : Dev nD) (t : Fin cfg1.N) (p : Fin 8000) (k : Fin 16) (r : Fin 640000) (hr : r.val = t.val * 8000 + p.val) :
    (iblk1 V c 0 t : Vec Ideal S8000x16 .f32) (ix2 p k) = (V c main_arg2 : Vec Ideal S640000x16 .f32) (ix2 r k) := by
  obtain ⟨e0, e1, -⟩ := idx_facts1 t
  show V c main_arg2 (((cfg1.win 0).blk t).view.emb (ix2 p k)) = V c main_arg2 (ix2 r k)
  refine congrArg _ (funext fun a => Fin.ext ?_)
  match a with
  | ⟨0, _⟩ => show win1_0.index t (0 : Fin 2) * 8000 + 1 * p.val = r.val; rw [e0, hr]; omega
  | ⟨1, _⟩ => show win1_0.index t (1 : Fin 2) * 16 + 1 * k.val = k.val; rw [e1]; omega

/-- The weights' block at every point is the whole array. -/
theorem iblk1_1_apply (c : Dev nD) (t : Fin cfg1.N) (k : Fin 16) (q : Fin 128) :
    (iblk1 V c 1 t : Vec Ideal S16x128 .f32) (ix2 k q) = (V c main_arg6 : Vec Ideal S16x128 .f32) (ix2 k q) := by
  obtain ⟨-, -, e2, e3, -⟩ := idx_facts1 t
  show V c main_arg6 (((cfg1.win 1).blk t).view.emb (ix2 k q)) = V c main_arg6 (ix2 k q)
  refine congrArg _ (funext fun a => Fin.ext ?_)
  match a with
  | ⟨0, _⟩ => show win1_1.index t (0 : Fin 2) * 16 + 1 * k.val = k.val; rw [e2]; omega
  | ⟨1, _⟩ => show win1_1.index t (1 : Fin 2) * 128 + 1 * q.val = q.val; rw [e3]; omega

/-- The bias's block at every point is the whole vector. -/
theorem iblk1_2_apply (c : Dev nD) (t : Fin cfg1.N) (q : Fin 128) :
    (iblk1 V c 2 t : Vec Ideal S128 .f32) (ix1 q) = (V c main_arg7 : Vec Ideal S128 .f32) (ix1 q) := by
  obtain ⟨-, -, -, -, e4, -⟩ := idx_facts1 t
  show V c main_arg7 (((cfg1.win 2).blk t).view.emb (ix1 q)) = V c main_arg7 (ix1 q)
  refine congrArg _ (funext fun a => Fin.ext ?_)
  match a with
  | ⟨0, _⟩ => show win1_2.index t (0 : Fin 1) * 128 + 1 * q.val = q.val; rw [e4]; omega

/-- What point t writes back is block t of the affine layer of the arrays as the region finds them. -/
theorem flushed1_eq (c : Dev nD) (t : Fin cfg1.N) :
    (dat1 (F := Ideal) V c).flushed 3 t = ((cfg1.win 3).blk t).view.read (Elt Ideal)
      (Cert.Dense.lin (M := 640000) (K := 16) (N := 128) (V c main_arg2) (V c main_arg6) (V c main_arg7)) := by
  show (cfg1.win 3).cut (grid1.coords t) ((dat1 V c).after 3 t) = _
  rw [after1_3]
  unfold out1_3
  rw [View.canon_unit_zero hz1_r2]
  simp only [View.ld_unit_zero (S := S8000x16) hz1_r2, View.ld_unit_zero (S := S16x128) hz1_r2, View.ld_unit_zero (S := S128) hz1_r1]
  refine funext fun (j : S8000x128.Idx) => ?_
  obtain ⟨p, q, rfl⟩ : ∃ (p : Fin 8000) (q : Fin 128), j = ix2 p q := ⟨j 0, j 1, eq_ix2 j⟩
  obtain ⟨-, -, -, -, -, e5, e6⟩ := idx_facts1 t
  have ht : t.val < 80 := lt_of_lt_of_eq t.isLt N_1
  show k1_pay1 (iblk1 V c 0 t) (iblk1 V c 1 t) (iblk1 V c 2 t) (ix2 p q)
    = Cert.Dense.lin (M := 640000) (K := 16) (N := 128) (V c main_arg2) (V c main_arg6) (V c main_arg7) (((cfg1.win 3).blk t).view.emb (ix2 p q))
  have hi : ((cfg1.win 3).blk t).view.emb (ix2 p q) = (ix2 (⟨t.val * 8000 + p.val, by omega⟩ : Fin 640000) q : S640000x128.Idx) :=
    funext fun a => Fin.ext (by
      match a with
      | ⟨0, _⟩ => show win1_3.index t (0 : Fin 2) * 8000 + 1 * p.val = t.val * 8000 + p.val; rw [e5]; omega
      | ⟨1, _⟩ => show win1_3.index t (1 : Fin 2) * 128 + 1 * q.val = q.val; rw [e6]; omega)
  rw [hi]
  exact pay1_eq_lin _ _ _ _ _ _ p q _ (fun k => iblk1_0_apply V c t p k _ rfl) (fun k q => iblk1_1_apply V c t k q)
    (fun q => iblk1_2_apply V c t q)

/-- An index of the output array is in point t's block iff each coordinate is in the block's range on its axis. -/
theorem mem_blk1 (t : Fin cfg1.N) (i : S640000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v5).slice (win1_3.rect t)).set ↔ _
  rw [View.set_slice_whole, Rect.mem_set_unit]
  exact Iff.rfl

/-- Row r of the output array is in the block of point r / 8000, which writes back. -/
theorem cover1 (i : S640000x128.Idx) : ∃ t : Fin cfg1.N, (cfg1.win 3).flush t = true ∧ i ∈ ((cfg1.win 3).blk t).view.set := by
  have hi0 : (i 0).val < 640000 := (i 0).isLt
  have hi1 : (i 1).val < 128 := (i 1).isLt
  obtain ⟨t, ht⟩ : ∃ t : Fin cfg1.N, t.val = (i 0).val / 8000 :=
    ⟨⟨(i 0).val / 8000, lt_of_lt_of_eq (by omega : (i 0).val / 8000 < 80) N_1.symm⟩, rfl⟩
  refine ⟨t, flush1_3 t, ?_⟩
  rw [mem_blk1]
  obtain ⟨-, -, -, -, -, e5, e6⟩ := idx_facts1 t
  intro a
  match a with
  | ⟨0, _⟩ => show win1_3.index t (0 : Fin 2) * 8000 ≤ (i 0).val ∧ (i 0).val < win1_3.index t (0 : Fin 2) * 8000 + 8000; rw [e5, ht]; omega
  | ⟨1, _⟩ => show win1_3.index t (1 : Fin 2) * 128 ≤ (i 1).val ∧ (i 1).val < win1_3.index t (1 : Fin 2) * 128 + 128; rw [e6]; omega

/-- The output array after the region is, entry by entry, the affine layer of the region's arrays: e = edge_attr·We + be. -/
theorem final1 (c : Dev nD) : ∀ i, (dat1 (F := Ideal) V c).arrAt 3 cfg1.N i
    = Cert.Dense.lin (M := 640000) (K := 16) (N := 128) (V c main_arg2) (V c main_arg6) (V c main_arg7) i :=
  fun i => congrFun ((dat1 V c).arrAt_eq_of_cover 3 _ (fun t _ => flushed1_eq V c t) cover1) i

end Cert.KernelIdeal.Hand

end
-- ==== Proof.Final2.lean ====
/-
  Region 2's output array as one function of the region's arrays: one round's node update
  relu((h + agg)·W1 + b1)·W2 + b2 on all 40000 rows, eight blocks of 5000 rows.

  The body's result on its loaded blocks is the node update of the blocks. At grid point t the two row inputs' blocks
  are rows 5000·t … 5000·t + 4999 of their arrays, the weights' and the biases' blocks are the whole arrays, and the
  output's block is the same rows of the result; a row of the node update depends on that row of h and of agg only, so
  what point t writes back is block t of the node update of the whole arrays. Row r lies in the block of point
  r / 5000, so the eight blocks cover the array and it ends holding the node update.
-/
import proofs.«102879_j77541339562639_2_alg».proof.Proof.Body2
import proofs.«102879_j77541339562639_2_alg».proof.Proof.Dense
import proofs.«102879_j77541339562639_2_alg».proof.Proof.LibProduct
import proofs.«102879_j77541339562639_2_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz2_r2 : (![0, 0] : Fin 2 → Nat) = fun _ => 0 := funext fun a => by fin_cases a <;> rfl
theorem hz2_r1 : (![0] : Fin 1 → Nat) = fun _ => 0 := funext fun a => by fin_cases a; rfl

/-- The body's result on blocks is the node update of the blocks: the sum of the two row blocks through the first
    affine layer, the rectifier, and the second affine layer (the casts of a block to its own shape and the narrowings
    to bf16 are the identity on extended reals). -/
theorem pay2_apply (h a : Vec Ideal S5000x128 .f32) (w1 : Vec Ideal S128x128 .f32) (b1 : Vec Ideal S128 .f32)
    (w2 : Vec Ideal S128x128 .f32) (b2 : Vec Ideal S128 .f32) (p : Fin 5000) (q : Fin 128) :
    k2_pay1 h a w1 b1 w2 b2 (ix2 p q) = Cert.Dense.mlp (M := 5000) (D := 128) h a w1 b1 w2 b2 (ix2 p q) := by
  unfold k2_pay1 Cert.Dense.mlp
  simp only [matmul]
  rw [addf_apply, Cert.LibProduct.matmul_zero_apply _ rfl rfl rfl rfl rfl rfl, Cert.LibRowVector.castRow_apply, Cert.Dense.lin_apply]
  refine congrArg (· + b2 (ix1 q)) (Finset.sum_congr rfl fun k _ => ?_)
  rw [truncf_apply, truncf_apply, maximumf_apply, addf_apply, broadcast_apply,
    Cert.LibProduct.matmul_zero_apply _ rfl rfl rfl rfl rfl rfl, Cert.LibRowVector.castRow_apply, Cert.Dense.relu_apply, Cert.Dense.lin_apply]
  simp only [shapeCast_self]
  rfl

/-- The printed index maps, decided over the grid: the two row inputs and the output move one block of rows per point,
    the weights and the biases stay at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row p of the body's result on blocks that hold row r of H and of A and all of the weights and biases is row r of
    the node update of the whole arrays. -/
theorem pay2_eq_mlp (h a : Vec Ideal S5000x128 .f32) (w1 : Vec Ideal S128x128 .f32) (b1 : Vec Ideal S128 .f32)
    (w2 : Vec Ideal S128x128 .f32) (b2 : Vec Ideal S128 .f32)
    (H A : FVec Ideal ⟨2, ![40000, 128]⟩ .f32) (W1 : FVec Ideal ⟨2, ![128, 128]⟩ .f32) (B1 : FVec Ideal ⟨1, ![128]⟩ .f32)
    (W2 : FVec Ideal ⟨2, ![128, 128]⟩ .f32) (B2 : FVec Ideal ⟨1, ![128]⟩ .f32)
    (p : Fin 5000) (q : Fin 128) (r : Fin 40000)
    (hh : ∀ k : Fin 128, h (ix2 p k) = H (ix2 r k)) (ha : ∀ k : Fin 128, a (ix2 p k) = A (ix2 r k))
    (hw1 : ∀ (k q : Fin 128), w1 (ix2 k q) = W1 (ix2 k q)) (hb1 : ∀ q : Fin 128, b1 (ix1 q) = B1 (ix1 q))
    (hw2 : ∀ (k q : Fin 128), w2 (ix2 k q) = W2 (ix2 k q)) (hb2 : ∀ q : Fin 128, b2 (ix1 q) = B2 (ix1 q)) :
    k2_pay1 h a w1 b1 w2 b2 (ix2 p q) = Cert.Dense.mlp H A W1 B1 W2 B2 (ix2 r q) := by
  obtain rfl : w1 = W1 := funext fun j => by
    obtain ⟨k, q, rfl⟩ : ∃ (k q : Fin 128), j = ix2 k q := ⟨j 0, j 1, eq_ix2 j⟩
    exact hw1 k q
  obtain rfl : w2 = W2 := funext fun j => by
    obtain ⟨k, q, rfl⟩ : ∃ (k q : Fin 128), j = ix2 k q := ⟨j 0, j 1, eq_ix2 j⟩
    exact hw2 k q
  obtain rfl : b1 = B1 := funext fun j => by
    obtain ⟨q, rfl⟩ : ∃ (q : Fin 128), j = ix1 q := ⟨j 0, eq_ix1 j⟩
    exact hb1 q
  obtain rfl : b2 = B2 := funext fun j => by
    obtain ⟨q, rfl⟩ : ∃ (q : Fin 128), j = ix1 q := ⟨j 0, eq_ix1 j⟩
    exact hb2 q
  rw [pay2_apply]
  exact Cert.Dense.mlp_rows h a H A w1 b1 w2 b2 p r q hh ha

/-- The node features' block at point t is rows 5000·t … 5000·t + 4999 of its array. -/
theorem iblk2_0_apply (c : Dev nD) (t : Fin cfg2.N) (p : Fin 5000) (k : Fin 128) (r : Fin 40000) (hr : r.val = t.val * 5000 + p.val) :
    (iblk2 V c 0 t : Vec Ideal S5000x128 .f32) (ix2 p k) = (V c main_v4 : Vec Ideal S40000x128 .f32) (ix2 r k) := by
  have e := idx_facts2 t
  show V c main_v4 (((cfg2.win 0).blk t).view.emb (ix2 p k)) = V c main_v4 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The aggregated messages' block at point t is rows 5000·t … 5000·t + 4999 of its array. -/
theorem iblk2_1_apply (c : Dev nD) (t : Fin cfg2.N) (p : Fin 5000) (k : Fin 128) (r : Fin 40000) (hr : r.val = t.val * 5000 + p.val) :
    (iblk2 V c 1 t : Vec Ideal S5000x128 .f32) (ix2 p k) = (V c main_v18 : Vec Ideal S40000x128 .f32) (ix2 r k) := by
  have e := idx_facts2 t
  show V c main_v18 (((cfg2.win 1).blk t).view.emb (ix2 p k)) = V c main_v18 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The first weights' block at every point is the whole array. -/
theorem iblk2_2_apply (c : Dev nD) (t : Fin cfg2.N) (k : Fin 128) (q : Fin 128) :
    (iblk2 V c 2 t : Vec Ideal S128x128 .f32) (ix2 k q) = (V c main_arg8 : Vec Ideal S128x128 .f32) (ix2 k q) := by
  have e := idx_facts2 t
  show V c main_arg8 (((cfg2.win 2).blk t).view.emb (ix2 k q)) = V c main_arg8 (ix2 k q)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The first bias' block at every point is the whole vector. -/
theorem iblk2_3_apply (c : Dev nD) (t : Fin cfg2.N) (q : Fin 128) :
    (iblk2 V c 3 t : Vec Ideal S128 .f32) (ix1 q) = (V c main_arg9 : Vec Ideal S128 .f32) (ix1 q) := by
  have e := idx_facts2 t
  show V c main_arg9 (((cfg2.win 3).blk t).view.emb (ix1 q)) = V c main_arg9 (ix1 q)
  refine congrArg _ (funext fun a => Fin.ext ?_)
  match a with
  | ⟨0, _⟩ => show win2_3.index t (0 : Fin 1) * 128 + 1 * q.val = q.val; omega

/-- The second weights' block at every point is the whole array. -/
theorem iblk2_4_apply (c : Dev nD) (t : Fin cfg2.N) (k : Fin 128) (q : Fin 128) :
    (iblk2 V c 4 t : Vec Ideal S128x128 .f32) (ix2 k q) = (V c main_arg10 : Vec Ideal S128x128 .f32) (ix2 k q) := by
  have e := idx_facts2 t
  show V c main_arg10 (((cfg2.win 4).blk t).view.emb (ix2 k q)) = V c main_arg10 (ix2 k q)
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- The second bias' block at every point is the whole vector. -/
theorem iblk2_5_apply (c : Dev nD) (t : Fin cfg2.N) (q : Fin 128) :
    (iblk2 V c 5 t : Vec Ideal S128 .f32) (ix1 q) = (V c main_arg11 : Vec Ideal S128 .f32) (ix1 q) := by
  have e := idx_facts2 t
  show V c main_arg11 (((cfg2.win 5).blk t).view.emb (ix1 q)) = V c main_arg11 (ix1 q)
  refine congrArg _ (funext fun a => Fin.ext ?_)
  match a with
  | ⟨0, _⟩ => show win2_5.index t (0 : Fin 1) * 128 + 1 * q.val = q.val; omega

/-- What point t writes back is block t of the node update of the arrays as the region finds them. -/
theorem flushed2_eq (c : Dev nD) (t : Fin cfg2.N) :
    (dat2 (F := Ideal) V c).flushed 6 t = ((cfg2.win 6).blk t).view.read (Elt Ideal)
      (Cert.Dense.mlp (M := 40000) (D := 128) (V c main_v4) (V c main_v18) (V c main_arg8) (V c main_arg9) (V c main_arg10) (V c main_arg11)) := by
  show (cfg2.win 6).cut (grid2.coords t) ((dat2 V c).after 6 t) = _
  rw [after2_6]
  unfold out2_6
  rw [View.canon_unit_zero hz2_r2]
  simp only [View.ld_unit_zero (S := S5000x128) hz2_r2, View.ld_unit_zero (S := S128x128) hz2_r2, View.ld_unit_zero (S := S128) hz2_r1]
  refine funext fun (j : S5000x128.Idx) => ?_
  obtain ⟨p, q, rfl⟩ : ∃ (p : Fin 5000) (q : Fin 128), j = ix2 p q := ⟨j 0, j 1, eq_ix2 j⟩
  have e := idx_facts2 t
  have ht : t.val < 8 := lt_of_lt_of_eq t.isLt N_2
  show k2_pay1 (iblk2 V c 0 t) (iblk2 V c 1 t) (iblk2 V c 2 t) (iblk2 V c 3 t) (iblk2 V c 4 t) (iblk2 V c 5 t) (ix2 p q)
    = Cert.Dense.mlp (M := 40000) (D := 128) (V c main_v4) (V c main_v18) (V c main_arg8) (V c main_arg9) (V c main_arg10) (V c main_arg11) (((cfg2.win 6).blk t).view.emb (ix2 p q))
  have hi : ((cfg2.win 6).blk t).view.emb (ix2 p q) = (ix2 (⟨t.val * 5000 + p.val, by omega⟩ : Fin 40000) q : S40000x128.Idx) :=
    funext fun a => Fin.ext (by
      match a with
      | ⟨0, _⟩ => show win2_6.index t (0 : Fin 2) * 5000 + 1 * p.val = t.val * 5000 + p.val; omega
      | ⟨1, _⟩ => show win2_6.index t (1 : Fin 2) * 128 + 1 * q.val = q.val; omega)
  rw [hi]
  exact pay2_eq_mlp _ _ _ _ _ _ _ _ _ _ _ _ p q _ (fun k => iblk2_0_apply V c t p k _ rfl) (fun k => iblk2_1_apply V c t p k _ rfl)
    (fun k q => iblk2_2_apply V c t k q) (fun q => iblk2_3_apply V c t q)
    (fun k q => iblk2_4_apply V c t k q) (fun q => iblk2_5_apply V c t q)

/-- An index of the output array is in point t's block iff each coordinate is in the block's range on its axis. -/
theorem mem_blk2 (t : Fin cfg2.N) (i : S40000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v19).slice (win2_6.rect t)).set ↔ _
  rw [View.set_slice_whole, Rect.mem_set_unit]
  exact Iff.rfl

/-- Row r of the output array is in the block of point r / 5000, which writes back. -/
theorem cover2 (i : S40000x128.Idx) : ∃ t : Fin cfg2.N, (cfg2.win 6).flush t = true ∧ i ∈ ((cfg2.win 6).blk t).view.set := by
  have hi0 : (i 0).val < 40000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 8) N_2.symm⟩, rfl⟩
  refine ⟨t, flush2_6 t, ?_⟩
  rw [mem_blk2]
  have e := idx_facts2 t
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the region is the node update of the region's arrays: relu((h + agg)·W1 + b1)·W2 + b2. -/
theorem final2 (c : Dev nD) : (dat2 (F := Ideal) V c).arrAt 6 cfg2.N
    = Cert.Dense.mlp (M := 40000) (D := 128) (V c main_v4) (V c main_v18) (V c main_arg8) (V c main_arg9) (V c main_arg10) (V c main_arg11) :=
  (dat2 V c).arrAt_eq_of_cover 6 _ (fun t _ => flushed2_eq V c t) cover2

end Cert.KernelIdeal.Hand

end
-- ==== Proof.Final3.lean ====
/-
  Region 3's output array as one function of the region's arrays: one round's node update
  relu((h + agg)·W1 + b1)·W2 + b2 on all 40000 rows, eight blocks of 5000 rows.

  The body's result on its loaded blocks is the node update of the blocks. At grid point t the two row inputs' blocks
  are rows 5000·t … 5000·t + 4999 of their arrays, the weights' and the biases' blocks are the whole arrays, and the
  output's block is the same rows of the result; a row of the node update depends on that row of h and of agg only, so
  what point t writes back is block t of the node update of the whole arrays. Row r lies in the block of point
  r / 5000, so the eight blocks cover the array and it ends holding the node update.
-/
import proofs.«102879_j77541339562639_2_alg».proof.Proof.Body3
import proofs.«102879_j77541339562639_2_alg».proof.Proof.Dense
import proofs.«102879_j77541339562639_2_alg».proof.Proof.LibProduct
import proofs.«102879_j77541339562639_2_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz3_r2 : (![0, 0] : Fin 2 → Nat) = fun _ => 0 := funext fun a => by fin_cases a <;> rfl
theorem hz3_r1 : (![0] : Fin 1 → Nat) = fun _ => 0 := funext fun a => by fin_cases a; rfl

/-- The body's result on blocks is the node update of the blocks: the sum of the two row blocks through the first
    affine layer, the rectifier, and the second affine layer (the casts of a block to its own shape and the narrowings
    to bf16 are the identity on extended reals). -/
theorem pay3_apply (h a : Vec Ideal S5000x128 .f32) (w1 : Vec Ideal S128x128 .f32) (b1 : Vec Ideal S128 .f32)
    (w2 : Vec Ideal S128x128 .f32) (b2 : Vec Ideal S128 .f32) (p : Fin 5000) (q : Fin 128) :
    k3_pay1 h a w1 b1 w2 b2 (ix2 p q) = Cert.Dense.mlp (M := 5000) (D := 128) h a w1 b1 w2 b2 (ix2 p q) := by
  unfold k3_pay1 Cert.Dense.mlp
  simp only [matmul]
  rw [addf_apply, Cert.LibProduct.matmul_zero_apply _ rfl rfl rfl rfl rfl rfl, Cert.LibRowVector.castRow_apply, Cert.Dense.lin_apply]
  refine congrArg (· + b2 (ix1 q)) (Finset.sum_congr rfl fun k _ => ?_)
  rw [truncf_apply, truncf_apply, maximumf_apply, addf_apply, broadcast_apply,
    Cert.LibProduct.matmul_zero_apply _ rfl rfl rfl rfl rfl rfl, Cert.LibRowVector.castRow_apply, Cert.Dense.relu_apply, Cert.Dense.lin_apply]
  simp only [shapeCast_self]
  rfl

/-- The printed index maps, decided over the grid: the two row inputs and the output move one block of rows per point,
    the weights and the biases stay at block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row p of the body's result on blocks that hold row r of H and of A and all of the weights and biases is row r of
    the node update of the whole arrays. -/
theorem pay3_eq_mlp (h a : Vec Ideal S5000x128 .f32) (w1 : Vec Ideal S128x128 .f32) (b1 : Vec Ideal S128 .f32)
    (w2 : Vec Ideal S128x128 .f32) (b2 : Vec Ideal S128 .f32)
    (H A : FVec Ideal ⟨2, ![40000, 128]⟩ .f32) (W1 : FVec Ideal ⟨2, ![128, 128]⟩ .f32) (B1 : FVec Ideal ⟨1, ![128]⟩ .f32)
    (W2 : FVec Ideal ⟨2, ![128, 128]⟩ .f32) (B2 : FVec Ideal ⟨1, ![128]⟩ .f32)
    (p : Fin 5000) (q : Fin 128) (r : Fin 40000)
    (hh : ∀ k : Fin 128, h (ix2 p k) = H (ix2 r k)) (ha : ∀ k : Fin 128, a (ix2 p k) = A (ix2 r k))
    (hw1 : ∀ (k q : Fin 128), w1 (ix2 k q) = W1 (ix2 k q)) (hb1 : ∀ q : Fin 128, b1 (ix1 q) = B1 (ix1 q))
    (hw2 : ∀ (k q : Fin 128), w2 (ix2 k q) = W2 (ix2 k q)) (hb2 : ∀ q : Fin 128, b2 (ix1 q) = B2 (ix1 q)) :
    k3_pay1 h a w1 b1 w2 b2 (ix2 p q) = Cert.Dense.mlp H A W1 B1 W2 B2 (ix2 r q) := by
  obtain rfl : w1 = W1 := funext fun j => by
    obtain ⟨k, q, rfl⟩ : ∃ (k q : Fin 128), j = ix2 k q := ⟨j 0, j 1, eq_ix2 j⟩
    exact hw1 k q
  obtain rfl : w2 = W2 := funext fun j => by
    obtain ⟨k, q, rfl⟩ : ∃ (k q : Fin 128), j = ix2 k q := ⟨j 0, j 1, eq_ix2 j⟩
    exact hw2 k q
  obtain rfl : b1 = B1 := funext fun j => by
    obtain ⟨q, rfl⟩ : ∃ (q : Fin 128), j = ix1 q := ⟨j 0, eq_ix1 j⟩
    exact hb1 q
  obtain rfl : b2 = B2 := funext fun j => by
    obtain ⟨q, rfl⟩ : ∃ (q : Fin 128), j = ix1 q := ⟨j 0, eq_ix1 j⟩
    exact hb2 q
  rw [pay3_apply]
  exact Cert.Dense.mlp_rows h a H A w1 b1 w2 b2 p r q hh ha

/-- The node features' block at point t is rows 5000·t … 5000·t + 4999 of its array. -/
theorem iblk3_0_apply (c : Dev nD) (t : Fin cfg3.N) (p : Fin 5000) (k : Fin 128) (r : Fin 40000) (hr : r.val = t.val * 5000 + p.val) :
    (iblk3 V c 0 t : Vec Ideal S5000x128 .f32) (ix2 p k) = (V c main_v19 : Vec Ideal S40000x128 .f32) (ix2 r k) := by
  have e := idx_facts3 t
  show V c main_v19 (((cfg3.win 0).blk t).view.emb (ix2 p k)) = V c main_v19 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The aggregated messages' block at point t is rows 5000·t … 5000·t + 4999 of its array. -/
theorem iblk3_1_apply (c : Dev nD) (t : Fin cfg3.N) (p : Fin 5000) (k : Fin 128) (r : Fin 40000) (hr : r.val = t.val * 5000 + p.val) :
    (iblk3 V c 1 t : Vec Ideal S5000x128 .f32) (ix2 p k) = (V c main_v35 : Vec Ideal S40000x128 .f32) (ix2 r k) := by
  have e := idx_facts3 t
  show V c main_v35 (((cfg3.win 1).blk t).view.emb (ix2 p k)) = V c main_v35 (ix2 r k)
  refine congrArg _ (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

/-- The first weights' block at every point is the whole array. -/
theorem iblk3_2_apply (c : Dev nD) (t : Fin cfg3.N) (k : Fin 128) (q : Fin 128) :
    (iblk3 V c 2 t : Vec Ideal S128x128 .f32) (ix2 k q) = (V c main_arg8 : Vec Ideal S128x128 .f32) (ix2 k q) := by
  have e := idx_facts3 t
  show V c main_arg8 (((cfg3.win 2).blk t).view.emb (ix2 k q)) = V c main_arg8 (ix2 k q)
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- The first bias' block at every point is the whole vector. -/
theorem iblk3_3_apply (c : Dev nD) (t : Fin cfg3.N) (q : Fin 128) :
    (iblk3 V c 3 t : Vec Ideal S128 .f32) (ix1 q) = (V c main_arg9 : Vec Ideal S128 .f32) (ix1 q) := by
  have e := idx_facts3 t
  show V c main_arg9 (((cfg3.win 3).blk t).view.emb (ix1 q)) = V c main_arg9 (ix1 q)
  refine congrArg _ (funext fun a => Fin.ext ?_)
  match a with
  | ⟨0, _⟩ => show win3_3.index t (0 : Fin 1) * 128 + 1 * q.val = q.val; omega

/-- The second weights' block at every point is the whole array. -/
theorem iblk3_4_apply (c : Dev nD) (t : Fin cfg3.N) (k : Fin 128) (q : Fin 128) :
    (iblk3 V c 4 t : Vec Ideal S128x128 .f32) (ix2 k q) = (V c main_arg10 : Vec Ideal S128x128 .f32) (ix2 k q) := by
  have e := idx_facts3 t
  show V c main_arg10 (((cfg3.win 4).blk t).view.emb (ix2 k q)) = V c main_arg10 (ix2 k q)
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The second bias' block at every point is the whole vector. -/
theorem iblk3_5_apply (c : Dev nD) (t : Fin cfg3.N) (q : Fin 128) :
    (iblk3 V c 5 t : Vec Ideal S128 .f32) (ix1 q) = (V c main_arg11 : Vec Ideal S128 .f32) (ix1 q) := by
  have e := idx_facts3 t
  show V c main_arg11 (((cfg3.win 5).blk t).view.emb (ix1 q)) = V c main_arg11 (ix1 q)
  refine congrArg _ (funext fun a => Fin.ext ?_)
  match a with
  | ⟨0, _⟩ => show win3_5.index t (0 : Fin 1) * 128 + 1 * q.val = q.val; omega

/-- What point t writes back is block t of the node update of the arrays as the region finds them. -/
theorem flushed3_eq (c : Dev nD) (t : Fin cfg3.N) :
    (dat3 (F := Ideal) V c).flushed 6 t = ((cfg3.win 6).blk t).view.read (Elt Ideal)
      (Cert.Dense.mlp (M := 40000) (D := 128) (V c main_v19) (V c main_v35) (V c main_arg8) (V c main_arg9) (V c main_arg10) (V c main_arg11)) := by
  show (cfg3.win 6).cut (grid3.coords t) ((dat3 V c).after 6 t) = _
  rw [after3_6]
  unfold out3_6
  rw [View.canon_unit_zero hz3_r2]
  simp only [View.ld_unit_zero (S := S5000x128) hz3_r2, View.ld_unit_zero (S := S128x128) hz3_r2, View.ld_unit_zero (S := S128) hz3_r1]
  refine funext fun (j : S5000x128.Idx) => ?_
  obtain ⟨p, q, rfl⟩ : ∃ (p : Fin 5000) (q : Fin 128), j = ix2 p q := ⟨j 0, j 1, eq_ix2 j⟩
  have e := idx_facts3 t
  have ht : t.val < 8 := lt_of_lt_of_eq t.isLt N_3
  show k3_pay1 (iblk3 V c 0 t) (iblk3 V c 1 t) (iblk3 V c 2 t) (iblk3 V c 3 t) (iblk3 V c 4 t) (iblk3 V c 5 t) (ix2 p q)
    = Cert.Dense.mlp (M := 40000) (D := 128) (V c main_v19) (V c main_v35) (V c main_arg8) (V c main_arg9) (V c main_arg10) (V c main_arg11) (((cfg3.win 6).blk t).view.emb (ix2 p q))
  have hi : ((cfg3.win 6).blk t).view.emb (ix2 p q) = (ix2 (⟨t.val * 5000 + p.val, by omega⟩ : Fin 40000) q : S40000x128.Idx) :=
    funext fun a => Fin.ext (by
      match a with
      | ⟨0, _⟩ => show win3_6.index t (0 : Fin 2) * 5000 + 1 * p.val = t.val * 5000 + p.val; omega
      | ⟨1, _⟩ => show win3_6.index t (1 : Fin 2) * 128 + 1 * q.val = q.val; omega)
  rw [hi]
  exact pay3_eq_mlp _ _ _ _ _ _ _ _ _ _ _ _ p q _ (fun k => iblk3_0_apply V c t p k _ rfl) (fun k => iblk3_1_apply V c t p k _ rfl)
    (fun k q => iblk3_2_apply V c t k q) (fun q => iblk3_3_apply V c t q)
    (fun k q => iblk3_4_apply V c t k q) (fun q => iblk3_5_apply V c t q)

/-- An index of the output array is in point t's block iff each coordinate is in the block's range on its axis. -/
theorem mem_blk3 (t : Fin cfg3.N) (i : S40000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v36).slice (win3_6.rect t)).set ↔ _
  rw [View.set_slice_whole, Rect.mem_set_unit]
  exact Iff.rfl

/-- Row r of the output array is in the block of point r / 5000, which writes back. -/
theorem cover3 (i : S40000x128.Idx) : ∃ t : Fin cfg3.N, (cfg3.win 6).flush t = true ∧ i ∈ ((cfg3.win 6).blk t).view.set := by
  have hi0 : (i 0).val < 40000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 8) N_3.symm⟩, rfl⟩
  refine ⟨t, flush3_6 t, ?_⟩
  rw [mem_blk3]
  have e := idx_facts3 t
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The output array after the region is the node update of the region's arrays: relu((h + agg)·W1 + b1)·W2 + b2. -/
theorem final3 (c : Dev nD) : (dat3 (F := Ideal) V c).arrAt 6 cfg3.N
    = Cert.Dense.mlp (M := 40000) (D := 128) (V c main_v19) (V c main_v35) (V c main_arg8) (V c main_arg9) (V c main_arg10) (V c main_arg11) :=
  (dat3 V c).arrAt_eq_of_cover 6 _ (fun t _ => flushed3_eq V c t) cover3

end Cert.KernelIdeal.Hand

end
-- ==== Proof.Final4.lean ====
/-
  Region 4's output array as one function of the region's arrays: one round's node update
  relu((h + agg)·W1 + b1)·W2 + b2 on all 40000 rows, eight blocks of 5000 rows.

  The body's result on its loaded blocks is the node update of the blocks. At grid point t the two row inputs' blocks
  are rows 5000·t … 5000·t + 4999 of their arrays, the weights' and the biases' blocks are the whole arrays, and the
  output's block is the same rows of the result; a row of the node update depends on that row of h and of agg only, so
  what point t writes back is block t of the node update of the whole arrays. Row r lies in the block of point
  r / 5000, so the eight blocks cover the array and it ends holding the node update.
-/
import proofs.«102879_j77541339562639_2_alg».proof.Proof.Body4
import proofs.«102879_j77541339562639_2_alg».proof.Proof.Dense
import proofs.«102879_j77541339562639_2_alg».proof.Proof.LibProduct
import proofs.«102879_j77541339562639_2_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz4_r2 : (![0, 0] : Fin 2 → Nat) = fun _ => 0 := funext fun a => by fin_cases a <;> rfl
theorem hz4_r1 : (![0] : Fin 1 → Nat) = fun _ => 0 := funext fun a => by fin_cases a; rfl

/-- The body's result on blocks is the node update of the blocks: the sum of the two row blocks through the first
    affine layer, the rectifier, and the second affine layer (the casts of a block to its own shape and the narrowings
    to bf16 are the identity on extended reals). -/
theorem pay4_apply (h a : Vec Ideal S5000x128 .f32) (w1 : Vec Ideal S128x128 .f32) (b1 : Vec Ideal S128 .f32)
    (w2 : Vec Ideal S128x128 .f32) (b2 : Vec Ideal S128 .f32) (p : Fin 5000) (q : Fin 128) :
    k4_pay1 h a w1 b1 w2 b2 (ix2 p q) = Cert.Dense.mlp (M := 5000) (D := 128) h a w1 b1 w2 b2 (ix2 p q) := by
  unfold k4_pay1 Cert.Dense.mlp
  simp only [matmul]
  rw [addf_apply, Cert.LibProduct.matmul_zero_apply _ rfl rfl rfl rfl rfl rfl, Cert.LibRowVector.castRow_apply, Cert.Dense.lin_apply]
  refine congrArg (· + b2 (ix1 q)) (Finset.sum_congr rfl fun k _ => ?_)
  rw [truncf_apply, truncf_apply, maximumf_apply, addf_apply, broadcast_apply,
    Cert.LibProduct.matmul_zero_apply _ rfl rfl rfl rfl rfl rfl, Cert.LibRowVector.castRow_apply, Cert.Dense.relu_apply, Cert.Dense.lin_apply]
  simp only [shapeCast_self]
  rfl

/-- The printed index maps, decided over the grid: the two row inputs and the output move one block of rows per point,
    the weights and the biases stay at block 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Row p of the body's result on blocks that hold row r of H and of A and all of the weights and biases is row r of
    the node update of the whole arrays. -/
theorem pay4_eq_mlp (h a : Vec Ideal S5000x128 .f32) (w1 : Vec Ideal S128x128 .f32) (b1 : Vec Ideal S128 .f32)
    (w2 : Vec Ideal S128x128 .f32) (b2 : Vec Ideal S128 .f32)
    (H A : FVec Ideal ⟨2, ![40000, 128]⟩ .f32) (W1 : FVec Ideal ⟨2, ![128, 128]⟩ .f32) (B1 : FVec Ideal ⟨1, ![128]⟩ .f32)
    (W2 : FVec Ideal ⟨2, ![128, 128]⟩ .f32) (B2 : FVec Ideal ⟨1, ![128]⟩ .f32)
    (p : Fin 5000) (q : Fin 128) (r : Fin 40000)
    (hh : ∀ k : Fin 128, h (ix2 p k) = H (ix2 r k)) (ha : ∀ k : Fin 128, a (ix2 p k) = A (ix2 r k))
    (hw1 : ∀ (k q : Fin 128), w1 (ix2 k q) = W1 (ix2 k q)) (hb1 : ∀ q : Fin 128, b1 (ix1 q) = B1 (ix1 q))
    (hw2 : ∀ (k q : Fin 128), w2 (ix2 k q) = W2 (ix2 k q)) (hb2 : ∀ q : Fin 128, b2 (ix1 q) = B2 (ix1 q)) :
    k4_pay1 h a w1 b1 w2 b2 (ix2 p q) = Cert.Dense.mlp H A W1 B1 W2 B2 (ix2 r q) := by
  obtain rfl : w1 = W1 := funext fun j => by
    obtain ⟨k, q, rfl⟩ : ∃ (k q : Fin 128), j = ix2 k q := ⟨j 0, j 1, eq_ix2 j⟩
    exact hw1 k q
  obtain rfl : w2 = W2 := funext fun j => by
    obtain ⟨k, q, rfl⟩ : ∃ (k q : Fin 128), j = ix2 k q := ⟨j 0, j 1, eq_ix2 j⟩
    exact hw2 k q
  obtain rfl : b1 = B1 := funext fun j => by
    obtain ⟨q, rfl⟩ : ∃ (q : Fin 128), j = ix1 q := ⟨j 0, eq_ix1 j⟩
    exact hb1 q
  obtain rfl : b2 = B2 := funext fun j => by
    obtain ⟨q, rfl⟩ : ∃ (q : Fin 128), j = ix1 q := ⟨j 0, eq_ix1 j⟩
    exact hb2 q
  rw [pay4_apply]
  exact Cert.Dense.mlp_rows h a H A w1 b1 w2 b2 p r q hh ha

/-- The node features' block at point t is rows 5000·t … 5000·t + 4999 of its array. -/
theorem iblk4_0_apply (c : Dev nD) (t : Fin cfg4.N) (p : Fin 5000) (k : Fin 128) (r : Fin 40000) (hr : r.val = t.val * 5000 + p.val) :
    (iblk4 V c 0 t : Vec Ideal S5000x128 .f32) (ix2 p k) = (V c main_v36 : Vec Ideal S40000x128 .f32) (ix2 r k) := by
  have e := idx_facts4 t
  show V c main_v36 (((cfg4.win 0).blk t).view.emb (ix2 p k)) = V c main_v36 (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The aggregated messages' block at point t is rows 5000·t … 5000·t + 4999 of its array. -/
theorem iblk4_1_apply (c : Dev nD) (t : Fin cfg4.N) (p : Fin 5000) (k : Fin 128) (r : Fin 40000) (hr : r.val = t.val * 5000 + p.val) :
    (iblk4 V c 1 t : Vec Ideal S5000x128 .f32) (ix2 p k) = (V c main_v52 : Vec Ideal S40000x128 .f32) (ix2 r k) := by
  have e := idx_facts4 t
  show V c main_v52 (((cfg4.win 1).blk t).view.emb (ix2 p k)) = V c main_v52 (ix2 r k)
  refine congrArg _ (funext fun a => Fin.ext ?_)
  match a with
  | ⟨0, _⟩ => show win4_1.index t (0 : Fin 2) * 5000 + 1 * p.val = r.val; omega
  | ⟨1, _⟩ => show win4_1.index t (1 : Fin 2) * 128 + 1 * k.val = k.val; omega

/-- The first weights' block at every point is the whole array. -/
theorem iblk4_2_apply (c : Dev nD) (t : Fin cfg4.N) (k : Fin 128) (q : Fin 128) :
    (iblk4 V c 2 t : Vec Ideal S128x128 .f32) (ix2 k q) = (V c main_arg8 : Vec Ideal S128x128 .f32) (ix2 k q) := by
  have e := idx_facts4 t
  show V c main_arg8 (((cfg4.win 2).blk t).view.emb (ix2 k q)) = V c main_arg8 (ix2 k q)
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- The first bias' block at every point is the whole vector. -/
theorem iblk4_3_apply (c : Dev nD) (t : Fin cfg4.N) (q : Fin 128) :
    (iblk4 V c 3 t : Vec Ideal S128 .f32) (ix1 q) = (V c main_arg9 : Vec Ideal S128 .f32) (ix1 q) := by
  have e := idx_facts4 t
  show V c main_arg9 (((cfg4.win 3).blk t).view.emb (ix1 q)) = V c main_arg9 (ix1 q)
  refine congrArg _ (funext fun a => Fin.ext ?_)
  match a with
  | ⟨0, _⟩ => show win4_3.index t (0 : Fin 1) * 128 + 1 * q.val = q.val; omega

/-- The second weights' block at every point is the whole array. -/
theorem iblk4_4_apply (c : Dev nD) (t : Fin cfg4.N) (k : Fin 128) (q : Fin 128) :
    (iblk4 V c 4 t : Vec Ideal S128x128 .f32) (ix2 k q) = (V c main_arg10 : Vec Ideal S128x128 .f32) (ix2 k q) := by
  have e := idx_facts4 t
  show V c main_arg10 (((cfg4.win 4).blk t).view.emb (ix2 k q)) = V c main_arg10 (ix2 k q)
  refine congrArg _ (funext fun a => Fin.ext ?_)
  match a with
  | ⟨0, _⟩ => show win4_4.index t (0 : Fin 2) * 128 + 1 * k.val = k.val; omega
  | ⟨1, _⟩ => show win4_4.index t (1 : Fin 2) * 128 + 1 * q.val = q.val; omega

/-- The second bias' block at every point is the whole vector. -/
theorem iblk4_5_apply (c : Dev nD) (t : Fin cfg4.N) (q : Fin 128) :
    (iblk4 V c 5 t : Vec Ideal S128 .f32) (ix1 q) = (V c main_arg11 : Vec Ideal S128 .f32) (ix1 q) := by
  have e := idx_facts4 t
  show V c main_arg11 (((cfg4.win 5).blk t).view.emb (ix1 q)) = V c main_arg11 (ix1 q)
  refine congrArg _ (funext fun a => Fin.ext ?_)
  match a with
  | ⟨0, _⟩ => show win4_5.index t (0 : Fin 1) * 128 + 1 * q.val = q.val; omega

/-- What point t writes back is block t of the node update of the arrays as the region finds them. -/
theorem flushed4_eq (c : Dev nD) (t : Fin cfg4.N) :
    (dat4 (F := Ideal) V c).flushed 6 t = ((cfg4.win 6).blk t).view.read (Elt Ideal)
      (Cert.Dense.mlp (M := 40000) (D := 128) (V c main_v36) (V c main_v52) (V c main_arg8) (V c main_arg9) (V c main_arg10) (V c main_arg11)) := by
  show (cfg4.win 6).cut (grid4.coords t) ((dat4 V c).after 6 t) = _
  rw [after4_6]
  unfold out4_6
  rw [View.canon_unit_zero hz4_r2]
  simp only [View.ld_unit_zero (S := S5000x128) hz4_r2, View.ld_unit_zero (S := S128x128) hz4_r2, View.ld_unit_zero (S := S128) hz4_r1]
  refine funext fun (j : S5000x128.Idx) => ?_
  obtain ⟨p, q, rfl⟩ : ∃ (p : Fin 5000) (q : Fin 128), j = ix2 p q := ⟨j 0, j 1, eq_ix2 j⟩
  have e := idx_facts4 t
  have ht : t.val < 8 := lt_of_lt_of_eq t.isLt N_4
  show k4_pay1 (iblk4 V c 0 t) (iblk4 V c 1 t) (iblk4 V c 2 t) (iblk4 V c 3 t) (iblk4 V c 4 t) (iblk4 V c 5 t) (ix2 p q)
    = Cert.Dense.mlp (M := 40000) (D := 128) (V c main_v36) (V c main_v52) (V c main_arg8) (V c main_arg9) (V c main_arg10) (V c main_arg11) (((cfg4.win 6).blk t).view.emb (ix2 p q))
  have hi : ((cfg4.win 6).blk t).view.emb (ix2 p q) = (ix2 (⟨t.val * 5000 + p.val, by omega⟩ : Fin 40000) q : S40000x128.Idx) :=
    funext fun a => Fin.ext (by
      match a with
      | ⟨0, _⟩ => show win4_6.index t (0 : Fin 2) * 5000 + 1 * p.val = t.val * 5000 + p.val; omega
      | ⟨1, _⟩ => show win4_6.index t (1 : Fin 2) * 128 + 1 * q.val = q.val; omega)
  rw [hi]
  exact pay4_eq_mlp _ _ _ _ _ _ _ _ _ _ _ _ p q _ (fun k => iblk4_0_apply V c t p k _ rfl) (fun k => iblk4_1_apply V c t p k _ rfl)
    (fun k q => iblk4_2_apply V c t k q) (fun q => iblk4_3_apply V c t q)
    (fun k q => iblk4_4_apply V c t k q) (fun q => iblk4_5_apply V c t q)

/-- An index of the output array is in point t's block iff each coordinate is in the block's range on its axis. -/
theorem mem_blk4 (t : Fin cfg4.N) (i : S40000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v53).slice (win4_6.rect t)).set ↔ _
  rw [View.set_slice_whole, Rect.mem_set_unit]
  exact Iff.rfl

/-- Row r of the output array is in the block of point r / 5000, which writes back. -/
theorem cover4 (i : S40000x128.Idx) : ∃ t : Fin cfg4.N, (cfg4.win 6).flush t = true ∧ i ∈ ((cfg4.win 6).blk t).view.set := by
  have hi0 : (i 0).val < 40000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega : (i 0).val / 5000 < 8) N_4.symm⟩, rfl⟩
  refine ⟨t, flush4_6 t, ?_⟩
  rw [mem_blk4]
  have e := idx_facts4 t
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The output array after the region is the node update of the region's arrays: relu((h + agg)·W1 + b1)·W2 + b2. -/
theorem final4 (c : Dev nD) : (dat4 (F := Ideal) V c).arrAt 6 cfg4.N
    = Cert.Dense.mlp (M := 40000) (D := 128) (V c main_v36) (V c main_v52) (V c main_arg8) (V c main_arg9) (V c main_arg10) (V c main_arg11) :=
  (dat4 V c).arrAt_eq_of_cover 6 _ (fun t _ => flushed4_eq V c t) cover4

end Cert.KernelIdeal.Hand

end
-- ==== Proof.Final5.lean ====
/-
  Region 5's output array as one function of the region's arrays: one round's node update
  relu((h + agg)·W1 + b1)·W2 + b2 on all 40000 rows, eight blocks of 5000 rows.

  The body's result on its loaded blocks is the node update of the blocks. At grid point t the two row inputs' blocks
  are rows 5000·t … 5000·t + 4999 of their arrays, the weights' and the biases' blocks are the whole arrays, and the
  output's block is the same rows of the result; a row of the node update depends on that row of h and of agg only, so
  what point t writes back is block t of the node update of the whole arrays. Row r lies in the block of point
  r / 5000, so the eight blocks cover the array and it ends holding the node update.
-/
import proofs.«102879_j77541339562639_2_alg».proof.Proof.Body5
import proofs.«102879_j77541339562639_2_alg».proof.Proof.Dense
import proofs.«102879_j77541339562639_2_alg».proof.Proof.LibProduct
import proofs.«102879_j77541339562639_2_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz5_r2 : (![0, 0] : Fin 2 → Nat) = fun _ => 0 := funext fun a => by fin_cases a <;> rfl
theorem hz5_r1 : (![0] : Fin 1 → Nat) = fun _ => 0 := funext fun a => by fin_cases a; rfl

/-- The body's result on blocks is the node update of the blocks: the sum of the two row blocks through the first
    affine layer, the rectifier, and the second affine layer (the casts of a block to its own shape and the narrowings
    to bf16 are the identity on extended reals). -/
theorem pay5_apply (h a : Vec Ideal S5000x128 .f32) (w1 : Vec Ideal S128x128 .f32) (b1 : Vec Ideal S128 .f32)
    (w2 : Vec Ideal S128x128 .f32) (b2 : Vec Ideal S128 .f32) (p : Fin 5000) (q : Fin 128) :
    k5_pay1 h a w1 b1 w2 b2 (ix2 p q) = Cert.Dense.mlp (M := 5000) (D := 128) h a w1 b1 w2 b2 (ix2 p q) := by
  unfold k5_pay1 Cert.Dense.mlp
  simp only [matmul]
  rw [addf_apply, Cert.LibProduct.matmul_zero_apply _ rfl rfl rfl rfl rfl rfl, Cert.LibRowVector.castRow_apply, Cert.Dense.lin_apply]
  refine congrArg (· + b2 (ix1 q)) (Finset.sum_congr rfl fun k _ => ?_)
  rw [truncf_apply, truncf_apply, maximumf_apply, addf_apply, broadcast_apply,
    Cert.LibProduct.matmul_zero_apply _ rfl rfl rfl rfl rfl rfl, Cert.LibRowVector.castRow_apply, Cert.Dense.relu_apply, Cert.Dense.lin_apply]
  simp only [shapeCast_self]
  rfl

/-- The printed index maps, decided over the grid: the two row inputs and the output move one block of rows per point,
    the weights and the biases stay at block 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- Row p of the body's result on blocks that hold row r of H and of A and all of the weights and biases is row r of
    the node update of the whole arrays. -/
theorem pay5_eq_mlp (h a : Vec Ideal S5000x128 .f32) (w1 : Vec Ideal S128x128 .f32) (b1 : Vec Ideal S128 .f32)
    (w2 : Vec Ideal S128x128 .f32) (b2 : Vec Ideal S128 .f32)
    (H A : FVec Ideal ⟨2, ![40000, 128]⟩ .f32) (W1 : FVec Ideal ⟨2, ![128, 128]⟩ .f32) (B1 : FVec Ideal ⟨1, ![128]⟩ .f32)
    (W2 : FVec Ideal ⟨2, ![128, 128]⟩ .f32) (B2 : FVec Ideal ⟨1, ![128]⟩ .f32)
    (p : Fin 5000) (q : Fin 128) (r : Fin 40000)
    (hh : ∀ k : Fin 128, h (ix2 p k) = H (ix2 r k)) (ha : ∀ k : Fin 128, a (ix2 p k) = A (ix2 r k))
    (hw1 : ∀ (k q : Fin 128), w1 (ix2 k q) = W1 (ix2 k q)) (hb1 : ∀ q : Fin 128, b1 (ix1 q) = B1 (ix1 q))
    (hw2 : ∀ (k q : Fin 128), w2 (ix2 k q) = W2 (ix2 k q)) (hb2 : ∀ q : Fin 128, b2 (ix1 q) = B2 (ix1 q)) :
    k5_pay1 h a w1 b1 w2 b2 (ix2 p q) = Cert.Dense.mlp H A W1 B1 W2 B2 (ix2 r q) := by
  obtain rfl : w1 = W1 := funext fun j => by
    obtain ⟨k, q, rfl⟩ : ∃ (k q : Fin 128), j = ix2 k q := ⟨j 0, j 1, eq_ix2 j⟩
    exact hw1 k q
  obtain rfl : w2 = W2 := funext fun j => by
    obtain ⟨k, q, rfl⟩ : ∃ (k q : Fin 128), j = ix2 k q := ⟨j 0, j 1, eq_ix2 j⟩
    exact hw2 k q
  obtain rfl : b1 = B1 := funext fun j => by
    obtain ⟨q, rfl⟩ : ∃ (q : Fin 128), j = ix1 q := ⟨j 0, eq_ix1 j⟩
    exact hb1 q
  obtain rfl : b2 = B2 := funext fun j => by
    obtain ⟨q, rfl⟩ : ∃ (q : Fin 128), j = ix1 q := ⟨j 0, eq_ix1 j⟩
    exact hb2 q
  rw [pay5_apply]
  exact Cert.Dense.mlp_rows h a H A w1 b1 w2 b2 p r q hh ha

/-- The node features' block at point t is rows 5000·t … 5000·t + 4999 of its array. -/
theorem iblk5_0_apply (c : Dev nD) (t : Fin cfg5.N) (p : Fin 5000) (k : Fin 128) (r : Fin 40000) (hr : r.val = t.val * 5000 + p.val) :
    (iblk5 V c 0 t : Vec Ideal S5000x128 .f32) (ix2 p k) = (V c main_v53 : Vec Ideal S40000x128 .f32) (ix2 r k) := by
  have e := idx_facts5 t
  show V c main_v53 (((cfg5.win 0).blk t).view.emb (ix2 p k)) = V c main_v53 (ix2 r k)
  refine congrArg _ (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

/-- The aggregated messages' block at point t is rows 5000·t … 5000·t + 4999 of its array. -/
theorem iblk5_1_apply (c : Dev nD) (t : Fin cfg5.N) (p : Fin 5000) (k : Fin 128) (r : Fin 40000) (hr : r.val = t.val * 5000 + p.val) :
    (iblk5 V c 1 t : Vec Ideal S5000x128 .f32) (ix2 p k) = (V c main_v69 : Vec Ideal S40000x128 .f32) (ix2 r k) := by
  have e := idx_facts5 t
  show V c main_v69 (((cfg5.win 1).blk t).view.emb (ix2 p k)) = V c main_v69 (ix2 r k)
  refine congrArg _ (funext fun a => Fin.ext ?_)
  match a with
  | ⟨0, _⟩ => show win5_1.index t (0 : Fin 2) * 5000 + 1 * p.val = r.val; omega
  | ⟨1, _⟩ => show win5_1.index t (1 : Fin 2) * 128 + 1 * k.val = k.val; omega

/-- The first weights' block at every point is the whole array. -/
theorem iblk5_2_apply (c : Dev nD) (t : Fin cfg5.N) (k : Fin 128) (q : Fin 128) :
    (iblk5 V c 2 t : Vec Ideal S128x128 .f32) (ix2 k q) = (V c main_arg8 : Vec Ideal S128x128 .f32) (ix2 k q) := by
  have e := idx_facts5 t
  show V c main_arg8 (((cfg5.win 2).blk t).view.emb (ix2 k q)) = V c main_arg8 (ix2 k q)
  refine congrArg _ (funext fun a => Fin.ext ?_)
  match a with
  | ⟨0, _⟩ => show win5_2.index t (0 : Fin 2) * 128 + 1 * k.val = k.val; omega
  | ⟨1, _⟩ => show win5_2.index t (1 : Fin 2) * 128 + 1 * q.val = q.val; omega

/-- The first bias' block at every point is the whole vector. -/
theorem iblk5_3_apply (c : Dev nD) (t : Fin cfg5.N) (q : Fin 128) :
    (iblk5 V c 3 t : Vec Ideal S128 .f32) (ix1 q) = (V c main_arg9 : Vec Ideal S128 .f32) (ix1 q) := by
  have e := idx_facts5 t
  show V c main_arg9 (((cfg5.win 3).blk t).view.emb (ix1 q)) = V c main_arg9 (ix1 q)
  refine congrArg _ (funext fun a => Fin.ext ?_)
  match a with
  | ⟨0, _⟩ => show win5_3.index t (0 : Fin 1) * 128 + 1 * q.val = q.val; omega

/-- The second weights' block at every point is the whole array. -/
theorem iblk5_4_apply (c : Dev nD) (t : Fin cfg5.N) (k : Fin 128) (q : Fin 128) :
    (iblk5 V c 4 t : Vec Ideal S128x128 .f32) (ix2 k q) = (V c main_arg10 : Vec Ideal S128x128 .f32) (ix2 k q) := by
  have e := idx_facts5 t
  show V c main_arg10 (((cfg5.win 4).blk t).view.emb (ix2 k q)) = V c main_arg10 (ix2 k q)
  refine congrArg _ (funext fun a => Fin.ext ?_)
  match a with
  | ⟨0, _⟩ => show win5_4.index t (0 : Fin 2) * 128 + 1 * k.val = k.val; omega
  | ⟨1, _⟩ => show win5_4.index t (1 : Fin 2) * 128 + 1 * q.val = q.val; omega

/-- The second bias' block at every point is the whole vector. -/
theorem iblk5_5_apply (c : Dev nD) (t : Fin cfg5.N) (q : Fin 128) :
    (iblk5 V c 5 t : Vec Ideal S128 .f32) (ix1 q) = (V c main_arg11 : Vec Ideal S128 .f32) (ix1 q) := by
  have e := idx_facts5 t
  show V c main_arg11 (((cfg5.win 5).blk t).view.emb (ix1 q)) = V c main_arg11 (ix1 q)
  refine congrArg _ (funext fun a => Fin.ext ?_)
  match a with
  | ⟨0, _⟩ => show win5_5.index t (0 : Fin 1) * 128 + 1 * q.val = q.val; omega

/-- What point t writes back is block t of the node update of the arrays as the region finds them. -/
theorem flushed5_eq (c : Dev nD) (t : Fin cfg5.N) :
    (dat5 (F := Ideal) V c).flushed 6 t = ((cfg5.win 6).blk t).view.read (Elt Ideal)
      (Cert.Dense.mlp (M := 40000) (D := 128) (V c main_v53) (V c main_v69) (V c main_arg8) (V c main_arg9) (V c main_arg10) (V c main_arg11)) := by
  show (cfg5.win 6).cut (grid5.coords t) ((dat5 V c).after 6 t) = _
  rw [after5_6]
  unfold out5_6
  rw [View.canon_unit_zero hz5_r2]
  simp only [View.ld_unit_zero (S := S5000x128) hz5_r2, View.ld_unit_zero (S := S128x128) hz5_r2, View.ld_unit_zero (S := S128) hz5_r1]
  refine funext fun (j : S5000x128.Idx) => ?_
  obtain ⟨p, q, rfl⟩ : ∃ (p : Fin 5000) (q : Fin 128), j = ix2 p q := ⟨j 0, j 1, eq_ix2 j⟩
  have e := idx_facts5 t
  have ht : t.val < 8 := lt_of_lt_of_eq t.isLt N_5
  show k5_pay1 (iblk5 V c 0 t) (iblk5 V c 1 t) (iblk5 V c 2 t) (iblk5 V c 3 t) (iblk5 V c 4 t) (iblk5 V c 5 t) (ix2 p q)
    = Cert.Dense.mlp (M := 40000) (D := 128) (V c main_v53) (V c main_v69) (V c main_arg8) (V c main_arg9) (V c main_arg10) (V c main_arg11) (((cfg5.win 6).blk t).view.emb (ix2 p q))
  have hi : ((cfg5.win 6).blk t).view.emb (ix2 p q) = (ix2 (⟨t.val * 5000 + p.val, by omega⟩ : Fin 40000) q : S40000x128.Idx) :=
    funext fun a => Fin.ext (by
      match a with
      | ⟨0, _⟩ => show win5_6.index t (0 : Fin 2) * 5000 + 1 * p.val = t.val * 5000 + p.val; omega
      | ⟨1, _⟩ => show win5_6.index t (1 : Fin 2) * 128 + 1 * q.val = q.val; omega)
  rw [hi]
  exact pay5_eq_mlp _ _ _ _ _ _ _ _ _ _ _ _ p q _ (fun k => iblk5_0_apply V c t p k _ rfl) (fun k => iblk5_1_apply V c t p k _ rfl)
    (fun k q => iblk5_2_apply V c t k q) (fun q => iblk5_3_apply V c t q)
    (fun k q => iblk5_4_apply V c t k q) (fun q => iblk5_5_apply V c t q)

/-- An index of the output array is in point t's block iff each coordinate is in the block's range on its axis. -/
theorem mem_blk5 (t : Fin cfg5.N) (i : S40000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v70).slice (win5_6.rect t)).set ↔ _
  rw [View.set_slice_whole, Rect.mem_set_unit]
  exact Iff.rfl

/-- Row r of the output array is in the block of point r / 5000, which writes back. -/
theorem cover5 (i : S40000x128.Idx) : ∃ t : Fin cfg5.N, (cfg5.win 6).flush t = true ∧ i ∈ ((cfg5.win 6).blk t).view.set := by
  have hi0 : (i 0).val < 40000 := (i 0).isLt
  have hi1 : (i 1).val < 128 := (i 1).isLt
  obtain ⟨t, ht⟩ : ∃ t : Fin cfg5.N, t.val = (i 0).val / 5000 :=
    ⟨⟨(i 0).val / 5000, lt_of_lt_of_eq (by omega : (i 0).val / 5000 < 8) N_5.symm⟩, rfl⟩
  refine ⟨t, flush5_6 t, ?_⟩
  rw [mem_blk5]
  have e := idx_facts5 t
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- The output array after the region is the node update of the region's arrays: relu((h + agg)·W1 + b1)·W2 + b2. -/
theorem final5 (c : Dev nD) : (dat5 (F := Ideal) V c).arrAt 6 cfg5.N
    = Cert.Dense.mlp (M := 40000) (D := 128) (V c main_v53) (V c main_v69) (V c main_arg8) (V c main_arg9) (V c main_arg10) (V c main_arg11) :=
  (dat5 V c).arrAt_eq_of_cover 6 _ (fun t _ => flushed5_eq V c t) cover5

end Cert.KernelIdeal.Hand

end
-- ==== Proof.Final6.lean ====
/-
  Region 6's output array as one function of the region's arrays: the affine layer of the 64 pooled rows, in one
  block.

  The body's result at an entry (p, q) is ∑ k, x (p, k) · W (k, q) + b q of the blocks it loaded (the cast of the
  first block to its own shape and the narrowings to bf16 are the identity on extended reals). The grid has one point,
  at which every window's block is its whole array, so what the point writes back is the layer of the whole arrays, and
  its block covers the output array.
-/
import proofs.«102879_j77541339562639_2_alg».proof.Proof.Body6
import proofs.«102879_j77541339562639_2_alg».proof.Proof.Dense
import proofs.«102879_j77541339562639_2_alg».proof.Proof.LibProduct
import proofs.«102879_j77541339562639_2_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz6_r2 : (![0, 0] : Fin 2 → Nat) = fun _ => 0 := funext fun a => by fin_cases a <;> rfl
theorem hz6_r1 : (![0] : Fin 1 → Nat) = fun _ => 0 := funext fun a => by fin_cases a; rfl

/-- The body's result at an entry: the row of the first block against the column of the second, plus the bias. -/
theorem pay6_apply (x : Vec Ideal S64x512 .f32) (w : Vec Ideal S512x256 .f32) (b : Vec Ideal S256 .f32) (p : Fin 64) (q : Fin 256) :
    k6_pay1 x w b (ix2 p q) = (∑ k : Fin 512, x (ix2 p k) * w (ix2 k q)) + b (ix1 q) := by
  unfold k6_pay1
  simp only [matmul]
  rw [shapeCast_self, addf_apply, Cert.LibProduct.matmul_zero_apply _ rfl rfl rfl rfl rfl rfl, Cert.LibRowVector.castRow_apply]
  rfl

/-- The printed index maps, decided over the grid: the first input and the output move one block of rows per point,
    the weights and the bias stay at block 0. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- Row p of the body's result on blocks that hold row r of X, all of W and all of B is row r of the affine layer. -/
theorem pay6_eq_lin (x : Vec Ideal S64x512 .f32) (w : Vec Ideal S512x256 .f32) (b : Vec Ideal S256 .f32)
    (X : FVec Ideal ⟨2, ![64, 512]⟩ .f32) (W : FVec Ideal ⟨2, ![512, 256]⟩ .f32) (B : FVec Ideal ⟨1, ![256]⟩ .f32)
    (p : Fin 64) (q : Fin 256) (r : Fin 64)
    (hx : ∀ k : Fin 512, x (ix2 p k) = X (ix2 r k))
    (hw : ∀ (k : Fin 512) (q : Fin 256), w (ix2 k q) = W (ix2 k q))
    (hb : ∀ q : Fin 256, b (ix1 q) = B (ix1 q)) :
    k6_pay1 x w b (ix2 p q) = Cert.Dense.lin X W B (ix2 r q) := by
  rw [pay6_apply, Cert.Dense.lin_apply, hb q]
  exact congrArg (· + B (ix1 q)) (Finset.sum_congr rfl fun k _ => by rw [hx k, hw k q])

/-- The first input's block at point t is rows 64·t … 64·t + 63 of its array. -/
theorem iblk6_0_apply (c : Dev nD) (t : Fin cfg6.N) (p : Fin 64) (k : Fin 512) (r : Fin 64) (hr : r.val = t.val * 64 + p.val) :
    (iblk6 V c 0 t : Vec Ideal S64x512 .f32) (ix2 p k) = (V c main_v74 : Vec Ideal S64x512 .f32) (ix2 r k) := by
  obtain ⟨e0, e1, -⟩ := idx_facts6 t
  show V c main_v74 (((cfg6.win 0).blk t).view.emb (ix2 p k)) = V c main_v74 (ix2 r k)
  refine congrArg _ (funext fun a => Fin.ext ?_)
  match a with
  | ⟨0, _⟩ => show win6_0.index t (0 : Fin 2) * 64 + 1 * p.val = r.val; rw [e0, hr]; omega
  | ⟨1, _⟩ => show win6_0.index t (1 : Fin 2) * 512 + 1 * k.val = k.val; rw [e1]; omega

/-- The weights' block at every point is the whole array. -/
theorem iblk6_1_apply (c : Dev nD) (t : Fin cfg6.N) (k : Fin 512) (q : Fin 256) :
    (iblk6 V c 1 t : Vec Ideal S512x256 .f32) (ix2 k q) = (V c main_arg12 : Vec Ideal S512x256 .f32) (ix2 k q) := by
  obtain ⟨-, -, e2, e3, -⟩ := idx_facts6 t
  show V c main_arg12 (((cfg6.win 1).blk t).view.emb (ix2 k q)) = V c main_arg12 (ix2 k q)
  refine congrArg _ (funext fun a => Fin.ext ?_)
  match a with
  | ⟨0, _⟩ => show win6_1.index t (0 : Fin 2) * 512 + 1 * k.val = k.val; rw [e2]; omega
  | ⟨1, _⟩ => show win6_1.index t (1 : Fin 2) * 256 + 1 * q.val = q.val; rw [e3]; omega

/-- The bias's block at every point is the whole vector. -/
theorem iblk6_2_apply (c : Dev nD) (t : Fin cfg6.N) (q : Fin 256) :
    (iblk6 V c 2 t : Vec Ideal S256 .f32) (ix1 q) = (V c main_arg13 : Vec Ideal S256 .f32) (ix1 q) := by
  obtain ⟨-, -, -, -, e4, -⟩ := idx_facts6 t
  show V c main_arg13 (((cfg6.win 2).blk t).view.emb (ix1 q)) = V c main_arg13 (ix1 q)
  refine congrArg _ (funext fun a => Fin.ext ?_)
  match a with
  | ⟨0, _⟩ => show win6_2.index t (0 : Fin 1) * 256 + 1 * q.val = q.val; rw [e4]; omega

/-- What point t writes back is block t of the affine layer of the arrays as the region finds them. -/
theorem flushed6_eq (c : Dev nD) (t : Fin cfg6.N) :
    (dat6 (F := Ideal) V c).flushed 3 t = ((cfg6.win 3).blk t).view.read (Elt Ideal)
      (Cert.Dense.lin (M := 64) (K := 512) (N := 256) (V c main_v74) (V c main_arg12) (V c main_arg13)) := by
  show (cfg6.win 3).cut (grid6.coords t) ((dat6 V c).after 3 t) = _
  rw [after6_3]
  unfold out6_3
  rw [View.canon_unit_zero hz6_r2]
  simp only [View.ld_unit_zero (S := S64x512) hz6_r2, View.ld_unit_zero (S := S512x256) hz6_r2, View.ld_unit_zero (S := S256) hz6_r1]
  refine funext fun (j : S64x256.Idx) => ?_
  obtain ⟨p, q, rfl⟩ : ∃ (p : Fin 64) (q : Fin 256), j = ix2 p q := ⟨j 0, j 1, eq_ix2 j⟩
  obtain ⟨-, -, -, -, -, e5, e6⟩ := idx_facts6 t
  have ht : t.val < 1 := lt_of_lt_of_eq t.isLt N_6
  show k6_pay1 (iblk6 V c 0 t) (iblk6 V c 1 t) (iblk6 V c 2 t) (ix2 p q)
    = Cert.Dense.lin (M := 64) (K := 512) (N := 256) (V c main_v74) (V c main_arg12) (V c main_arg13) (((cfg6.win 3).blk t).view.emb (ix2 p q))
  have hi : ((cfg6.win 3).blk t).view.emb (ix2 p q) = (ix2 (⟨t.val * 64 + p.val, by omega⟩ : Fin 64) q : S64x256.Idx) :=
    funext fun a => Fin.ext (by
      match a with
      | ⟨0, _⟩ => show win6_3.index t (0 : Fin 2) * 64 + 1 * p.val = t.val * 64 + p.val; rw [e5]; omega
      | ⟨1, _⟩ => show win6_3.index t (1 : Fin 2) * 256 + 1 * q.val = q.val; rw [e6]; omega)
  rw [hi]
  exact pay6_eq_lin _ _ _ _ _ _ p q _ (fun k => iblk6_0_apply V c t p k _ rfl) (fun k q => iblk6_1_apply V c t k q)
    (fun q => iblk6_2_apply V c t q)

/-- An index of the output array is in point t's block iff each coordinate is in the block's range on its axis. -/
theorem mem_blk6 (t : Fin cfg6.N) (i : S64x256.Idx) :
    i ∈ ((cfg6.win 3).blk t).view.set ↔ ∀ a : Fin 2, win6_3.index t a * S64x256.size a ≤ (i a).val ∧ (i a).val < win6_3.index t a * S64x256.size a + S64x256.size a := by
  show i ∈ ((View.whole main_v75).slice (win6_3.rect t)).set ↔ _
  rw [View.set_slice_whole, Rect.mem_set_unit]
  exact Iff.rfl

/-- Row r of the output array is in the block of point r / 64, which writes back. -/
theorem cover6 (i : S64x256.Idx) : ∃ t : Fin cfg6.N, (cfg6.win 3).flush t = true ∧ i ∈ ((cfg6.win 3).blk t).view.set := by
  have hi0 : (i 0).val < 64 := (i 0).isLt
  have hi1 : (i 1).val < 256 := (i 1).isLt
  obtain ⟨t, ht⟩ : ∃ t : Fin cfg6.N, t.val = (i 0).val / 64 :=
    ⟨⟨(i 0).val / 64, lt_of_lt_of_eq (by omega : (i 0).val / 64 < 1) N_6.symm⟩, rfl⟩
  refine ⟨t, flush6_3 t, ?_⟩
  rw [mem_blk6]
  obtain ⟨-, -, -, -, -, e5, e6⟩ := idx_facts6 t
  intro a
  match a with
  | ⟨0, _⟩ => show win6_3.index t (0 : Fin 2) * 64 ≤ (i 0).val ∧ (i 0).val < win6_3.index t (0 : Fin 2) * 64 + 64; rw [e5, ht]; omega
  | ⟨1, _⟩ => show win6_3.index t (1 : Fin 2) * 256 ≤ (i 1).val ∧ (i 1).val < win6_3.index t (1 : Fin 2) * 256 + 256; rw [e6]; omega

/-- The output array after the region is the affine layer of the region's arrays. -/
theorem final6 (c : Dev nD) : (dat6 (F := Ideal) V c).arrAt 3 cfg6.N
    = Cert.Dense.lin (M := 64) (K := 512) (N := 256) (V c main_v74) (V c main_arg12) (V c main_arg13) :=
  (dat6 V c).arrAt_eq_of_cover 3 _ (fun t _ => flushed6_eq V c t) cover6

end Cert.KernelIdeal.Hand

end
-- ==== Proof.LibRows.lean ====
/-
  Gathering rows by an index array and accumulating rows per destination, read at an index, for any sizes.

  A gather of rows: the operand has N rows of C entries (or N scalar entries), the index array has one word per edge
  (carried with a trailing unit axis), and the result has one row (one entry) per edge: the operand's row at the
  edge's word read as a signed integer and clamped to [0, N - 1].  So a row gather at (e, c) and a flat gather at e,
  given the same index array, read the same row of their operands.

  An accumulating scatter of rows: an update (e, c) lands on the operand's entry (i, c') exactly when the edge's word,
  read as a signed integer and NOT clamped, is i, and c = c'.  In particular a word that lands on row i is
  non-negative and below N, so the clamped read of that same word is i again.
-/
import Idealize.ShloMosaic.PureOps.Ideal
import Idealize.ShloMosaic.Lib.ValueIdx

noncomputable section

namespace Cert.LibRows

open Idealize.ShloMosaic Idealize.ShloMosaic.ValueIdx

variable {N E C w : ℕ}

/-- An edge's word read as a row number for a gather: signed, clamped to the last row. -/
def clampRow (N : ℕ) (x : BitVec w) : ℕ := min x.toInt.toNat (N - 1)

theorem clampRow_lt (hN : 0 < N) (x : BitVec w) : clampRow N x < N := by
  unfold clampRow
  have := Nat.min_le_right x.toInt.toNat (N - 1)
  omega

/-- A word that reads, signed, as a row number below N is its own clamped read. -/
theorem clampRow_of_toInt {x : BitVec w} {i : ℕ} (hi : i < N) (h : x.toInt = (i : Int)) : clampRow N x = i := by
  unfold clampRow
  rw [h, Int.toNat_natCast]
  exact Nat.min_eq_left (by omega)

/-! ## The row gather -/

section RowGather
variable (wfG : GatherDims.WF ⟨2, ![N, C]⟩ ⟨2, ![E, 1]⟩ ⟨2, ![E, C]⟩ [1] [0] [] [0] [] 1 ![1, C])

/-- The row gather's dimension numbers. -/
abbrev rowDims : GatherDims ⟨2, ![N, C]⟩ ⟨2, ![E, 1]⟩ ⟨2, ![E, C]⟩ := ⟨[1], [0], [], [], [0], 1, ![1, C], wfG⟩

theorem row_operandIdx0 (idx : IVec ⟨2, ![E, 1]⟩ w) (e : Fin E) (c : Fin C) :
    (((rowDims wfG).operandIdx (ix2 e c) idx) 0).val = clampRow N (idx (ix2 e 0)) := by
  show (rowDims wfG).start (ix2 e c) idx 0 + (rowDims wfG).batchCoord (ix2 e c) 0 + (rowDims wfG).offCoord (ix2 e c) 0 = _
  have hs : (rowDims wfG).start (ix2 e c) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (rowDims wfG).batchCoord (ix2 e c) 0 = 0 := by
    unfold GatherDims.batchCoord
    rw [dif_neg (by simp)]
  have ho : (rowDims wfG).offCoord (ix2 e c) 0 = 0 := by
    unfold GatherDims.offCoord
    rw [dif_neg (by simp [GatherDims.sKept, Shape.kept, List.finRange])]
  rw [hs, hb, ho]
  omega

theorem row_operandIdx1 (idx : IVec ⟨2, ![E, 1]⟩ w) (e : Fin E) (c : Fin C) :
    (((rowDims wfG).operandIdx (ix2 e c) idx) 1).val = c.val := by
  show (rowDims wfG).start (ix2 e c) idx 1 + (rowDims wfG).batchCoord (ix2 e c) 1 + (rowDims wfG).offCoord (ix2 e c) 1 = _
  have hs : (rowDims wfG).start (ix2 e c) idx 1 = 0 := by
    unfold GatherDims.start
    rw [dif_neg (by simp)]
  have hb : (rowDims wfG).batchCoord (ix2 e c) 1 = 0 := by
    unfold GatherDims.batchCoord
    rw [dif_neg (by simp)]
  have ho : (rowDims wfG).offCoord (ix2 e c) 1 = c.val := by
    unfold GatherDims.offCoord
    rw [dif_pos (by simp [GatherDims.sKept, Shape.kept, List.finRange])]
    rfl
  rw [hs, hb, ho]
  omega

/-- THE ROW GATHER AT AN ENTRY: the operand's row at the edge's clamped word, same column. -/
theorem row_gather_apply {α : Type} (hN : 0 < N) (X : (⟨2, ![N, C]⟩ : Shape).Idx → α) (idx : IVec ⟨2, ![E, 1]⟩ w)
    (e : Fin E) (c : Fin C) :
    Host.gather (rowDims wfG) X idx (ix2 e c) = X (ix2 ⟨clampRow N (idx (ix2 e 0)), clampRow_lt hN _⟩ c) := by
  unfold Host.gather
  refine congrArg X (funext fun a => Fin.ext ?_)
  match a with
  | ⟨0, _⟩ => exact row_operandIdx0 wfG idx e c
  | ⟨1, _⟩ => exact row_operandIdx1 wfG idx e c
end RowGather

/-! ## The flat gather -/

section FlatGather
variable (wfg : GatherDims.WF ⟨1, ![N]⟩ ⟨2, ![E, 1]⟩ ⟨1, ![E]⟩ [] [0] [] [0] [] 1 ![1])

/-- The flat gather's dimension numbers. -/
abbrev flatDims : GatherDims ⟨1, ![N]⟩ ⟨2, ![E, 1]⟩ ⟨1, ![E]⟩ := ⟨[], [0], [], [], [0], 1, ![1], wfg⟩

theorem flat_operandIdx0 (idx : IVec ⟨2, ![E, 1]⟩ w) (e : Fin E) :
    (((flatDims wfg).operandIdx (ix1 e) idx) 0).val = clampRow N (idx (ix2 e 0)) := by
  show (flatDims wfg).start (ix1 e) idx 0 + (flatDims wfg).batchCoord (ix1 e) 0 + (flatDims wfg).offCoord (ix1 e) 0 = _
  have hs : (flatDims wfg).start (ix1 e) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (flatDims wfg).batchCoord (ix1 e) 0 = 0 := by
    unfold GatherDims.batchCoord
    rw [dif_neg (by simp)]
  have ho : (flatDims wfg).offCoord (ix1 e) 0 = 0 := by
    unfold GatherDims.offCoord
    rw [dif_neg (by simp [GatherDims.sKept, Shape.kept, List.finRange])]
  rw [hs, hb, ho]
  omega

/-- THE FLAT GATHER AT AN ENTRY: the operand's entry at the edge's clamped word. -/
theorem flat_gather_apply {α : Type} (hN : 0 < N) (x : (⟨1, ![N]⟩ : Shape).Idx → α) (idx : IVec ⟨2, ![E, 1]⟩ w) (e : Fin E) :
    Host.gather (flatDims wfg) x idx (ix1 e) = x (ix1 ⟨clampRow N (idx (ix2 e 0)), clampRow_lt hN _⟩) := by
  unfold Host.gather
  refine congrArg x (funext fun a => Fin.ext ?_)
  match a with
  | ⟨0, _⟩ => exact flat_operandIdx0 wfg idx e
end FlatGather

/-! ## The accumulating scatter of rows -/

section RowScatter
variable (wfS : ScatterDims.WF ⟨2, ![N, C]⟩ ⟨2, ![E, 1]⟩ ⟨2, ![E, C]⟩ [1] [0] [0] 1)

/-- The row scatter's dimension numbers. -/
abbrev scatDims : ScatterDims ⟨2, ![N, C]⟩ ⟨2, ![E, 1]⟩ ⟨2, ![E, C]⟩ := ⟨[1], [0], [0], 1, wfS⟩

theorem scat_start0 (idx : IVec ⟨2, ![E, 1]⟩ w) (e : Fin E) (c : Fin C) :
    (scatDims wfS).start (ix2 e c) idx 0 = (idx (ix2 e 0)).toInt := by
  unfold ScatterDims.start
  rw [dif_pos (by simp)]
  congr 2
  funext b
  match b with
  | ⟨0, _⟩ => rfl
  | ⟨1, _⟩ => rfl

theorem scat_window0 (e : Fin E) (c : Fin C) : (scatDims wfS).window (ix2 e c) 0 = 0 := by
  unfold ScatterDims.window
  rw [dif_neg (by simp [ScatterDims.sKept, Shape.kept, List.finRange])]

/-- An update that lands on row i has a destination word that reads, signed, as i. -/
theorem lands_toInt (idx : IVec ⟨2, ![E, 1]⟩ w) (e : Fin E) (c : Fin C) (i : (⟨2, ![N, C]⟩ : Shape).Idx)
    (h : (scatDims wfS).resultIdx? (ix2 e c) idx = some i) : (idx (ix2 e 0)).toInt = ((i 0).val : Int) := by
  unfold ScatterDims.resultIdx? at h
  split at h
  · rename_i hin
    have hi := Option.some.inj h
    have h0 : ((scatDims wfS).start (ix2 e c) idx 0 + ((scatDims wfS).window (ix2 e c) 0 : Int)).toNat = (i 0).val := by
      rw [← hi]
    rw [scat_start0, scat_window0, Nat.cast_zero, add_zero] at h0
    have hnn := (hin 0).1
    rw [scat_start0, scat_window0, Nat.cast_zero, add_zero] at hnn
    rw [← h0, Int.toNat_of_nonneg hnn]
  · cases h

/-- So the clamped read of that same word is row i. -/
theorem lands_clampRow (idx : IVec ⟨2, ![E, 1]⟩ w) (e : Fin E) (c : Fin C) (i : (⟨2, ![N, C]⟩ : Shape).Idx)
    (h : (scatDims wfS).resultIdx? (ix2 e c) idx = some i) : clampRow N (idx (ix2 e 0)) = (i 0).val :=
  clampRow_of_toInt (i 0).isLt (lands_toInt wfS idx e c i h)
end RowScatter

end Cert.LibRows

end
-- ==== Proof.LibDegree.lean ====
/-
  Counting edges per node, flat or as a column.

  An accumulating scatter adds, to each entry of its operand, the update values whose computed position is that entry;
  the position of an update is, on every operand axis, a start read off the index array plus the update's own window
  coordinate.  Two layouts of one count are compared: one value per edge scattered into a flat array with one entry
  per node, and the same values carried with a trailing axis of size one scattered into an array with one row of one
  entry per node.  In both the only start is the edge's destination index on the node axis and every window
  coordinate is zero, so an edge lands on node i exactly when its destination index is i (an index outside the array
  lands nowhere), and the two arrays agree entry by entry.
-/
import Idealize.ShloMosaic.PureOps.Ideal
import Idealize.ShloMosaic.Lib.ValueIdx

noncomputable section

namespace Cert.Sage

open Idealize.ShloMosaic Idealize.ShloMosaic.ValueIdx

/-- An update lands on the operand element i exactly when, on every axis, its start plus its window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show _ = (((d.start j idx a + (d.window j a : Int)).toNat : ℕ) : Int)
      rw [Int.toNat_of_nonneg (h a).1]
    · intro hi
      funext a
      apply Fin.ext
      show (d.start j idx a + (d.window j a : Int)).toNat = (i a).val
      rw [hi a]; rfl
  · rename_i h
    constructor
    · intro h'; cases h'
    · intro hi
      exact absurd (fun a => by rw [hi a]; exact ⟨Int.natCast_nonneg _, by exact_mod_cast (i a).isLt⟩) h

variable {N E w : ℕ}

section Flat
variable (wf1 : ScatterDims.WF ⟨1, ![N]⟩ ⟨2, ![E, 1]⟩ ⟨1, ![E]⟩ [] [0] [0] 1)

theorem flat_start (idx : IVec ⟨2, ![E, 1]⟩ w) (e : Fin E) :
    (⟨[], [0], [0], 1, wf1⟩ : ScatterDims ⟨1, ![N]⟩ ⟨2, ![E, 1]⟩ ⟨1, ![E]⟩).start (ix1 e) idx 0 = (idx (ix2 e 0)).toInt := by
  unfold ScatterDims.start
  rw [dif_pos (by simp)]
  congr 2
  funext b
  match b with
  | ⟨0, _⟩ => rfl
  | ⟨1, _⟩ => rfl

theorem flat_window (e : Fin E) :
    (⟨[], [0], [0], 1, wf1⟩ : ScatterDims ⟨1, ![N]⟩ ⟨2, ![E, 1]⟩ ⟨1, ![E]⟩).window (ix1 e) 0 = 0 := by
  unfold ScatterDims.window
  rw [dif_neg (by simp [ScatterDims.sKept, Shape.kept, List.finRange])]

theorem flat_lands (idx : IVec ⟨2, ![E, 1]⟩ w) (e : Fin E) (i : Fin N) :
    (⟨[], [0], [0], 1, wf1⟩ : ScatterDims ⟨1, ![N]⟩ ⟨2, ![E, 1]⟩ ⟨1, ![E]⟩).resultIdx? (ix1 e) idx = some (ix1 i)
      ↔ (idx (ix2 e 0)).toInt = (i.val : Int) := by
  rw [resultIdx?_eq_some_iff]
  constructor
  · intro h
    have h0 := h 0
    rw [flat_start, flat_window, Nat.cast_zero, add_zero] at h0
    exact h0
  · intro h a
    match a with
    | ⟨0, _⟩ =>
      show ScatterDims.start _ (ix1 e) idx 0 + ((ScatterDims.window _ (ix1 e) 0 : ℕ) : Int) = _
      rw [flat_start, flat_window, h]; simp
end Flat

section Col
variable (wf2 : ScatterDims.WF ⟨2, ![N, 1]⟩ ⟨2, ![E, 1]⟩ ⟨2, ![E, 1]⟩ [1] [0] [0] 1)

theorem col_start0 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 0 = (idx (ix2 e 0)).toInt := by
  unfold ScatterDims.start
  rw [dif_pos (by simp)]
  congr 2
  funext b
  match b with
  | ⟨0, _⟩ => rfl
  | ⟨1, _⟩ => rfl

theorem col_start1 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 1 = 0 := by
  unfold ScatterDims.start
  rw [dif_neg (by simp)]

theorem col_window0 (e : Fin E) :
    (⟨[1], [0], [0], 1, wf2⟩ : ScatterDims ⟨2, ![N, 1]⟩ ⟨2, ![E, 1]⟩ ⟨2, ![E, 1]⟩).window (ix2 e 0) 0 = 0 := by
  unfold ScatterDims.window
  rw [dif_neg (by simp [ScatterDims.sKept, Shape.kept, List.finRange])]

theorem col_window1 (e : Fin E) :
    (⟨[1], [0], [0], 1, wf2⟩ : ScatterDims ⟨2, ![N, 1]⟩ ⟨2, ![E, 1]⟩ ⟨2, ![E, 1]⟩).window (ix2 e 0) 1 = 0 := by
  unfold ScatterDims.window
  split
  · rfl
  · rfl

theorem col_lands (idx : IVec ⟨2, ![E, 1]⟩ w) (e : Fin E) (i : Fin N) :
    (⟨[1], [0], [0], 1, wf2⟩ : ScatterDims ⟨2, ![N, 1]⟩ ⟨2, ![E, 1]⟩ ⟨2, ![E, 1]⟩).resultIdx? (ix2 e 0) idx = some (ix2 i 0)
      ↔ (idx (ix2 e 0)).toInt = (i.val : Int) := by
  rw [resultIdx?_eq_some_iff]
  constructor
  · intro h
    have h0 := h 0
    rw [col_start0, col_window0, Nat.cast_zero, add_zero] at h0
    exact h0
  · intro h a
    match a with
    | ⟨0, _⟩ =>
      show ScatterDims.start _ (ix2 e 0) idx 0 + ((ScatterDims.window _ (ix2 e 0) 0 : ℕ) : Int) = _
      rw [col_start0, col_window0, h]; simp
    | ⟨1, _⟩ =>
      show ScatterDims.start _ (ix2 e 0) idx 1 + ((ScatterDims.window _ (ix2 e 0) 1 : ℕ) : Int) = _
      rw [col_start1, col_window1]; rfl
end Col

/-- The flat edge indices are the edges. -/
def flatEquiv : (⟨1, ![E]⟩ : Shape).Idx ≃ Fin E where
  toFun j := j 0
  invFun e := ix1 e
  left_inv j := (eq_ix1 j).symm
  right_inv _ := rfl

/-- The edge indices carrying a trailing unit axis are the edges. -/
def colEquiv : (⟨2, ![E, 1]⟩ : Shape).Idx ≃ Fin E where
  toFun j := j 0
  invFun e := ix2 e 0
  left_inv j := by
    funext a
    match a with
    | ⟨0, _⟩ => rfl
    | ⟨1, _⟩ =>
      apply Fin.ext
      have h : (j 1).val < 1 := (j 1).isLt
      show 0 = (j 1).val
      omega
  right_inv _ := rfl

/-- THE DEGREE COUNT, flat or as a column: scattering one value per edge into a flat array of N entries, and
    scattering the same values carried with a trailing unit axis into an N by 1 array, give the same entry at every
    node: both add the values of the edges whose destination index is the node. -/
theorem scatterAdd_flat_eq_col
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Ideal.hostScatterAdd (⟨[], [0], [0], 1, wf1⟩ : ScatterDims ⟨1, ![N]⟩ ⟨2, ![E, 1]⟩ ⟨1, ![E]⟩) x1 idx u1 (ix1 i)
      = Ideal.hostScatterAdd (⟨[1], [0], [0], 1, wf2⟩ : ScatterDims ⟨2, ![N, 1]⟩ ⟨2, ![E, 1]⟩ ⟨2, ![E, 1]⟩) x2 idx u2 (ix2 i 0) := by
  unfold Ideal.hostScatterAdd
  rw [hx]
  congr 1
  rw [Finset.sum_filter, Finset.sum_filter, ← flatEquiv.symm.sum_comp, ← colEquiv.symm.sum_comp]
  refine Finset.sum_congr rfl fun e _ => ?_
  show (if ScatterDims.resultIdx? _ (ix1 e) idx = some (ix1 i) then u1 (ix1 e) else 0)
     = (if ScatterDims.resultIdx? _ (ix2 e 0) idx = some (ix2 i 0) then u2 (ix2 e 0) else 0)
  rw [hu e]
  exact if_congr ((flat_lands wf1 idx e i).trans (col_lands wf2 idx e i).symm) rfl rfl

/-- The same comparison for any two records of scatter dimension numbers with those axis lists, stated for the host's
    accumulating scatter itself. -/
theorem scatterAdd_flat_eq_col'
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0]) (h1s : d1.scatterDimsToOperandDims = [0])
    (h1v : d1.indexVectorDim = 1)
    (h2u : d2.updateWindowDims = [1]) (h2i : d2.insertedWindowDims = [0]) (h2s : d2.scatterDimsToOperandDims = [0])
    (h2v : d2.indexVectorDim = 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Host.scatterAdd (F := Ideal) (φ := .f32) d1 x1 idx u1 (ix1 i) = Host.scatterAdd (F := Ideal) (φ := .f32) d2 x2 idx u2 (ix2 i 0) := by
  obtain ⟨a1, b1, c1, v1, wf1⟩ := d1
  obtain ⟨a2, b2, c2, v2, wf2⟩ := d2
  dsimp only at h1u h1i h1s h1v h2u h2i h2s h2v
  subst h1u h1i h1s h1v h2u h2i h2s h2v
  exact scatterAdd_flat_eq_col wf1 wf2 x1 x2 u1 u2 idx i hx hu

end Cert.Sage
end
-- ==== Proof.LibSegment.lean ====
/-
  An accumulating scatter of rows, read at one entry as a plain sum over the edges, for any sizes.

  The operand has N rows of C entries, the index array has one word per edge (carried with a trailing unit axis), and
  the updates have one row of C entries per edge.  The position of the update (e, c') is, on the row axis, the edge's
  word read as a signed integer (not clamped) plus a zero window coordinate, and on the column axis a zero start plus
  the window coordinate c'.  So the update (e, c') lands on the operand's entry (h, c) exactly when the edge's word
  reads as h and c' = c; a word that reads as no row lands nowhere.  The scatter's sum over the updates that land on
  (h, c) is therefore a double sum over edges and columns in which, for every edge, only the column c survives:

      scatter(x, idx, U)(h, c) = x(h, c) + ∑ e, (if idx(e) reads as h then U(e, c) else 0).
-/
import proofs.«102879_j77541339562639_2_alg».proof.Proof.LibRows
import proofs.«102879_j77541339562639_2_alg».proof.Proof.LibDegree

noncomputable section

namespace Cert.LibSegment

open Idealize.ShloMosaic Idealize.ShloMosaic.ValueIdx

variable {N E C w : ℕ}

section RowScatter
variable (wfS : ScatterDims.WF ⟨2, ![N, C]⟩ ⟨2, ![E, 1]⟩ ⟨2, ![E, C]⟩ [1] [0] [0] 1)

/-- On the column axis the window starts at zero: no component of the index array names that axis. -/
theorem scat_start1 (idx : IVec ⟨2, ![E, 1]⟩ w) (e : Fin E) (c : Fin C) :
    (Cert.LibRows.scatDims wfS).start (ix2 e c) idx 1 = 0 := by
  unfold ScatterDims.start
  rw [dif_neg (by simp)]

/-- On the column axis the window coordinate of the update (e, c) is c. -/
theorem scat_window1 (e : Fin E) (c : Fin C) : (Cert.LibRows.scatDims wfS).window (ix2 e c) 1 = c.val := by
  unfold ScatterDims.window
  rw [dif_pos (by simp [ScatterDims.sKept, Shape.kept, List.finRange])]
  rfl

/-- The update (e, c') lands on the entry (h, c) exactly when the edge's word reads, signed, as h, and c' = c. -/
theorem row_lands (idx : IVec ⟨2, ![E, 1]⟩ w) (e : Fin E) (c' : Fin C) (h : Fin N) (c : Fin C) :
    (Cert.LibRows.scatDims wfS).resultIdx? (ix2 e c') idx = some (ix2 h c)
      ↔ (idx (ix2 e 0)).toInt = (h.val : Int) ∧ c' = c := by
  rw [Cert.Sage.resultIdx?_eq_some_iff]
  constructor
  · intro hh
    have h0 := hh 0
    have h1 := hh 1
    rw [Cert.LibRows.scat_start0, Cert.LibRows.scat_window0, Nat.cast_zero, add_zero] at h0
    rw [scat_start1, scat_window1, zero_add] at h1
    refine ⟨h0, Fin.ext ?_⟩
    have h1' : (c'.val : Int) = (c.val : Int) := h1
    exact_mod_cast h1'
  · rintro ⟨h0, rfl⟩ a
    match a with
    | ⟨0, _⟩ =>
      show ScatterDims.start _ (ix2 e c') idx 0 + ((ScatterDims.window _ (ix2 e c') 0 : ℕ) : Int) = _
      rw [Cert.LibRows.scat_start0, Cert.LibRows.scat_window0, h0]; simp
    | ⟨1, _⟩ =>
      show ScatterDims.start _ (ix2 e c') idx 1 + ((ScatterDims.window _ (ix2 e c') 1 : ℕ) : Int) = _
      rw [scat_start1, scat_window1]; simp

/-- THE ACCUMULATING SCATTER OF ROWS AT AN ENTRY: the operand's entry plus, over the edges whose word reads as the
    entry's row, the update's entry in the same column. -/
theorem rowScatter_apply (x : (⟨2, ![N, C]⟩ : Shape).Idx → EReal) (idx : IVec ⟨2, ![E, 1]⟩ w)
    (U : (⟨2, ![E, C]⟩ : Shape).Idx → EReal) (h : Fin N) (c : Fin C) :
    Ideal.hostScatterAdd (Cert.LibRows.scatDims wfS) x idx U (ix2 h c)
      = x (ix2 h c) + ∑ e : Fin E, if (idx (ix2 e 0)).toInt = (h.val : Int) then U (ix2 e c) else 0 := by
  unfold Ideal.hostScatterAdd
  congr 1
  rw [Finset.sum_filter, sum_idx2]
  refine Finset.sum_congr rfl fun e _ => ?_
  rw [Finset.sum_congr rfl (fun c' _ => if_congr (row_lands wfS idx e c' h c) rfl rfl)]
  by_cases hP : (idx (ix2 e 0)).toInt = (h.val : Int)
  · simp only [hP, true_and, if_true]
    exact Finset.sum_ite_eq' Finset.univ c (fun c' => U (ix2 e c')) |>.trans (by simp)
  · simp only [hP, false_and, if_false]
    exact Finset.sum_const_zero
end RowScatter

end Cert.LibSegment

end
-- ==== Proof.RefStages.lean ====
/-
  The reference network's stages as dense layers, and the pooling law, over the extended reals.

  Each stage of the reference is an affine layer x·W + b (a matrix product plus a vector laid along every row), a
  rectifier, or an accumulating scatter of rows.  Read at an entry, the node transform, the edge transform and each
  round's node update are the dense layers of the same name.  The read-out pools the four rounds' results joined
  along the columns; since an accumulating scatter of rows acts on every column alone, pooling the joined array is
  joining the four pooled arrays: entry (g, 128·t + c) is the zero start plus the sum over the nodes n whose graph
  word reads as g of round t's entry (n, c).
-/
import proofs.«102879_j77541339562639_2_alg».proof.Proof.Gen.ReferenceIdeal.Read
import proofs.«102879_j77541339562639_2_alg».proof.Proof.Gen.KernelIdeal
import proofs.«102879_j77541339562639_2_alg».proof.KernelIdeal
import proofs.«102879_j77541339562639_2_alg».proof.Proof.Dense
import proofs.«102879_j77541339562639_2_alg».proof.Proof.LibProduct
import proofs.«102879_j77541339562639_2_alg».proof.Proof.LibRowVector
import proofs.«102879_j77541339562639_2_alg».proof.Proof.LibSegment

noncomputable section

open scoped BigOperators

namespace Cert.RefStages

open Cert.ReferenceIdeal Cert.ReferenceIdeal.Gen Cert.ReferenceIdeal.Read
open Idealize.ShloMosaic Idealize.ShloMosaic.ValueIdx

/-! ## The affine layer -/

/-- A matrix product plus a vector laid along every row is the affine layer, for any sizes. -/
theorem lin_of {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![N]⟩ : Shape).BroadcastsInDim ⟨2, ![1, N]⟩ ![1])
    (hb2 : (⟨2, ![1, N]⟩ : Shape).BroadcastsInDim ⟨2, ![M, N]⟩ ![0, 1])
    (x : FVec Ideal ⟨2, ![M, K]⟩ .f32) (W : FVec Ideal ⟨2, ![K, N]⟩ .f32) (b : FVec Ideal ⟨1, ![N]⟩ .f32) :
    addf (Host.dotGeneral (F := Ideal) d none x W)
        (broadcastInDim ⟨2, ![M, N]⟩ ![0, 1] hb2 (broadcastInDim ⟨2, ![1, N]⟩ ![1] hb1 b))
      = Cert.Dense.lin x W b := by
  funext i
  obtain ⟨p, q, rfl⟩ : ∃ (p : Fin M) (q : Fin N), i = ix2 p q := ⟨i 0, i 1, eq_ix2 i⟩
  show Host.dotGeneral (F := Ideal) d none x W (ix2 p q)
      + broadcastInDim ⟨2, ![M, N]⟩ ![0, 1] hb2 (broadcastInDim ⟨2, ![1, N]⟩ ![1] hb1 b) (ix2 p q) = _
  rw [Cert.LibProduct.dotGeneral_apply d h1 h2 h3 h4 h5 h6, Cert.LibRowVector.inDimRow_apply, Cert.Dense.lin_apply]

/-- The node transform is the affine layer of the node features. -/
theorem h0_eq (x0 : (⟨S40000x32, .f32⟩ : BufTy).Contents (Elt Ideal)) (x4 : (⟨S32x128, .f32⟩ : BufTy).Contents (Elt Ideal))
    (x5 : (⟨S128, .f32⟩ : BufTy).Contents (Elt Ideal)) :
    val_main_v3 (F := Ideal) x0 x4 x5 = Cert.Dense.lin x0 x4 x5 :=
  lin_of dot_S40000x32_S32x128_S40000x128_1_0_0_1_n_n rfl rfl rfl rfl rfl rfl bcast_S128_S1x128_1 bcast_S1x128_S40000x128_0_1 x0 x4 x5

/-- The edge transform is the affine layer of the edge features. -/
theorem e_eq (x2 : (⟨S640000x16, .f32⟩ : BufTy).Contents (Elt Ideal)) (x6 : (⟨S16x128, .f32⟩ : BufTy).Contents (Elt Ideal))
    (x7 : (⟨S128, .f32⟩ : BufTy).Contents (Elt Ideal)) :
    val_main_v7 (F := Ideal) x2 x6 x7 = Cert.Dense.lin x2 x6 x7 :=
  lin_of dot_S640000x16_S16x128_S640000x128_1_0_0_1_n_n rfl rfl rfl rfl rfl rfl bcast_S128_S1x128_1 bcast_S1x128_S640000x128_0_1 x2 x6 x7

/-! ## One round's node update -/

/-- The maximum with a broadcast zero is the rectifier. -/
theorem relu_of {M N : ℕ} (hz : (⟨0, ![]⟩ : Shape).BroadcastsInDim ⟨2, ![M, N]⟩ ![]) (a : FVec Ideal ⟨2, ![M, N]⟩ .f32) :
    maximumf a (broadcastInDim ⟨2, ![M, N]⟩ ![] hz (constant (F := Ideal) ⟨0, ![]⟩ .f32 0x00000000#32)) = Cert.Dense.relu a := by
  funext i
  show max (a i) (broadcastInDim ⟨2, ![M, N]⟩ ![] hz (constant (F := Ideal) ⟨0, ![]⟩ .f32 0x00000000#32) i) = max (a i) _
  rw [Cert.LibRowVector.inDimScalar_apply]
  rfl

/-- Two affine layers with a rectifier between them, applied to h + agg, is the node update, for any sizes and any
    operands h and agg. -/
theorem mlp_of {M D : ℕ} (d : DotDims ⟨2, ![M, D]⟩ ⟨2, ![D, D]⟩ ⟨2, ![M, D]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![D]⟩ : Shape).BroadcastsInDim ⟨2, ![1, D]⟩ ![1])
    (hb2 : (⟨2, ![1, D]⟩ : Shape).BroadcastsInDim ⟨2, ![M, D]⟩ ![0, 1])
    (hz : (⟨0, ![]⟩ : Shape).BroadcastsInDim ⟨2, ![M, D]⟩ ![])
    (h agg : FVec Ideal ⟨2, ![M, D]⟩ .f32) (W1 : FVec Ideal ⟨2, ![D, D]⟩ .f32) (b1 : FVec Ideal ⟨1, ![D]⟩ .f32)
    (W2 : FVec Ideal ⟨2, ![D, D]⟩ .f32) (b2 : FVec Ideal ⟨1, ![D]⟩ .f32) :
    addf (Host.dotGeneral (F := Ideal) d none
          (maximumf
            (addf (Host.dotGeneral (F := Ideal) d none (addf h agg) W1)
              (broadcastInDim ⟨2, ![M, D]⟩ ![0, 1] hb2 (broadcastInDim ⟨2, ![1, D]⟩ ![1] hb1 b1)))
            (broadcastInDim ⟨2, ![M, D]⟩ ![] hz (constant (F := Ideal) ⟨0, ![]⟩ .f32 0x00000000#32)))
          W2)
        (broadcastInDim ⟨2, ![M, D]⟩ ![0, 1] hb2 (broadcastInDim ⟨2, ![1, D]⟩ ![1] hb1 b2))
      = Cert.Dense.mlp h agg W1 b1 W2 b2 := by
  rw [lin_of d h1 h2 h3 h4 h5 h6 hb1 hb2 (addf h agg) W1 b1, relu_of hz, lin_of d h1 h2 h3 h4 h5 h6 hb1 hb2 _ W2 b2]
  rfl

/-- Round 1's node update. -/
theorem round1 (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v33 (F := Ideal) x0 x1 x2 x4 x5 x6 x7 x8 x9 x10 x11 = Cert.Dense.mlp (val_main_v3 (F := Ideal) x0 x4 x5) (val_main_v23 (F := Ideal) x0 x1 x2 x4 x5 x6 x7) x8 x9 x10 x11 :=
  mlp_of dot_S40000x128_S128x128_S40000x128_1_0_0_1_n_n rfl rfl rfl rfl rfl rfl bcast_S128_S1x128_1 bcast_S1x128_S40000x128_0_1
    bcast_S_S40000x128 _ _ x8 x9 x10 x11

/-- Round 2's node update. -/
theorem round2 (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v55 (F := Ideal) x0 x1 x2 x4 x5 x6 x7 x8 x9 x10 x11 = Cert.Dense.mlp (val_main_v33 (F := Ideal) x0 x1 x2 x4 x5 x6 x7 x8 x9 x10 x11) (val_main_v45 (F := Ideal) x0 x1 x2 x4 x5 x6 x7 x8 x9 x10 x11) x8 x9 x10 x11 :=
  mlp_of dot_S40000x128_S128x128_S40000x128_1_0_0_1_n_n rfl rfl rfl rfl rfl rfl bcast_S128_S1x128_1 bcast_S1x128_S40000x128_0_1
    bcast_S_S40000x128 _ _ x8 x9 x10 x11

/-- Round 3's node update. -/
theorem round3 (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v77 (F := Ideal) x0 x1 x2 x4 x5 x6 x7 x8 x9 x10 x11 = Cert.Dense.mlp (val_main_v55 (F := Ideal) x0 x1 x2 x4 x5 x6 x7 x8 x9 x10 x11) (val_main_v67 (F := Ideal) x0 x1 x2 x4 x5 x6 x7 x8 x9 x10 x11) x8 x9 x10 x11 :=
  mlp_of dot_S40000x128_S128x128_S40000x128_1_0_0_1_n_n rfl rfl rfl rfl rfl rfl bcast_S128_S1x128_1 bcast_S1x128_S40000x128_0_1
    bcast_S_S40000x128 _ _ x8 x9 x10 x11

/-- Round 4's node update. -/
theorem round4 (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v99 (F := Ideal) x0 x1 x2 x4 x5 x6 x7 x8 x9 x10 x11 = Cert.Dense.mlp (val_main_v77 (F := Ideal) x0 x1 x2 x4 x5 x6 x7 x8 x9 x10 x11) (val_main_v89 (F := Ideal) x0 x1 x2 x4 x5 x6 x7 x8 x9 x10 x11) x8 x9 x10 x11 :=
  mlp_of dot_S40000x128_S128x128_S40000x128_1_0_0_1_n_n rfl rfl rfl rfl rfl rfl bcast_S128_S1x128_1 bcast_S1x128_S40000x128_0_1
    bcast_S_S40000x128 _ _ x8 x9 x10 x11

/-! ## The accumulating scatter of rows and the join of four arrays along the columns, read at an entry -/

/-- An accumulating scatter of rows with any record of the row-scatter dimension numbers, at an entry: the operand's
    entry plus the updates' entries in the same column over the rows whose word reads as the entry's row. -/
theorem scatterAdd_apply {N E C w : ℕ} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : FVec Ideal ⟨2, ![N, C]⟩ .f32) (idx : IVec ⟨2, ![E, 1]⟩ w) (U : FVec Ideal ⟨2, ![E, C]⟩ .f32) (h : Fin N) (c : Fin C) :
    Host.scatterAdd (F := Ideal) (φ := .f32) d x idx U (ix2 h c)
      = x (ix2 h c) + ∑ e : Fin E, if (idx (ix2 e 0)).toInt = (h.val : Int) then U (ix2 e c) else 0 := by
  obtain ⟨a, b, c', v, wf⟩ := d
  dsimp only at hu hi hs hv
  subst hu hi hs hv
  exact Cert.LibSegment.rowScatter_apply wf x idx U h c

/-- Four arrays of 128 columns joined along the columns, read at (r, q): piece q / 128 at (r, q % 128). -/
theorem cat4_apply {α : Type} {R : ℕ} (f : Fin 4 → (⟨2, ![R, 128]⟩ : Shape).Idx → α)
    (h : Shape.Concatenates [⟨2, ![R, 128]⟩, ⟨2, ![R, 128]⟩, ⟨2, ![R, 128]⟩, ⟨2, ![R, 128]⟩] ⟨2, ![R, 512]⟩ 1)
    (r : Fin R) (q : Fin 512) :
    concatenate (⟨2, ![R, 512]⟩ : Shape) 1
        [⟨⟨2, ![R, 128]⟩, f 0⟩, ⟨⟨2, ![R, 128]⟩, f 1⟩, ⟨⟨2, ![R, 128]⟩, f 2⟩, ⟨⟨2, ![R, 128]⟩, f 3⟩] h (ix2 r q)
      = f ⟨q.val / 128, by omega⟩ (ix2 r ⟨q.val % 128, by omega⟩) :=
  concatenate_ofFn_apply (t := ⟨2, ![R, 512]⟩) (s₁ := ⟨2, ![R, 128]⟩) 1 f h rfl 128 rfl (ix2 r q) ⟨q.val / 128, by omega⟩ rfl
    (ix2 r ⟨q.val % 128, by omega⟩) rfl (fun b hb => match b with
      | ⟨0, _⟩ => rfl
      | ⟨1, _⟩ => absurd rfl hb)

/-! ## Pooling -/

/-- One round's result pooled per graph: the rows of h added up, from a zero start, by the graph words. -/
def pool (g : (⟨Cert.KernelIdeal.S40000, .i32⟩ : BufTy).Contents (Elt Ideal)) (h : FVec Ideal Cert.KernelIdeal.S40000x128 .f32) :
    FVec Ideal Cert.KernelIdeal.S64x128 .f32 :=
  Host.scatterAdd (F := Ideal) Cert.KernelIdeal.scatter_S64x128_S40000x1_S40000x128_1_0_0_1
    (broadcastInDim Cert.KernelIdeal.S64x128 ![] Cert.KernelIdeal.Gen.bcast_S_S64x128 (constant (F := Ideal) Cert.KernelIdeal.S_ .f32 0x00000000#32))
    (broadcastInDim Cert.KernelIdeal.S40000x1 ![0] Cert.KernelIdeal.Gen.bcast_S40000_S40000x1_0 g) h

/-- Four pooled results joined along the columns. -/
def cat4 (a b c d : FVec Ideal Cert.KernelIdeal.S64x128 .f32) : FVec Ideal Cert.KernelIdeal.S64x512 .f32 :=
  concatenate Cert.KernelIdeal.S64x512 1 [⟨Cert.KernelIdeal.S64x128, a⟩, ⟨Cert.KernelIdeal.S64x128, b⟩, ⟨Cert.KernelIdeal.S64x128, c⟩, ⟨Cert.KernelIdeal.S64x128, d⟩]
    Cert.KernelIdeal.Gen.concatenates_S64x128_S64x128_S64x128_S64x128_S64x512_d1

/-- THE POOLING LAW: the four rounds' results joined along the columns and then pooled are the four pooled results
    joined along the columns.  At the entry (p, q), with t = q / 128 and c = q % 128, both sides are the zero start
    plus the sum over the nodes whose graph word reads as p of round t's entry (node, c). -/
theorem pool_cat (g : (⟨S40000, .i32⟩ : BufTy).Contents (Elt Ideal)) (f : Fin 4 → FVec Ideal S40000x128 .f32) :
    Host.scatterAdd (F := Ideal) scatter_S64x512_S40000x1_S40000x512_1_0_0_1
        (broadcastInDim S64x512 ![] bcast_S_S64x512 (constant (F := Ideal) S_ .f32 0x00000000#32))
        (broadcastInDim S40000x1 ![0] bcast_S40000_S40000x1_0 g)
        (concatenate S40000x512 1 [⟨S40000x128, f 0⟩, ⟨S40000x128, f 1⟩, ⟨S40000x128, f 2⟩, ⟨S40000x128, f 3⟩]
          concatenates_S40000x128_S40000x128_S40000x128_S40000x128_S40000x512_d1)
      = cat4 (pool g (f 0)) (pool g (f 1)) (pool g (f 2)) (pool g (f 3)) := by
  funext j
  obtain ⟨p, q, rfl⟩ : ∃ (p : Fin 64) (q : Fin 512), j = ix2 p q := ⟨j 0, j 1, eq_ix2 j⟩
  refine (scatterAdd_apply _ rfl rfl rfl rfl _ _ _ p q).trans ?_
  refine Eq.trans ?_ (cat4_apply (fun n => pool g (f n)) Cert.KernelIdeal.Gen.concatenates_S64x128_S64x128_S64x128_S64x128_S64x512_d1 p q).symm
  show _ = pool g (f ⟨q.val / 128, by omega⟩) (ix2 p ⟨q.val % 128, by omega⟩)
  unfold pool
  refine Eq.trans ?_ (scatterAdd_apply _ rfl rfl rfl rfl _ _ _ p ⟨q.val % 128, by omega⟩).symm
  refine congrArg₂ (· + ·)
    ((Cert.LibRowVector.inDimScalar_apply _ _ _).trans (Cert.LibRowVector.inDimScalar_apply _ _ _).symm)
    (Finset.sum_congr rfl fun e _ => ?_)
  rw [cat4_apply f concatenates_S40000x128_S40000x128_S40000x128_S40000x128_S40000x512_d1 e q]

/-- The joined rounds pooled per graph are the four pooled rounds joined. -/
theorem pooled_eq (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x3 : (⟨S40000, .i32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v103 (F := Ideal) x0 x1 x2 x3 x4 x5 x6 x7 x8 x9 x10 x11
      = cat4 (pool x3 (val_main_v33 (F := Ideal) x0 x1 x2 x4 x5 x6 x7 x8 x9 x10 x11)) (pool x3 (val_main_v55 (F := Ideal) x0 x1 x2 x4 x5 x6 x7 x8 x9 x10 x11))
          (pool x3 (val_main_v77 (F := Ideal) x0 x1 x2 x4 x5 x6 x7 x8 x9 x10 x11)) (pool x3 (val_main_v99 (F := Ideal) x0 x1 x2 x4 x5 x6 x7 x8 x9 x10 x11)) :=
  pool_cat x3 ![val_main_v33 (F := Ideal) x0 x1 x2 x4 x5 x6 x7 x8 x9 x10 x11, val_main_v55 (F := Ideal) x0 x1 x2 x4 x5 x6 x7 x8 x9 x10 x11, val_main_v77 (F := Ideal) x0 x1 x2 x4 x5 x6 x7 x8 x9 x10 x11, val_main_v99 (F := Ideal) x0 x1 x2 x4 x5 x6 x7 x8 x9 x10 x11]

/-- THE READ-OUT: the affine layer of the four pooled rounds joined along the columns. -/
theorem tail (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x3 : (⟨S40000, .i32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S512x256, .f32⟩ : BufTy).Contents (Elt Ideal)) (x13 : (⟨S256, .f32⟩ : BufTy).Contents (Elt Ideal)) :
    val_main_v107 (F := Ideal) x0 x1 x2 x3 x4 x5 x6 x7 x8 x9 x10 x11 x12 x13
      = Cert.Dense.lin (cat4 (pool x3 (val_main_v33 (F := Ideal) x0 x1 x2 x4 x5 x6 x7 x8 x9 x10 x11)) (pool x3 (val_main_v55 (F := Ideal) x0 x1 x2 x4 x5 x6 x7 x8 x9 x10 x11))
          (pool x3 (val_main_v77 (F := Ideal) x0 x1 x2 x4 x5 x6 x7 x8 x9 x10 x11)) (pool x3 (val_main_v99 (F := Ideal) x0 x1 x2 x4 x5 x6 x7 x8 x9 x10 x11))) x12 x13 := by
  rw [← pooled_eq x0 x1 x2 x3 x4 x5 x6 x7 x8 x9 x10 x11]
  exact lin_of dot_S64x512_S512x256_S64x256_1_0_0_1_n_n rfl rfl rfl rfl rfl rfl bcast_S256_S1x256_1 bcast_S1x256_S64x256_0_1 _ x12 x13

end Cert.RefStages

end
-- ==== Proof.Agg.lean ====
/-
  A round's neighbour sums as one function of the node states, the edge terms and the edge list.

  For every edge the message is the rectified sum of the source node's row of h and the edge's row of e; a source word
  that reads as a negative number is first moved up by the number of nodes.  The messages are added up, from a zero
  start, into the rows their destination words name.  The reference computes this four times, once per round, each
  time from the previous round's node states and the same edge terms and edge list; the four stages are this one
  function at those arguments.  The source and destination words are the two rows of the edge list, each cut out and
  laid flat.
-/
import proofs.«102879_j77541339562639_2_alg».proof.Proof.Gen.ReferenceIdeal.Read
import proofs.«102879_j77541339562639_2_alg».proof.Proof.Gen.KernelIdeal
import proofs.«102879_j77541339562639_2_alg».proof.KernelIdeal
import proofs.«102879_j77541339562639_2_alg».proof.Proof.Dense
import proofs.«102879_j77541339562639_2_alg».proof.Proof.LibProduct
import proofs.«102879_j77541339562639_2_alg».proof.Proof.LibRowVector
import proofs.«102879_j77541339562639_2_alg».proof.Proof.LibSegment

noncomputable section

namespace Cert.Agg

open Idealize.ShloMosaic Idealize.ShloMosaic.ValueIdx

/-- The neighbour sums: the rectified h[src] + e, added up per destination from a zero start. -/
def agg (h : FVec Ideal Cert.KernelIdeal.S40000x128 .f32) (e : FVec Ideal Cert.KernelIdeal.S640000x128 .f32)
    (src dst : (⟨Cert.KernelIdeal.S640000, .i32⟩ : BufTy).Contents (Elt Ideal)) : FVec Ideal Cert.KernelIdeal.S40000x128 .f32 :=
  Host.scatterAdd (F := Ideal) Cert.KernelIdeal.scatter_S40000x128_S640000x1_S640000x128_1_0_0_1
    (broadcastInDim Cert.KernelIdeal.S40000x128 ![] Cert.KernelIdeal.Gen.bcast_S_S40000x128 (constant (F := Ideal) Cert.KernelIdeal.S_ .f32 0x00000000#32))
    (broadcastInDim Cert.KernelIdeal.S640000x1 ![0] Cert.KernelIdeal.Gen.bcast_S640000_S640000x1_0 dst)
    (maximumf
      (addf
        (Host.gather Cert.KernelIdeal.gather_S40000x128_S640000x1_S640000x128_1_0_n_n_0_1_1128 h
          (broadcastInDim Cert.KernelIdeal.S640000x1 ![0] Cert.KernelIdeal.Gen.bcast_S640000_S640000x1_0
            (select
              (cmpi .slt src (broadcastInDim Cert.KernelIdeal.S640000 ![] Cert.KernelIdeal.Gen.bcast_S_S640000 (constantI Cert.KernelIdeal.S_ 32 0#32)))
              (addi src (broadcastInDim Cert.KernelIdeal.S640000 ![] Cert.KernelIdeal.Gen.bcast_S_S640000 (constantI Cert.KernelIdeal.S_ 32 40000#32)))
              src)))
        e)
      (broadcastInDim Cert.KernelIdeal.S640000x128 ![] Cert.KernelIdeal.Gen.bcast_S_S640000x128 (constant (F := Ideal) Cert.KernelIdeal.S_ .f32 0x00000000#32)))

open Cert.ReferenceIdeal Cert.ReferenceIdeal.Gen Cert.ReferenceIdeal.Read

/-! ## The edge list's two rows -/

/-- The source words: row 0 of the edge list, laid flat. -/
theorem src_eq (x1 : (⟨S2x640000, .i32⟩ : BufTy).Contents (Elt Ideal)) :
    val_main_v9 (F := Ideal) x1
      = shapeCast Cert.KernelIdeal.S640000 (extractStridedSlice Cert.KernelIdeal.S1x640000 ![0, 0] x1 Cert.KernelIdeal.Gen.slices_S2x640000_S1x640000_0_0)
          Cert.KernelIdeal.Gen.shapeCasts_S1x640000_S640000 := rfl

/-- The destination words: row 1 of the edge list, laid flat. -/
theorem dst_eq (x1 : (⟨S2x640000, .i32⟩ : BufTy).Contents (Elt Ideal)) :
    val_main_v11 (F := Ideal) x1
      = shapeCast Cert.KernelIdeal.S640000 (extractStridedSlice Cert.KernelIdeal.S1x640000 ![1, 0] x1 Cert.KernelIdeal.Gen.slices_S2x640000_S1x640000_1_0)
          Cert.KernelIdeal.Gen.shapeCasts_S1x640000_S640000 := rfl

/-! ## The four rounds' neighbour sums -/

/-- Round 1's neighbour sums. -/
theorem ref_agg1 (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) :
    val_main_v23 (F := Ideal) x0 x1 x2 x4 x5 x6 x7
      = agg (val_main_v3 (F := Ideal) x0 x4 x5) (val_main_v7 (F := Ideal) x2 x6 x7) (val_main_v9 (F := Ideal) x1) (val_main_v11 (F := Ideal) x1) := rfl

/-- Round 2's neighbour sums. -/
theorem ref_agg2 (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v45 (F := Ideal) x0 x1 x2 x4 x5 x6 x7 x8 x9 x10 x11
      = agg (val_main_v33 (F := Ideal) x0 x1 x2 x4 x5 x6 x7 x8 x9 x10 x11) (val_main_v7 (F := Ideal) x2 x6 x7) (val_main_v9 (F := Ideal) x1) (val_main_v11 (F := Ideal) x1) := rfl

/-- Round 3's neighbour sums. -/
theorem ref_agg3 (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v67 (F := Ideal) x0 x1 x2 x4 x5 x6 x7 x8 x9 x10 x11
      = agg (val_main_v55 (F := Ideal) x0 x1 x2 x4 x5 x6 x7 x8 x9 x10 x11) (val_main_v7 (F := Ideal) x2 x6 x7) (val_main_v9 (F := Ideal) x1) (val_main_v11 (F := Ideal) x1) := rfl

/-- Round 4's neighbour sums. -/
theorem ref_agg4 (x0 : (⟨S40000x32, .f32⟩ : BufTy).Contents (Elt Ideal)) (x1 : (⟨S2x640000, .i32⟩ : BufTy).Contents (Elt Ideal)) (x2 : (⟨S640000x16, .f32⟩ : BufTy).Contents (Elt Ideal)) (x4 : (⟨S32x128, .f32⟩ : BufTy).Contents (Elt Ideal)) (x5 : (⟨S128, .f32⟩ : BufTy).Contents (Elt Ideal)) (x6 : (⟨S16x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v89 (F := Ideal) x0 x1 x2 x4 x5 x6 x7 x8 x9 x10 x11
      = agg (val_main_v77 (F := Ideal) x0 x1 x2 x4 x5 x6 x7 x8 x9 x10 x11) (val_main_v7 (F := Ideal) x2 x6 x7) (val_main_v9 (F := Ideal) x1) (val_main_v11 (F := Ideal) x1) := rfl

end Cert.Agg

end
-- ==== Proof.Stretch.lean ====
/-
  The host stretches of the kernel program, read back over any contents of the buffers.

  Between its kernels the program runs plain array operations.  Each stretch, run from any contents W of the buffers,
  leaves in its result buffer a fixed function of what W holds in the stretch's argument buffers: the two rows of the
  edge list laid flat; a round's neighbour sums of the node states and the edge terms; a round's node states pooled
  per graph; the four pooled rounds joined along the columns.  The edge terms are kept at half width and widened
  before use; over the extended reals widening is the identity.
-/
import proofs.«102879_j77541339562639_2_alg».proof.Proof.Gen.KernelIdeal.Launch
import Idealize.ShloMosaic.Lib.StableHlo.Run
import proofs.«102879_j77541339562639_2_alg».proof.Proof.RefStages
import proofs.«102879_j77541339562639_2_alg».proof.Proof.Agg

noncomputable section

namespace Cert.Stretch

open Cert.KernelIdeal Cert.KernelIdeal.Gen Idealize.ShloMosaic Idealize.ShloMosaic.TcCoe Idealize.ShloMosaic.StableHlo

/-- Widening is the identity over the extended reals: a half-width array that agrees entry by entry with a
    full-width one widens to it. -/
theorem ext_id (x : FVec Ideal S640000x128 .bf16) (y : FVec Ideal S640000x128 .f32) (h : ∀ i, x i = y i) :
    extf .f32 x bitsLt_bf16_f32 = y :=
  funext fun i => h i

/-! ## The edge list's two rows -/

/-- The source words after the first stretch: row 0 of the edge list, laid flat. -/
theorem s0_src (W : Valuation τ sig (Elt Ideal)) :
    (StableHlo.after (hostOps0 (F := Ideal)) W main_v1 : (⟨S640000, .i32⟩ : BufTy).Contents (Elt Ideal))
      = shapeCast S640000 (extractStridedSlice S1x640000 ![0, 0]
          (W main_arg1 : (⟨S2x640000, .i32⟩ : BufTy).Contents (Elt Ideal)) slices_S2x640000_S1x640000_0_0)
          shapeCasts_S1x640000_S640000 := by
  show StableHlo.after hostOps0 W (Proc.devRef .tc main_v1) = _
  after_results
  rfl

/-- The destination words after the first stretch: row 1 of the edge list, laid flat. -/
theorem s0_dst (W : Valuation τ sig (Elt Ideal)) :
    (StableHlo.after (hostOps0 (F := Ideal)) W main_v3 : (⟨S640000, .i32⟩ : BufTy).Contents (Elt Ideal))
      = shapeCast S640000 (extractStridedSlice S1x640000 ![1, 0]
          (W main_arg1 : (⟨S2x640000, .i32⟩ : BufTy).Contents (Elt Ideal)) slices_S2x640000_S1x640000_1_0)
          shapeCasts_S1x640000_S640000 := by
  show StableHlo.after hostOps0 W (Proc.devRef .tc main_v3) = _
  after_results
  rfl

/-! ## The neighbour sums -/

/-- Round 1's neighbour sums, from the node transform's result. -/
theorem s2 (W : Valuation τ sig (Elt Ideal)) :
    (StableHlo.after (hostOps2_2 (F := Ideal)) (StableHlo.after (hostOps2_1 (F := Ideal)) (StableHlo.after (hostOps2 (F := Ideal)) W)) main_v18
        : (⟨S40000x128, .f32⟩ : BufTy).Contents (Elt Ideal))
      = Cert.Agg.agg (W main_v4 : (⟨S40000x128, .f32⟩ : BufTy).Contents (Elt Ideal))
          (extf .f32 (W main_v5 : (⟨S640000x128, .bf16⟩ : BufTy).Contents (Elt Ideal)) bitsLt_bf16_f32)
          (W main_v1 : (⟨S640000, .i32⟩ : BufTy).Contents (Elt Ideal))
          (W main_v3 : (⟨S640000, .i32⟩ : BufTy).Contents (Elt Ideal)) := by
  show StableHlo.after hostOps2_2 (StableHlo.after hostOps2_1 (StableHlo.after hostOps2 W)) (Proc.devRef .tc main_v18) = _
  after_results_simp
  rfl

/-- Round 2's neighbour sums, from round 1's node states. -/
theorem s3_agg (W : Valuation τ sig (Elt Ideal)) :
    (StableHlo.after (hostOps3_2 (F := Ideal)) (StableHlo.after (hostOps3_1 (F := Ideal)) (StableHlo.after (hostOps3 (F := Ideal)) W)) main_v35
        : (⟨S40000x128, .f32⟩ : BufTy).Contents (Elt Ideal))
      = Cert.Agg.agg (W main_v19 : (⟨S40000x128, .f32⟩ : BufTy).Contents (Elt Ideal))
          (extf .f32 (W main_v5 : (⟨S640000x128, .bf16⟩ : BufTy).Contents (Elt Ideal)) bitsLt_bf16_f32)
          (W main_v1 : (⟨S640000, .i32⟩ : BufTy).Contents (Elt Ideal))
          (W main_v3 : (⟨S640000, .i32⟩ : BufTy).Contents (Elt Ideal)) := by
  show StableHlo.after hostOps3_2 (StableHlo.after hostOps3_1 (StableHlo.after hostOps3 W)) (Proc.devRef .tc main_v35) = _
  after_results_simp
  rfl

/-- Round 3's neighbour sums, from round 2's node states. -/
theorem s4_agg (W : Valuation τ sig (Elt Ideal)) :
    (StableHlo.after (hostOps4_2 (F := Ideal)) (StableHlo.after (hostOps4_1 (F := Ideal)) (StableHlo.after (hostOps4 (F := Ideal)) W)) main_v52
        : (⟨S40000x128, .f32⟩ : BufTy).Contents (Elt Ideal))
      = Cert.Agg.agg (W main_v36 : (⟨S40000x128, .f32⟩ : BufTy).Contents (Elt Ideal))
          (extf .f32 (W main_v5 : (⟨S640000x128, .bf16⟩ : BufTy).Contents (Elt Ideal)) bitsLt_bf16_f32)
          (W main_v1 : (⟨S640000, .i32⟩ : BufTy).Contents (Elt Ideal))
          (W main_v3 : (⟨S640000, .i32⟩ : BufTy).Contents (Elt Ideal)) := by
  show StableHlo.after hostOps4_2 (StableHlo.after hostOps4_1 (StableHlo.after hostOps4 W)) (Proc.devRef .tc main_v52) = _
  after_results_simp
  rfl

/-- Round 4's neighbour sums, from round 3's node states. -/
theorem s5_agg (W : Valuation τ sig (Elt Ideal)) :
    (StableHlo.after (hostOps5_2 (F := Ideal)) (StableHlo.after (hostOps5_1 (F := Ideal)) (StableHlo.after (hostOps5 (F := Ideal)) W)) main_v69
        : (⟨S40000x128, .f32⟩ : BufTy).Contents (Elt Ideal))
      = Cert.Agg.agg (W main_v53 : (⟨S40000x128, .f32⟩ : BufTy).Contents (Elt Ideal))
          (extf .f32 (W main_v5 : (⟨S640000x128, .bf16⟩ : BufTy).Contents (Elt Ideal)) bitsLt_bf16_f32)
          (W main_v1 : (⟨S640000, .i32⟩ : BufTy).Contents (Elt Ideal))
          (W main_v3 : (⟨S640000, .i32⟩ : BufTy).Contents (Elt Ideal)) := by
  show StableHlo.after hostOps5_2 (StableHlo.after hostOps5_1 (StableHlo.after hostOps5 W)) (Proc.devRef .tc main_v69) = _
  after_results_simp
  rfl

/-! ## The pooled rounds and their join -/

/-- Round 1's node states pooled per graph. -/
theorem s3_pool (W : Valuation τ sig (Elt Ideal)) :
    (StableHlo.after (hostOps3 (F := Ideal)) W main_v22 : (⟨S64x128, .f32⟩ : BufTy).Contents (Elt Ideal))
      = Cert.RefStages.pool (W main_arg3 : (⟨S40000, .i32⟩ : BufTy).Contents (Elt Ideal))
          (W main_v19 : (⟨S40000x128, .f32⟩ : BufTy).Contents (Elt Ideal)) := by
  show StableHlo.after hostOps3 W (Proc.devRef .tc main_v22) = _
  after_results_simp
  rfl

/-- Round 2's node states pooled per graph. -/
theorem s4_pool (W : Valuation τ sig (Elt Ideal)) :
    (StableHlo.after (hostOps4 (F := Ideal)) W main_v39 : (⟨S64x128, .f32⟩ : BufTy).Contents (Elt Ideal))
      = Cert.RefStages.pool (W main_arg3 : (⟨S40000, .i32⟩ : BufTy).Contents (Elt Ideal))
          (W main_v36 : (⟨S40000x128, .f32⟩ : BufTy).Contents (Elt Ideal)) := by
  show StableHlo.after hostOps4 W (Proc.devRef .tc main_v39) = _
  after_results_simp
  rfl

/-- Round 3's node states pooled per graph. -/
theorem s5_pool (W : Valuation τ sig (Elt Ideal)) :
    (StableHlo.after (hostOps5 (F := Ideal)) W main_v56 : (⟨S64x128, .f32⟩ : BufTy).Contents (Elt Ideal))
      = Cert.RefStages.pool (W main_arg3 : (⟨S40000, .i32⟩ : BufTy).Contents (Elt Ideal))
          (W main_v53 : (⟨S40000x128, .f32⟩ : BufTy).Contents (Elt Ideal)) := by
  show StableHlo.after hostOps5 W (Proc.devRef .tc main_v56) = _
  after_results_simp
  rfl

/-- Round 4's node states pooled per graph, joined along the columns behind the three pooled rounds before. -/
theorem s6 (W : Valuation τ sig (Elt Ideal)) :
    (StableHlo.after (hostOps6 (F := Ideal)) W main_v74 : (⟨S64x512, .f32⟩ : BufTy).Contents (Elt Ideal))
      = Cert.RefStages.cat4 (W main_v22 : (⟨S64x128, .f32⟩ : BufTy).Contents (Elt Ideal))
          (W main_v39 : (⟨S64x128, .f32⟩ : BufTy).Contents (Elt Ideal))
          (W main_v56 : (⟨S64x128, .f32⟩ : BufTy).Contents (Elt Ideal))
          (Cert.RefStages.pool (W main_arg3 : (⟨S40000, .i32⟩ : BufTy).Contents (Elt Ideal))
            (W main_v70 : (⟨S40000x128, .f32⟩ : BufTy).Contents (Elt Ideal))) := by
  show StableHlo.after hostOps6 W (Proc.devRef .tc main_v74) = _
  after_results_simp
  rfl

end Cert.Stretch

end
-- ==== Proof.KernelValue.lean ====
/-
  The idealized kernel's result is the reference's, stage by stage. With `a_k` the launch contents of argument k: region 0
  leaves h₀ = x·Wn + bn and region 1 e = edge_attr·We + be, the reference's first two stages; in each of the four rounds the
  host stretch between two regions computes the neighbour sums from the same h and e by the same operations as the
  reference does, and the round's region leaves relu((h + agg)·W1 + b1)·W2 + b2, the reference's next h; pooling each round's
  h by graph and joining the four results is pooling the joined array; the last region applies the output layer. Each
  step reads a buffer where the run left it, walks it back through the items that do not write it, and cites the stage's
  equation.
-/
import proofs.«102879_j77541339562639_2_alg».proof.Proof.Run
import proofs.«102879_j77541339562639_2_alg».proof.Proof.Final0
import proofs.«102879_j77541339562639_2_alg».proof.Proof.Final1
import proofs.«102879_j77541339562639_2_alg».proof.Proof.Final2
import proofs.«102879_j77541339562639_2_alg».proof.Proof.Final3
import proofs.«102879_j77541339562639_2_alg».proof.Proof.Final4
import proofs.«102879_j77541339562639_2_alg».proof.Proof.Final5
import proofs.«102879_j77541339562639_2_alg».proof.Proof.Final6
import proofs.«102879_j77541339562639_2_alg».proof.Proof.RefStages
import proofs.«102879_j77541339562639_2_alg».proof.Proof.Agg
import proofs.«102879_j77541339562639_2_alg».proof.Proof.Stretch

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-! ## The two input transforms -/

theorem T_h0 : X2 m c main_v4 = Cert.ReferenceIdeal.Read.val_main_v3 (F := Ideal) (V0 m c main_arg0) (V0 m c main_arg4) (V0 m c main_arg5) := by
  refine (X2_out m c).trans ?_
  unfold o2
  refine (final0 (rd (X1 m)) c).trans ?_
  show Cert.Dense.lin (M := 40000) (K := 32) (N := 128) (X1 m c main_arg0) (X1 m c main_arg4) (X1 m c main_arg5) = _
  rw [(X1_of m c main_arg0 (by decide)), (X1_of m c main_arg4 (by decide)), (X1_of m c main_arg5 (by decide))]
  exact (Cert.RefStages.h0_eq _ _ _).symm

theorem T_e3 : ∀ i, X3 m c main_v5 i = Cert.ReferenceIdeal.Read.val_main_v7 (F := Ideal) (V0 m c main_arg2) (V0 m c main_arg6) (V0 m c main_arg7) i := by
  intro i
  rw [X3_out m c]; unfold o3
  refine (final1 (rd (X2 m)) c i).trans ?_
  show Cert.Dense.lin (M := 640000) (K := 16) (N := 128) (X2 m c main_arg2) (X2 m c main_arg6) (X2 m c main_arg7) i = _
  rw [((X2_of_ne m c main_arg2 (by decide)).trans (X1_of m c main_arg2 (by decide))), ((X2_of_ne m c main_arg6 (by decide)).trans (X1_of m c main_arg6 (by decide))), ((X2_of_ne m c main_arg7 (by decide)).trans (X1_of m c main_arg7 (by decide)))]
  exact (congrFun (Cert.RefStages.e_eq _ _ _) i).symm

/-! ## The edge list's two rows, and e, at every boundary a host stretch starts from -/

theorem T_src1 : X1 m c main_v1 = Cert.ReferenceIdeal.Read.val_main_v9 (F := Ideal) (V0 m c main_arg1) :=
  (Cert.Stretch.s0_src (V0 m c)).trans (Cert.Agg.src_eq _).symm
theorem T_dst1 : X1 m c main_v3 = Cert.ReferenceIdeal.Read.val_main_v11 (F := Ideal) (V0 m c main_arg1) :=
  (Cert.Stretch.s0_dst (V0 m c)).trans (Cert.Agg.dst_eq _).symm
theorem T_src3 : X3 m c main_v1 = Cert.ReferenceIdeal.Read.val_main_v9 (F := Ideal) (V0 m c main_arg1) := ((X3_of_ne m c main_v1 (by decide)).trans (X2_of_ne m c main_v1 (by decide))).trans (T_src1 m c)
theorem T_dst3 : X3 m c main_v3 = Cert.ReferenceIdeal.Read.val_main_v11 (F := Ideal) (V0 m c main_arg1) := ((X3_of_ne m c main_v3 (by decide)).trans (X2_of_ne m c main_v3 (by decide))).trans (T_dst1 m c)
theorem T_src7 : X7 m c main_v1 = Cert.ReferenceIdeal.Read.val_main_v9 (F := Ideal) (V0 m c main_arg1) := ((X7_of_ne m c main_v1 (by decide)).trans ((X6_of m c main_v1 (by decide)).trans ((X5_of m c main_v1 (by decide)).trans ((X4_of m c main_v1 (by decide)).trans ((X3_of_ne m c main_v1 (by decide)).trans (X2_of_ne m c main_v1 (by decide))))))).trans (T_src1 m c)
theorem T_dst7 : X7 m c main_v3 = Cert.ReferenceIdeal.Read.val_main_v11 (F := Ideal) (V0 m c main_arg1) := ((X7_of_ne m c main_v3 (by decide)).trans ((X6_of m c main_v3 (by decide)).trans ((X5_of m c main_v3 (by decide)).trans ((X4_of m c main_v3 (by decide)).trans ((X3_of_ne m c main_v3 (by decide)).trans (X2_of_ne m c main_v3 (by decide))))))).trans (T_dst1 m c)
theorem T_e7 : ∀ i, X7 m c main_v5 i = Cert.ReferenceIdeal.Read.val_main_v7 (F := Ideal) (V0 m c main_arg2) (V0 m c main_arg6) (V0 m c main_arg7) i := fun i => (congrFun ((X7_of_ne m c main_v5 (by decide)).trans ((X6_of m c main_v5 (by decide)).trans ((X5_of m c main_v5 (by decide)).trans (X4_of m c main_v5 (by decide))))) i).trans (T_e3 m c i)
theorem T_src11 : X11 m c main_v1 = Cert.ReferenceIdeal.Read.val_main_v9 (F := Ideal) (V0 m c main_arg1) := ((X11_of_ne m c main_v1 (by decide)).trans ((X10_of m c main_v1 (by decide)).trans ((X9_of m c main_v1 (by decide)).trans ((X8_of m c main_v1 (by decide)).trans ((X7_of_ne m c main_v1 (by decide)).trans ((X6_of m c main_v1 (by decide)).trans ((X5_of m c main_v1 (by decide)).trans ((X4_of m c main_v1 (by decide)).trans ((X3_of_ne m c main_v1 (by decide)).trans (X2_of_ne m c main_v1 (by decide))))))))))).trans (T_src1 m c)
theorem T_dst11 : X11 m c main_v3 = Cert.ReferenceIdeal.Read.val_main_v11 (F := Ideal) (V0 m c main_arg1) := ((X11_of_ne m c main_v3 (by decide)).trans ((X10_of m c main_v3 (by decide)).trans ((X9_of m c main_v3 (by decide)).trans ((X8_of m c main_v3 (by decide)).trans ((X7_of_ne m c main_v3 (by decide)).trans ((X6_of m c main_v3 (by decide)).trans ((X5_of m c main_v3 (by decide)).trans ((X4_of m c main_v3 (by decide)).trans ((X3_of_ne m c main_v3 (by decide)).trans (X2_of_ne m c main_v3 (by decide))))))))))).trans (T_dst1 m c)
theorem T_e11 : ∀ i, X11 m c main_v5 i = Cert.ReferenceIdeal.Read.val_main_v7 (F := Ideal) (V0 m c main_arg2) (V0 m c main_arg6) (V0 m c main_arg7) i := fun i => (congrFun ((X11_of_ne m c main_v5 (by decide)).trans ((X10_of m c main_v5 (by decide)).trans ((X9_of m c main_v5 (by decide)).trans ((X8_of m c main_v5 (by decide)).trans ((X7_of_ne m c main_v5 (by decide)).trans ((X6_of m c main_v5 (by decide)).trans ((X5_of m c main_v5 (by decide)).trans (X4_of m c main_v5 (by decide))))))))) i).trans (T_e3 m c i)
theorem T_src15 : X15 m c main_v1 = Cert.ReferenceIdeal.Read.val_main_v9 (F := Ideal) (V0 m c main_arg1) := ((X15_of_ne m c main_v1 (by decide)).trans ((X14_of m c main_v1 (by decide)).trans ((X13_of m c main_v1 (by decide)).trans ((X12_of m c main_v1 (by decide)).trans ((X11_of_ne m c main_v1 (by decide)).trans ((X10_of m c main_v1 (by decide)).trans ((X9_of m c main_v1 (by decide)).trans ((X8_of m c main_v1 (by decide)).trans ((X7_of_ne m c main_v1 (by decide)).trans ((X6_of m c main_v1 (by decide)).trans ((X5_of m c main_v1 (by decide)).trans ((X4_of m c main_v1 (by decide)).trans ((X3_of_ne m c main_v1 (by decide)).trans (X2_of_ne m c main_v1 (by decide))))))))))))))).trans (T_src1 m c)
theorem T_dst15 : X15 m c main_v3 = Cert.ReferenceIdeal.Read.val_main_v11 (F := Ideal) (V0 m c main_arg1) := ((X15_of_ne m c main_v3 (by decide)).trans ((X14_of m c main_v3 (by decide)).trans ((X13_of m c main_v3 (by decide)).trans ((X12_of m c main_v3 (by decide)).trans ((X11_of_ne m c main_v3 (by decide)).trans ((X10_of m c main_v3 (by decide)).trans ((X9_of m c main_v3 (by decide)).trans ((X8_of m c main_v3 (by decide)).trans ((X7_of_ne m c main_v3 (by decide)).trans ((X6_of m c main_v3 (by decide)).trans ((X5_of m c main_v3 (by decide)).trans ((X4_of m c main_v3 (by decide)).trans ((X3_of_ne m c main_v3 (by decide)).trans (X2_of_ne m c main_v3 (by decide))))))))))))))).trans (T_dst1 m c)
theorem T_e15 : ∀ i, X15 m c main_v5 i = Cert.ReferenceIdeal.Read.val_main_v7 (F := Ideal) (V0 m c main_arg2) (V0 m c main_arg6) (V0 m c main_arg7) i := fun i => (congrFun ((X15_of_ne m c main_v5 (by decide)).trans ((X14_of m c main_v5 (by decide)).trans ((X13_of m c main_v5 (by decide)).trans ((X12_of m c main_v5 (by decide)).trans ((X11_of_ne m c main_v5 (by decide)).trans ((X10_of m c main_v5 (by decide)).trans ((X9_of m c main_v5 (by decide)).trans ((X8_of m c main_v5 (by decide)).trans ((X7_of_ne m c main_v5 (by decide)).trans ((X6_of m c main_v5 (by decide)).trans ((X5_of m c main_v5 (by decide)).trans (X4_of m c main_v5 (by decide))))))))))))) i).trans (T_e3 m c i)

/-! ## Round 1 -/

theorem T_agg1 : X6 m c main_v18 = Cert.ReferenceIdeal.Read.val_main_v23 (F := Ideal) (V0 m c main_arg0) (V0 m c main_arg1) (V0 m c main_arg2) (V0 m c main_arg4) (V0 m c main_arg5) (V0 m c main_arg6) (V0 m c main_arg7) := by
  unfold X6 X5 X4
  refine (Cert.Stretch.s2 (X3 m c)).trans ?_
  rw [(X3_of_ne m c main_v4 (by decide)), T_h0 m c, Cert.Stretch.ext_id _ _ (T_e3 m c), T_src3 m c, T_dst3 m c]
  exact (Cert.Agg.ref_agg1 _ _ _ _ _ _ _).symm

theorem T_h1 : X7 m c main_v19 = Cert.ReferenceIdeal.Read.val_main_v33 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11) := by
  refine (X7_out m c).trans ?_
  unfold o7
  refine (final2 (rd (X6 m)) c).trans ?_
  show Cert.Dense.mlp (M := 40000) (D := 128) (X6 m c main_v4) (X6 m c main_v18) (X6 m c main_arg8) (X6 m c main_arg9) (X6 m c main_arg10) (X6 m c main_arg11) = _
  rw [((X6_of m c main_v4 (by decide)).trans ((X5_of m c main_v4 (by decide)).trans ((X4_of m c main_v4 (by decide)).trans (X3_of_ne m c main_v4 (by decide))))), T_h0 m c, T_agg1 m c, ((X6_of m c main_arg8 (by decide)).trans ((X5_of m c main_arg8 (by decide)).trans ((X4_of m c main_arg8 (by decide)).trans ((X3_of_ne m c main_arg8 (by decide)).trans ((X2_of_ne m c main_arg8 (by decide)).trans (X1_of m c main_arg8 (by decide))))))), ((X6_of m c main_arg9 (by decide)).trans ((X5_of m c main_arg9 (by decide)).trans ((X4_of m c main_arg9 (by decide)).trans ((X3_of_ne m c main_arg9 (by decide)).trans ((X2_of_ne m c main_arg9 (by decide)).trans (X1_of m c main_arg9 (by decide))))))), ((X6_of m c main_arg10 (by decide)).trans ((X5_of m c main_arg10 (by decide)).trans ((X4_of m c main_arg10 (by decide)).trans ((X3_of_ne m c main_arg10 (by decide)).trans ((X2_of_ne m c main_arg10 (by decide)).trans (X1_of m c main_arg10 (by decide))))))), ((X6_of m c main_arg11 (by decide)).trans ((X5_of m c main_arg11 (by decide)).trans ((X4_of m c main_arg11 (by decide)).trans ((X3_of_ne m c main_arg11 (by decide)).trans ((X2_of_ne m c main_arg11 (by decide)).trans (X1_of m c main_arg11 (by decide)))))))]
  exact (Cert.RefStages.round1 _ _ _ _ _ _ _ _ _ _ _).symm

/-! ## Round 2 -/

theorem T_agg2 : X10 m c main_v35 = Cert.ReferenceIdeal.Read.val_main_v45 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11) := by
  unfold X10 X9 X8
  refine (Cert.Stretch.s3_agg (X7 m c)).trans ?_
  rw [T_h1 m c, Cert.Stretch.ext_id _ _ (T_e7 m c), T_src7 m c, T_dst7 m c]
  exact (Cert.Agg.ref_agg2 _ _ _ _ _ _ _ _ _ _ _).symm

theorem T_h2 : X11 m c main_v36 = Cert.ReferenceIdeal.Read.val_main_v55 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11) := by
  refine (X11_out m c).trans ?_
  unfold o11
  refine (final3 (rd (X10 m)) c).trans ?_
  show Cert.Dense.mlp (M := 40000) (D := 128) (X10 m c main_v19) (X10 m c main_v35) (X10 m c main_arg8) (X10 m c main_arg9) (X10 m c main_arg10) (X10 m c main_arg11) = _
  rw [((X10_of m c main_v19 (by decide)).trans ((X9_of m c main_v19 (by decide)).trans (X8_of m c main_v19 (by decide)))), T_h1 m c, T_agg2 m c, ((X10_of m c main_arg8 (by decide)).trans ((X9_of m c main_arg8 (by decide)).trans ((X8_of m c main_arg8 (by decide)).trans ((X7_of_ne m c main_arg8 (by decide)).trans ((X6_of m c main_arg8 (by decide)).trans ((X5_of m c main_arg8 (by decide)).trans ((X4_of m c main_arg8 (by decide)).trans ((X3_of_ne m c main_arg8 (by decide)).trans ((X2_of_ne m c main_arg8 (by decide)).trans (X1_of m c main_arg8 (by decide))))))))))), ((X10_of m c main_arg9 (by decide)).trans ((X9_of m c main_arg9 (by decide)).trans ((X8_of m c main_arg9 (by decide)).trans ((X7_of_ne m c main_arg9 (by decide)).trans ((X6_of m c main_arg9 (by decide)).trans ((X5_of m c main_arg9 (by decide)).trans ((X4_of m c main_arg9 (by decide)).trans ((X3_of_ne m c main_arg9 (by decide)).trans ((X2_of_ne m c main_arg9 (by decide)).trans (X1_of m c main_arg9 (by decide))))))))))), ((X10_of m c main_arg10 (by decide)).trans ((X9_of m c main_arg10 (by decide)).trans ((X8_of m c main_arg10 (by decide)).trans ((X7_of_ne m c main_arg10 (by decide)).trans ((X6_of m c main_arg10 (by decide)).trans ((X5_of m c main_arg10 (by decide)).trans ((X4_of m c main_arg10 (by decide)).trans ((X3_of_ne m c main_arg10 (by decide)).trans ((X2_of_ne m c main_arg10 (by decide)).trans (X1_of m c main_arg10 (by decide))))))))))), ((X10_of m c main_arg11 (by decide)).trans ((X9_of m c main_arg11 (by decide)).trans ((X8_of m c main_arg11 (by decide)).trans ((X7_of_ne m c main_arg11 (by decide)).trans ((X6_of m c main_arg11 (by decide)).trans ((X5_of m c main_arg11 (by decide)).trans ((X4_of m c main_arg11 (by decide)).trans ((X3_of_ne m c main_arg11 (by decide)).trans ((X2_of_ne m c main_arg11 (by decide)).trans (X1_of m c main_arg11 (by decide)))))))))))]
  exact (Cert.RefStages.round2 _ _ _ _ _ _ _ _ _ _ _).symm

/-! ## Round 3 -/

theorem T_agg3 : X14 m c main_v52 = Cert.ReferenceIdeal.Read.val_main_v67 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11) := by
  unfold X14 X13 X12
  refine (Cert.Stretch.s4_agg (X11 m c)).trans ?_
  rw [T_h2 m c, Cert.Stretch.ext_id _ _ (T_e11 m c), T_src11 m c, T_dst11 m c]
  exact (Cert.Agg.ref_agg3 _ _ _ _ _ _ _ _ _ _ _).symm

theorem T_h3 : X15 m c main_v53 = Cert.ReferenceIdeal.Read.val_main_v77 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11) := by
  refine (X15_out m c).trans ?_
  unfold o15
  refine (final4 (rd (X14 m)) c).trans ?_
  show Cert.Dense.mlp (M := 40000) (D := 128) (X14 m c main_v36) (X14 m c main_v52) (X14 m c main_arg8) (X14 m c main_arg9) (X14 m c main_arg10) (X14 m c main_arg11) = _
  rw [((X14_of m c main_v36 (by decide)).trans ((X13_of m c main_v36 (by decide)).trans (X12_of m c main_v36 (by decide)))), T_h2 m c, T_agg3 m c, ((X14_of m c main_arg8 (by decide)).trans ((X13_of m c main_arg8 (by decide)).trans ((X12_of m c main_arg8 (by decide)).trans ((X11_of_ne m c main_arg8 (by decide)).trans ((X10_of m c main_arg8 (by decide)).trans ((X9_of m c main_arg8 (by decide)).trans ((X8_of m c main_arg8 (by decide)).trans ((X7_of_ne m c main_arg8 (by decide)).trans ((X6_of m c main_arg8 (by decide)).trans ((X5_of m c main_arg8 (by decide)).trans ((X4_of m c main_arg8 (by decide)).trans ((X3_of_ne m c main_arg8 (by decide)).trans ((X2_of_ne m c main_arg8 (by decide)).trans (X1_of m c main_arg8 (by decide))))))))))))))), ((X14_of m c main_arg9 (by decide)).trans ((X13_of m c main_arg9 (by decide)).trans ((X12_of m c main_arg9 (by decide)).trans ((X11_of_ne m c main_arg9 (by decide)).trans ((X10_of m c main_arg9 (by decide)).trans ((X9_of m c main_arg9 (by decide)).trans ((X8_of m c main_arg9 (by decide)).trans ((X7_of_ne m c main_arg9 (by decide)).trans ((X6_of m c main_arg9 (by decide)).trans ((X5_of m c main_arg9 (by decide)).trans ((X4_of m c main_arg9 (by decide)).trans ((X3_of_ne m c main_arg9 (by decide)).trans ((X2_of_ne m c main_arg9 (by decide)).trans (X1_of m c main_arg9 (by decide))))))))))))))), ((X14_of m c main_arg10 (by decide)).trans ((X13_of m c main_arg10 (by decide)).trans ((X12_of m c main_arg10 (by decide)).trans ((X11_of_ne m c main_arg10 (by decide)).trans ((X10_of m c main_arg10 (by decide)).trans ((X9_of m c main_arg10 (by decide)).trans ((X8_of m c main_arg10 (by decide)).trans ((X7_of_ne m c main_arg10 (by decide)).trans ((X6_of m c main_arg10 (by decide)).trans ((X5_of m c main_arg10 (by decide)).trans ((X4_of m c main_arg10 (by decide)).trans ((X3_of_ne m c main_arg10 (by decide)).trans ((X2_of_ne m c main_arg10 (by decide)).trans (X1_of m c main_arg10 (by decide))))))))))))))), ((X14_of m c main_arg11 (by decide)).trans ((X13_of m c main_arg11 (by decide)).trans ((X12_of m c main_arg11 (by decide)).trans ((X11_of_ne m c main_arg11 (by decide)).trans ((X10_of m c main_arg11 (by decide)).trans ((X9_of m c main_arg11 (by decide)).trans ((X8_of m c main_arg11 (by decide)).trans ((X7_of_ne m c main_arg11 (by decide)).trans ((X6_of m c main_arg11 (by decide)).trans ((X5_of m c main_arg11 (by decide)).trans ((X4_of m c main_arg11 (by decide)).trans ((X3_of_ne m c main_arg11 (by decide)).trans ((X2_of_ne m c main_arg11 (by decide)).trans (X1_of m c main_arg11 (by decide)))))))))))))))]
  exact (Cert.RefStages.round3 _ _ _ _ _ _ _ _ _ _ _).symm

/-! ## Round 4 -/

theorem T_agg4 : X18 m c main_v69 = Cert.ReferenceIdeal.Read.val_main_v89 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11) := by
  unfold X18 X17 X16
  refine (Cert.Stretch.s5_agg (X15 m c)).trans ?_
  rw [T_h3 m c, Cert.Stretch.ext_id _ _ (T_e15 m c), T_src15 m c, T_dst15 m c]
  exact (Cert.Agg.ref_agg4 _ _ _ _ _ _ _ _ _ _ _).symm

theorem T_h4 : X19 m c main_v70 = Cert.ReferenceIdeal.Read.val_main_v99 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11) := by
  refine (X19_out m c).trans ?_
  unfold o19
  refine (final5 (rd (X18 m)) c).trans ?_
  show Cert.Dense.mlp (M := 40000) (D := 128) (X18 m c main_v53) (X18 m c main_v69) (X18 m c main_arg8) (X18 m c main_arg9) (X18 m c main_arg10) (X18 m c main_arg11) = _
  rw [((X18_of m c main_v53 (by decide)).trans ((X17_of m c main_v53 (by decide)).trans (X16_of m c main_v53 (by decide)))), T_h3 m c, T_agg4 m c, ((X18_of m c main_arg8 (by decide)).trans ((X17_of m c main_arg8 (by decide)).trans ((X16_of m c main_arg8 (by decide)).trans ((X15_of_ne m c main_arg8 (by decide)).trans ((X14_of m c main_arg8 (by decide)).trans ((X13_of m c main_arg8 (by decide)).trans ((X12_of m c main_arg8 (by decide)).trans ((X11_of_ne m c main_arg8 (by decide)).trans ((X10_of m c main_arg8 (by decide)).trans ((X9_of m c main_arg8 (by decide)).trans ((X8_of m c main_arg8 (by decide)).trans ((X7_of_ne m c main_arg8 (by decide)).trans ((X6_of m c main_arg8 (by decide)).trans ((X5_of m c main_arg8 (by decide)).trans ((X4_of m c main_arg8 (by decide)).trans ((X3_of_ne m c main_arg8 (by decide)).trans ((X2_of_ne m c main_arg8 (by decide)).trans (X1_of m c main_arg8 (by decide))))))))))))))))))), ((X18_of m c main_arg9 (by decide)).trans ((X17_of m c main_arg9 (by decide)).trans ((X16_of m c main_arg9 (by decide)).trans ((X15_of_ne m c main_arg9 (by decide)).trans ((X14_of m c main_arg9 (by decide)).trans ((X13_of m c main_arg9 (by decide)).trans ((X12_of m c main_arg9 (by decide)).trans ((X11_of_ne m c main_arg9 (by decide)).trans ((X10_of m c main_arg9 (by decide)).trans ((X9_of m c main_arg9 (by decide)).trans ((X8_of m c main_arg9 (by decide)).trans ((X7_of_ne m c main_arg9 (by decide)).trans ((X6_of m c main_arg9 (by decide)).trans ((X5_of m c main_arg9 (by decide)).trans ((X4_of m c main_arg9 (by decide)).trans ((X3_of_ne m c main_arg9 (by decide)).trans ((X2_of_ne m c main_arg9 (by decide)).trans (X1_of m c main_arg9 (by decide))))))))))))))))))), ((X18_of m c main_arg10 (by decide)).trans ((X17_of m c main_arg10 (by decide)).trans ((X16_of m c main_arg10 (by decide)).trans ((X15_of_ne m c main_arg10 (by decide)).trans ((X14_of m c main_arg10 (by decide)).trans ((X13_of m c main_arg10 (by decide)).trans ((X12_of m c main_arg10 (by decide)).trans ((X11_of_ne m c main_arg10 (by decide)).trans ((X10_of m c main_arg10 (by decide)).trans ((X9_of m c main_arg10 (by decide)).trans ((X8_of m c main_arg10 (by decide)).trans ((X7_of_ne m c main_arg10 (by decide)).trans ((X6_of m c main_arg10 (by decide)).trans ((X5_of m c main_arg10 (by decide)).trans ((X4_of m c main_arg10 (by decide)).trans ((X3_of_ne m c main_arg10 (by decide)).trans ((X2_of_ne m c main_arg10 (by decide)).trans (X1_of m c main_arg10 (by decide))))))))))))))))))), ((X18_of m c main_arg11 (by decide)).trans ((X17_of m c main_arg11 (by decide)).trans ((X16_of m c main_arg11 (by decide)).trans ((X15_of_ne m c main_arg11 (by decide)).trans ((X14_of m c main_arg11 (by decide)).trans ((X13_of m c main_arg11 (by decide)).trans ((X12_of m c main_arg11 (by decide)).trans ((X11_of_ne m c main_arg11 (by decide)).trans ((X10_of m c main_arg11 (by decide)).trans ((X9_of m c main_arg11 (by decide)).trans ((X8_of m c main_arg11 (by decide)).trans ((X7_of_ne m c main_arg11 (by decide)).trans ((X6_of m c main_arg11 (by decide)).trans ((X5_of m c main_arg11 (by decide)).trans ((X4_of m c main_arg11 (by decide)).trans ((X3_of_ne m c main_arg11 (by decide)).trans ((X2_of_ne m c main_arg11 (by decide)).trans (X1_of m c main_arg11 (by decide)))))))))))))))))))]
  exact (Cert.RefStages.round4 _ _ _ _ _ _ _ _ _ _ _).symm

/-! ## The pooled rounds, their join, and the output layer -/
theorem T_pool1 : X8 m c main_v22 = Cert.RefStages.pool (V0 m c main_arg3) (Cert.ReferenceIdeal.Read.val_main_v33 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11)) := by
  unfold X8
  refine (Cert.Stretch.s3_pool (X7 m c)).trans ?_
  rw [((X7_of_ne m c main_arg3 (by decide)).trans ((X6_of m c main_arg3 (by decide)).trans ((X5_of m c main_arg3 (by decide)).trans ((X4_of m c main_arg3 (by decide)).trans ((X3_of_ne m c main_arg3 (by decide)).trans ((X2_of_ne m c main_arg3 (by decide)).trans (X1_of m c main_arg3 (by decide)))))))), T_h1 m c]
theorem T_pool2 : X12 m c main_v39 = Cert.RefStages.pool (V0 m c main_arg3) (Cert.ReferenceIdeal.Read.val_main_v55 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11)) := by
  unfold X12
  refine (Cert.Stretch.s4_pool (X11 m c)).trans ?_
  rw [((X11_of_ne m c main_arg3 (by decide)).trans ((X10_of m c main_arg3 (by decide)).trans ((X9_of m c main_arg3 (by decide)).trans ((X8_of m c main_arg3 (by decide)).trans ((X7_of_ne m c main_arg3 (by decide)).trans ((X6_of m c main_arg3 (by decide)).trans ((X5_of m c main_arg3 (by decide)).trans ((X4_of m c main_arg3 (by decide)).trans ((X3_of_ne m c main_arg3 (by decide)).trans ((X2_of_ne m c main_arg3 (by decide)).trans (X1_of m c main_arg3 (by decide)))))))))))), T_h2 m c]
theorem T_pool3 : X16 m c main_v56 = Cert.RefStages.pool (V0 m c main_arg3) (Cert.ReferenceIdeal.Read.val_main_v77 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11)) := by
  unfold X16
  refine (Cert.Stretch.s5_pool (X15 m c)).trans ?_
  rw [((X15_of_ne m c main_arg3 (by decide)).trans ((X14_of m c main_arg3 (by decide)).trans ((X13_of m c main_arg3 (by decide)).trans ((X12_of m c main_arg3 (by decide)).trans ((X11_of_ne m c main_arg3 (by decide)).trans ((X10_of m c main_arg3 (by decide)).trans ((X9_of m c main_arg3 (by decide)).trans ((X8_of m c main_arg3 (by decide)).trans ((X7_of_ne m c main_arg3 (by decide)).trans ((X6_of m c main_arg3 (by decide)).trans ((X5_of m c main_arg3 (by decide)).trans ((X4_of m c main_arg3 (by decide)).trans ((X3_of_ne m c main_arg3 (by decide)).trans ((X2_of_ne m c main_arg3 (by decide)).trans (X1_of m c main_arg3 (by decide)))))))))))))))), T_h3 m c]

theorem T_cat : X20 m c main_v74 = Cert.RefStages.cat4 (Cert.RefStages.pool (V0 m c main_arg3) (Cert.ReferenceIdeal.Read.val_main_v33 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11))) (Cert.RefStages.pool (V0 m c main_arg3) (Cert.ReferenceIdeal.Read.val_main_v55 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11))) (Cert.RefStages.pool (V0 m c main_arg3) (Cert.ReferenceIdeal.Read.val_main_v77 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11))) (Cert.RefStages.pool (V0 m c main_arg3) (Cert.ReferenceIdeal.Read.val_main_v99 (F := Ideal) (V0 m c main_arg0) (V0 m c main_arg1) (V0 m c main_arg2) (V0 m c main_arg4) (V0 m c main_arg5) (V0 m c main_arg6) (V0 m c main_arg7) (V0 m c main_arg8) (V0 m c main_arg9) (V0 m c main_arg10) (V0 m c main_arg11))) := by
  unfold X20
  refine (Cert.Stretch.s6 (X19 m c)).trans ?_
  rw [((X19_of_ne m c main_v22 (by decide)).trans ((X18_of m c main_v22 (by decide)).trans ((X17_of m c main_v22 (by decide)).trans ((X16_of m c main_v22 (by decide)).trans ((X15_of_ne m c main_v22 (by decide)).trans ((X14_of m c main_v22 (by decide)).trans ((X13_of m c main_v22 (by decide)).trans ((X12_of m c main_v22 (by decide)).trans ((X11_of_ne m c main_v22 (by decide)).trans ((X10_of m c main_v22 (by decide)).trans (X9_of m c main_v22 (by decide)))))))))))), T_pool1 m c, ((X19_of_ne m c main_v39 (by decide)).trans ((X18_of m c main_v39 (by decide)).trans ((X17_of m c main_v39 (by decide)).trans ((X16_of m c main_v39 (by decide)).trans ((X15_of_ne m c main_v39 (by decide)).trans ((X14_of m c main_v39 (by decide)).trans (X13_of m c main_v39 (by decide)))))))), T_pool2 m c, ((X19_of_ne m c main_v56 (by decide)).trans ((X18_of m c main_v56 (by decide)).trans (X17_of m c main_v56 (by decide)))), T_pool3 m c, ((X19_of_ne m c main_arg3 (by decide)).trans ((X18_of m c main_arg3 (by decide)).trans ((X17_of m c main_arg3 (by decide)).trans ((X16_of m c main_arg3 (by decide)).trans ((X15_of_ne m c main_arg3 (by decide)).trans ((X14_of m c main_arg3 (by decide)).trans ((X13_of m c main_arg3 (by decide)).trans ((X12_of m c main_arg3 (by decide)).trans ((X11_of_ne m c main_arg3 (by decide)).trans ((X10_of m c main_arg3 (by decide)).trans ((X9_of m c main_arg3 (by decide)).trans ((X8_of m c main_arg3 (by decide)).trans ((X7_of_ne m c main_arg3 (by decide)).trans ((X6_of m c main_arg3 (by decide)).trans ((X5_of m c main_arg3 (by decide)).trans ((X4_of m c main_arg3 (by decide)).trans ((X3_of_ne m c main_arg3 (by decide)).trans ((X2_of_ne m c main_arg3 (by decide)).trans (X1_of m c main_arg3 (by decide)))))))))))))))))))), T_h4 m c]

/-- THE KERNEL'S RESULT: the result buffer ends at the reference's last stage of the launch contents of the arguments. -/
theorem kernel_value : X21 m c main_v75 = Cert.ReferenceIdeal.Read.val_main_v107 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) := by
  refine (X21_out m c).trans ?_
  unfold o21
  refine (final6 (rd (X20 m)) c).trans ?_
  show Cert.Dense.lin (M := 64) (K := 512) (N := 256) (X20 m c main_v74) (X20 m c main_arg12) (X20 m c main_arg13) = _
  rw [T_cat m c, ((X20_of m c main_arg12 (by decide)).trans ((X19_of_ne m c main_arg12 (by decide)).trans ((X18_of m c main_arg12 (by decide)).trans ((X17_of m c main_arg12 (by decide)).trans ((X16_of m c main_arg12 (by decide)).trans ((X15_of_ne m c main_arg12 (by decide)).trans ((X14_of m c main_arg12 (by decide)).trans ((X13_of m c main_arg12 (by decide)).trans ((X12_of m c main_arg12 (by decide)).trans ((X11_of_ne m c main_arg12 (by decide)).trans ((X10_of m c main_arg12 (by decide)).trans ((X9_of m c main_arg12 (by decide)).trans ((X8_of m c main_arg12 (by decide)).trans ((X7_of_ne m c main_arg12 (by decide)).trans ((X6_of m c main_arg12 (by decide)).trans ((X5_of m c main_arg12 (by decide)).trans ((X4_of m c main_arg12 (by decide)).trans ((X3_of_ne m c main_arg12 (by decide)).trans ((X2_of_ne m c main_arg12 (by decide)).trans (X1_of m c main_arg12 (by decide))))))))))))))))))))), ((X20_of m c main_arg13 (by decide)).trans ((X19_of_ne m c main_arg13 (by decide)).trans ((X18_of m c main_arg13 (by decide)).trans ((X17_of m c main_arg13 (by decide)).trans ((X16_of m c main_arg13 (by decide)).trans ((X15_of_ne m c main_arg13 (by decide)).trans ((X14_of m c main_arg13 (by decide)).trans ((X13_of m c main_arg13 (by decide)).trans ((X12_of m c main_arg13 (by decide)).trans ((X11_of_ne m c main_arg13 (by decide)).trans ((X10_of m c main_arg13 (by decide)).trans ((X9_of m c main_arg13 (by decide)).trans ((X8_of m c main_arg13 (by decide)).trans ((X7_of_ne m c main_arg13 (by decide)).trans ((X6_of m c main_arg13 (by decide)).trans ((X5_of m c main_arg13 (by decide)).trans ((X4_of m c main_arg13 (by decide)).trans ((X3_of_ne m c main_arg13 (by decide)).trans ((X2_of_ne m c main_arg13 (by decide)).trans (X1_of m c main_arg13 (by decide)))))))))))))))))))))]
  exact (Cert.RefStages.tail _ _ _ _ _ _ _ _ _ _ _ _ _ _).symm

end Cert.KernelIdeal.Hand

end
-- ==== Proof.RunValue.lean ====
/-
  The idealized kernel's run with its result named: every execution ends with the result buffer at the reference's last
  stage of the launch contents of the arguments, and with the arguments as launched.
-/
import proofs.«102879_j77541339562639_2_alg».proof.Proof.Frame
import proofs.«102879_j77541339562639_2_alg».proof.Proof.KernelValue

set_option maxRecDepth 16384

noncomputable section

namespace Cert.KernelIdeal.Hand

open Cert.KernelIdeal Cert.KernelIdeal.Gen
open Idealize.ShloMosaic Idealize.ShloMosaic.TcCoe Idealize.SL.Sem

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v75) = Cert.ReferenceIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v75 (by decide))).trans (kernel_value m c),
    (h c _ (mem_uc main_arg0 (by decide))).trans (X21_arg0 m c),
    (h c _ (mem_uc main_arg1 (by decide))).trans (X21_arg1 m c),
    (h c _ (mem_uc main_arg2 (by decide))).trans (X21_arg2 m c),
    (h c _ (mem_uc main_arg3 (by decide))).trans (X21_arg3 m c),
    (h c _ (mem_uc main_arg4 (by decide))).trans (X21_arg4 m c),
    (h c _ (mem_uc main_arg5 (by decide))).trans (X21_arg5 m c),
    (h c _ (mem_uc main_arg6 (by decide))).trans (X21_arg6 m c),
    (h c _ (mem_uc main_arg7 (by decide))).trans (X21_arg7 m c),
    (h c _ (mem_uc main_arg8 (by decide))).trans (X21_arg8 m c),
    (h c _ (mem_uc main_arg9 (by decide))).trans (X21_arg9 m c),
    (h c _ (mem_uc main_arg10 (by decide))).trans (X21_arg10 m c),
    (h c _ (mem_uc main_arg11 (by decide))).trans (X21_arg11 m c),
    (h c _ (mem_uc main_arg12 (by decide))).trans (X21_arg12 m c),
    (h c _ (mem_uc main_arg13 (by decide))).trans (X21_arg13 m c)⟩)
    (run_main (F := Ideal) m ρ)

end Cert.KernelIdeal.Hand

end
-- ==== Proof.lean ====
/-
  The certificate of a four-round graph network whose dense layers run as seven kernel regions (two input transforms,
  four node updates, the output head) between stretches of host operations (gathers, rectifiers, scatter sums, a join),
  against a plain reference that computes the same network with whole-array products, joins the four rounds' node
  features first and pools once.

  Frames. @main is 21 items. Each region's body loads whole blocks, computes, and stores one whole block, so its body
  obligation is one run of the body on whole staging buffers; each region is entered with every buffer at a named
  valuation and left with its output array replaced by what its grid points wrote back; the items chain, and the last
  valuation holds every argument as launched (Run, RunB, Frame, FrameB: the same argument at any float instance,
  read at the word-level instance for the printed kernel and at the extended reals for its idealization). The
  reference has no kernel: its frame is its generated run with the result dropped.

  Values, at the extended reals. Every block of rows of an affine layer x·W + b, and of a node update
  relu((h + agg)·W1 + b1)·W2 + b2, computed from that block of rows alone is that block of the whole layer, because row r
  of a product depends on row r of the left factor only; so each region's output array is the whole layer of its input
  arrays (Final0 … Final6), which is the reference's stage (RefStages). Between the regions both programs apply the same
  gather, add, rectifier and scatter sum to equal arrays (Agg, Stretch). Pooling each round's node features by graph and
  joining the four [64,128] results along the columns equals joining the four node arrays and pooling once, column by
  column (RefStages, pooling law). Only sums in a commutative monoid are rearranged: no finiteness of the inputs is used.
  The idealization rewrote nothing, so there is nothing to preserve.
-/
import proofs.«102879_j77541339562639_2_alg».proof.Defs
import proofs.«102879_j77541339562639_2_alg».proof.Proof.Gen.Kernel
import proofs.«102879_j77541339562639_2_alg».proof.Proof.Gen.KernelIdeal
import proofs.«102879_j77541339562639_2_alg».proof.Proof.Gen.ReferenceIdeal
import proofs.«102879_j77541339562639_2_alg».proof.Proof.Gen.Pre_finite_inputs
import proofs.«102879_j77541339562639_2_alg».proof.Proof.Gen.ReferenceIdeal.Read
import proofs.«102879_j77541339562639_2_alg».proof.Proof.FrameB
import proofs.«102879_j77541339562639_2_alg».proof.Proof.RunValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the arguments, and the arguments agree. -/
theorem algebraic : Cert.algebraic_KernelIdeal_ReferenceIdeal := by
  intro m ρ m' ρ' _ hagree
  refine ⟨fun c => Cert.ReferenceIdeal.Read.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v107_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
